-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x32 : Shape := ⟨2, ![96, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S96 .f32) (main_arg6 : FVec F S96x32 .f32) (main_arg7 : FVec F S32 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x32 .f32 := Host.absf main_arg6
  let main_cst_8 : FVec F S_ .f32 := constant S_ .f32 0x7F800000#32
  let main_v25 : FVec F S96x32 .f32 := broadcastInDim S96x32 ![] bcast_S_S96x32 main_cst_8
  let main_v26 : IVec S96x32 1 := cmpf .olt main_v24 main_v25
  let main_c_9 : IVec S_ 1 := constantI S_ 1 1#1
  let main_v27 : IVec S_ 1 := (fun x v => Host.reduce IntOp.andi x v reducesTo_S96x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x96 .f32) (main_arg3 : FVec F S96 .f32) (main_arg4 : FVec F S96x96 .f32) (main_arg5 : FVec F S96 .f32) (main_arg6 : FVec F S96x32 .f32) (main_arg7 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x32 : Shape := ⟨2, ![96, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S128x128 : Shape := ⟨2, ![128, 128]⟩
abbrev S128 : Shape := ⟨1, ![128]⟩
abbrev S1x128 : Shape := ⟨2, ![1, 128]⟩
abbrev S96x128 : Shape := ⟨2, ![96, 128]⟩
abbrev S128x32 : Shape := ⟨2, ![128, 32]⟩
abbrev S1x32 : Shape := ⟨2, ![1, 32]⟩
abbrev S2000x128 : Shape := ⟨2, ![2000, 128]⟩
abbrev S2000x1 : Shape := ⟨2, ![2000, 1]⟩
abbrev S850000x128 : Shape := ⟨2, ![850000, 128]⟩
abbrev S50000x32 : Shape := ⟨2, ![50000, 32]⟩
abbrev S2000x32 : Shape := ⟨2, ![2000, 32]⟩
abbrev S850000x32 : Shape := ⟨2, ![850000, 32]⟩
abbrev S2000 : Shape := ⟨1, ![2000]⟩

abbrev nBuf : Space → Nat
  | .hbm => 123
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S850000, .i32⟩
  | .hbm, ⟨16, _⟩ => ⟨S850000, .i32⟩
  | .hbm, ⟨17, _⟩ => ⟨S850000, .i32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S850000, .i32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .i32⟩
  | .hbm, ⟨36, _⟩ => ⟨S_, .f32⟩
  | .hbm, ⟨37, _⟩ => ⟨S850000, .f32⟩
  | .hbm, ⟨38, _⟩ => ⟨S_, .f32⟩
  | .hbm, ⟨39, _⟩ => ⟨S50000, .f32⟩
  | .hbm, ⟨40, _⟩ => ⟨S850000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .i1⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S_, .i32⟩
  | .hbm, ⟨55, _⟩ => ⟨S_, .f32⟩
  | .hbm, ⟨56, _⟩ => ⟨S128x128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S_, .i32⟩
  | .hbm, ⟨62, _⟩ => ⟨S_, .f32⟩
  | .hbm, ⟨63, _⟩ => ⟨S96x128, .f32⟩
  | .hbm, ⟨64, _⟩ => ⟨S_, .i32⟩
  | .hbm, ⟨65, _⟩ => ⟨S_, .f32⟩
  | .hbm, ⟨66, _⟩ => ⟨S128x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .i32⟩
  | .hbm, ⟨72, _⟩ => ⟨S_, .f32⟩
  | .hbm, ⟨73, _⟩ => ⟨S128x32, .f32⟩
  | .hbm, ⟨74, _⟩ => ⟨S1x32, .f32⟩
  | .hbm, ⟨75, _⟩ => ⟨S50000x128, .bf16⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .bf16⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S50000x128, .bf16⟩
  | .hbm, ⟨91, _⟩ => ⟨S50000x128, .bf16⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .bf16⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S50000x128, .bf16⟩
  | .hbm, ⟨107, _⟩ => ⟨S50000x32, .bf16⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x32, .bf16⟩
  | .hbm, ⟨117, _⟩ => ⟨S850000x32, .f32⟩
  | .hbm, ⟨118, _⟩ => ⟨S_, .f32⟩
  | .hbm, ⟨119, _⟩ => ⟨S50000x32, .f32⟩
  | .hbm, ⟨120, _⟩ => ⟨S850000x1, .i32⟩
  | .hbm, ⟨121, _⟩ => ⟨S50000x32, .f32⟩
  | .hbm, ⟨122, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S128x128, .f32⟩
  | .local _ .vmem, ⟨17, _⟩ => ⟨S2000x1, .f32⟩
  | .local _ .vmem, ⟨18, _⟩ => ⟨S2000x1, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .bf16⟩
  | .local _ .vmem, ⟨27, _⟩ => ⟨S2000x128, .bf16⟩
  | .local _ .vmem, ⟨28, _⟩ => ⟨S2000x128, .bf16⟩
  | .local _ .vmem, ⟨29, _⟩ => ⟨S2000x128, .bf16⟩
  | .local _ .vmem, ⟨30, _⟩ => ⟨S128x32, .f32⟩
  | .local _ .vmem, ⟨31, _⟩ => ⟨S2000x1, .f32⟩
  | .local _ .vmem, ⟨32, _⟩ => ⟨S2000x1, .f32⟩
  | .local _ .vmem, ⟨33, _⟩ => ⟨S2000x32, .bf16⟩
  | .local _ .vmem, ⟨34, _⟩ => ⟨S2000x32, .bf16⟩
  | .local _ .vmem, ⟨35, _⟩ => ⟨S2000x32, .f32⟩
  | .local _ .vmem, ⟨36, _⟩ => ⟨S2000x32, .f32⟩
  | .local _ .vmem, ⟨37, _⟩ => ⟨S2000x1, .f32⟩
  | .local _ .vmem, ⟨38, _⟩ => ⟨S2000x1, .f32⟩
  | .local _ .vmem, ⟨39, _⟩ => ⟨S1x32, .f32⟩
  | .local _ .vmem, ⟨40, _⟩ => ⟨S2000x32, .f32⟩
  | .local _ .vmem, ⟨41, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1_0 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_call2_v0 : Ref sig .tc := ⟨.hbm, 55, rfl⟩
abbrev main_v33 : Ref sig .tc := ⟨.hbm, 56, rfl⟩
abbrev main_c_8 : Ref sig .tc := ⟨.hbm, 57, rfl⟩
abbrev main_call3_v0 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_call4_v0 : Ref sig .tc := ⟨.hbm, 62, rfl⟩
abbrev main_v36 : Ref sig .tc := ⟨.hbm, 63, rfl⟩
abbrev main_c_10 : Ref sig .tc := ⟨.hbm, 64, rfl⟩
abbrev main_call5_v0 : Ref sig .tc := ⟨.hbm, 65, rfl⟩
abbrev main_v37 : Ref sig .tc := ⟨.hbm, 66, rfl⟩
abbrev main_c_11 : Ref sig .tc := ⟨.hbm, 67, rfl⟩
abbrev main_call6_v0 : Ref sig .tc := ⟨.hbm, 68, rfl⟩
abbrev main_v38 : Ref sig .tc := ⟨.hbm, 69, rfl⟩
abbrev main_v39 : Ref sig .tc := ⟨.hbm, 70, rfl⟩
abbrev main_c_12 : Ref sig .tc := ⟨.hbm, 71, rfl⟩
abbrev main_call7_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_13 : Ref sig .tc := ⟨.hbm, 76, rfl⟩
abbrev main_v43 : Ref sig .tc := ⟨.hbm, 77, rfl⟩
abbrev main_v44 : Ref sig .tc := ⟨.hbm, 78, rfl⟩
abbrev main_c_14 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_15 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_16 : Ref sig .tc := ⟨.hbm, 92, rfl⟩
abbrev main_v56 : Ref sig .tc := ⟨.hbm, 93, rfl⟩
abbrev main_v57 : Ref sig .tc := ⟨.hbm, 94, rfl⟩
abbrev main_c_17 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_18 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_19 : Ref sig .tc := ⟨.hbm, 108, rfl⟩
abbrev main_v69 : Ref sig .tc := ⟨.hbm, 109, rfl⟩
abbrev main_v70 : Ref sig .tc := ⟨.hbm, 110, rfl⟩
abbrev main_c_20 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_21 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x32 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S_S50000 : S_.BroadcastsInDim S50000 (![] : Fin 0 → Fin S50000.rank)
  shapeCasts_S50000_S50000x1 : S50000.ShapeCasts S50000x1
  pads_S128x96_S128x128_000_0320 : S128x96.Pads (![0, 0] : Fin 2 → Nat) ![0, 32] ![0, 0] S128x128
  h_S_ : 0 < S_.numel
  pads_S96_S128_0320 : S96.Pads (![0] : Fin 1 → Nat) ![32] ![0] S128
  shapeCasts_S128_S1x128 : S128.ShapeCasts S1x128
  pads_S96x96_S96x128_000_0320 : S96x96.Pads (![0, 0] : Fin 2 → Nat) ![0, 32] ![0, 0] S96x128
  pads_S96x128_S128x128_0320_000 : S96x128.Pads (![0, 0] : Fin 2 → Nat) ![32, 0] ![0, 0] S128x128
  pads_S96x32_S128x32_0320_000 : S96x32.Pads (![0, 0] : Fin 2 → Nat) ![32, 0] ![0, 0] S128x32
  shapeCasts_S32_S1x32 : S32.ShapeCasts S1x32
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  packedbf16_S2000x32_S2000x32_0_0 : (Rect.unit (s := S2000x32) ![0, 0] S2000x32.size inb_S2000x32_S2000x32_0_0).PackedRows (EltTy.packing .bf16)
  bcast_S_S50000x32 : S_.BroadcastsInDim S50000x32 (![] : Fin 0 → Fin S50000x32.rank)
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  gather_S850000_S850000x1_S850000_n_0_n_n_0_1_1_wf : GatherDims.WF S850000 S850000x1 S850000 [] [0] [] [0] [] 1 ![1]
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x32_S2000x32_1_0_0_1_n_n_wf : DotDims.WF S2000x128 S128x32 S2000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .bf16 = 32 ∨ (Rect.block (s := S50000x128) S2000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .bf16 = 32 ∨ (Rect.block (s := S50000x128) S2000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .f32 = 32 ∨ (Rect.block (s := S128x32) S128x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x32.size a ≤ S50000x32.size a
  hwx4_3 : ∀ i : grid4.Coords, EltTy.bits .bf16 = 32 ∨ (Rect.block (s := S50000x32) S2000x32.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S50000x32.size a
  hwx5_0 : ∀ i : grid5.Coords, EltTy.bits .f32 = 32 ∨ (Rect.block (s := S50000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x32.size a ≤ S50000x32.size a
  hwx5_3 : ∀ i : grid5.Coords, EltTy.bits .f32 = 32 ∨ (Rect.block (s := S50000x32) S2000x32.size (cc5_transform_3 i) (hinb5_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S850000_S850000x1_S850000_n_0_n_n_0_1_1 : GatherDims S850000 S850000x1 S850000 where
  offsetDims := []
  collapsedSliceDims := [0]
  operandBatchingDims := []
  startIndicesBatchingDims := []
  startIndexMap := [0]
  indexVectorDim := 1
  sliceSizes := ![1]
  wf := gather_S850000_S850000x1_S850000_n_0_n_n_0_1_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68) S2000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v79) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v41) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S2000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x32 : Shape := ⟨2, ![96, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x96 : Shape := ⟨2, ![50000, 96]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96x96, .f32⟩
  | 5 => ⟨S96, .f32⟩
  | 6 => ⟨S96x32, .f32⟩
  | 7 => ⟨S32, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x96, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x96, .f32⟩
  | 62 => ⟨S850000x96, .f32⟩
  | 63 => ⟨S850000x96, .f32⟩
  | 64 => ⟨S_, .f32⟩
  | 65 => ⟨S50000x96, .f32⟩
  | 66 => ⟨S850000x1, .i32⟩
  | 67 => ⟨S50000x96, .f32⟩
  | 68 => ⟨S1x96, .f32⟩
  | 69 => ⟨S50000x96, .f32⟩
  | 70 => ⟨S50000x96, .f32⟩
  | 71 => ⟨S_, .f32⟩
  | 72 => ⟨S50000x96, .f32⟩
  | 73 => ⟨S50000x96, .f32⟩
  | 74 => ⟨S50000x96, .f32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x96, .f32⟩
  | 121 => ⟨S850000x96, .f32⟩
  | 122 => ⟨S850000x96, .f32⟩
  | 123 => ⟨S_, .f32⟩
  | 124 => ⟨S50000x96, .f32⟩
  | 125 => ⟨S850000x1, .i32⟩
  | 126 => ⟨S50000x96, .f32⟩
  | 127 => ⟨S1x96, .f32⟩
  | _ => ⟨S50000x128, .f32⟩

abbrev hbmTy0_1 (i : Nat) : BufTy := match i % 128 with
  | 0 => ⟨S50000x96, .f32⟩
  | 1 => ⟨S50000x96, .f32⟩
  | 2 => ⟨S_, .f32⟩
  | 3 => ⟨S50000x96, .f32⟩
  | 4 => ⟨S50000x96, .f32⟩
  | 5 => ⟨S50000x32, .f32⟩
  | 6 => ⟨S_, .f32⟩
  | 7 => ⟨S850000, .f32⟩
  | 8 => ⟨S_, .f32⟩
  | 9 => ⟨S50000, .f32⟩
  | 10 => ⟨S850000x1, .i32⟩
  | 11 => ⟨S50000, .f32⟩
  | 12 => ⟨S_, .f32⟩
  | 13 => ⟨S50000, .f32⟩
  | 14 => ⟨S50000, .i1⟩
  | 15 => ⟨S_, .f32⟩
  | 16 => ⟨S50000, .f32⟩
  | 17 => ⟨S50000, .f32⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S850000x1, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x32, .f32⟩
  | 52 => ⟨S850000x32, .f32⟩
  | 53 => ⟨S850000x32, .f32⟩
  | 54 => ⟨S_, .f32⟩
  | 55 => ⟨S50000x32, .f32⟩
  | 56 => ⟨S850000x1, .i32⟩
  | 57 => ⟨S50000x32, .f32⟩
  | 58 => ⟨S1x32, .f32⟩
  | 59 => ⟨S50000x32, .f32⟩
  | 60 => ⟨S50000x32, .f32⟩
  | 61 => ⟨S_, .f32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x32, .f32⟩
  | 68 => ⟨S50000x32, .f32⟩
  | 69 => ⟨S50000x32, .f32⟩
  | 70 => ⟨S_, .f32⟩
  | 71 => ⟨S50000, .f32⟩
  | 72 => ⟨S50000x1, .f32⟩
  | 73 => ⟨S50000x1, .f32⟩
  | 74 => ⟨S50000x32, .f32⟩
  | 75 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_c_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_cst_23 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_24 : Ref sig .tc := ⟨.hbm, 140, rfl⟩
abbrev main_v98 : Ref sig .tc := ⟨.hbm, 141, rfl⟩
abbrev main_v99 : Ref sig .tc := ⟨.hbm, 142, rfl⟩
abbrev main_cst_25 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_26 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_27 : Ref sig .tc := ⟨.hbm, 151, rfl⟩
abbrev main_v104 : Ref sig .tc := ⟨.hbm, 152, rfl⟩
abbrev main_v105 : Ref sig .tc := ⟨.hbm, 153, rfl⟩
abbrev main_c_28 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_29 : Ref sig .tc := ⟨.hbm, 160, rfl⟩
abbrev main_v111 : Ref sig .tc := ⟨.hbm, 161, rfl⟩
abbrev main_v112 : Ref sig .tc := ⟨.hbm, 162, rfl⟩
abbrev main_c_30 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_c_31 : Ref sig .tc := ⟨.hbm, 171, rfl⟩
abbrev main_v120 : Ref sig .tc := ⟨.hbm, 172, rfl⟩
abbrev main_v121 : Ref sig .tc := ⟨.hbm, 173, rfl⟩
abbrev main_c_32 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_33 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call5_cst : Ref sig .tc := ⟨.hbm, 189, rfl⟩
abbrev main_call5_v0 : Ref sig .tc := ⟨.hbm, 190, rfl⟩
abbrev main_call5_cst_0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_call5_v5 : Ref sig .tc := ⟨.hbm, 196, rfl⟩
abbrev main_call5_v6 : Ref sig .tc := ⟨.hbm, 197, rfl⟩
abbrev main_call5_cst_1 : Ref sig .tc := ⟨.hbm, 198, rfl⟩
abbrev main_call5_v7 : Ref sig .tc := ⟨.hbm, 199, rfl⟩
abbrev main_call5_v8 : Ref sig .tc := ⟨.hbm, 200, rfl⟩
abbrev main_call5_v9 : Ref sig .tc := ⟨.hbm, 201, rfl⟩
abbrev main_call5_v10 : Ref sig .tc := ⟨.hbm, 202, rfl⟩
abbrev main_v135 : Ref sig .tc := ⟨.hbm, 203, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  dot_S50000x128_S128x96_S50000x96_1_0_0_1_n_n_wf : DotDims.WF S50000x128 S128x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x32_S50000x32_1_0_0_1_n_n_wf : DotDims.WF S50000x96 S96x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelRun.lean ====
/-
  The idealized kernel's run with its result named: every weakly fair execution of @main terminates, nothing faulting,
  with the result array at the contents the last segment boundary holds for it (the fold of the host stretches and the
  six regions' write-backs from the launch memory, `Gen.W26`), and the argument arrays as launched.
-/
import proofs.«123766_j46617575031251_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its twenty-six segments, read at the result array and at the arguments: the last thread state
    holds every unscoped buffer at the last boundary's contents. -/
theorem run_value : θ_run defs (onTc (τ := τ) (main (F := F))) ⟨m, fun _ => 0, ρ⟩ (fun r => ∀ c : Dev nD,
      r.2.mem ((c.tc : Thread nD τ).loc main_v80) = W26 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v80 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c)⟩)

end Cert.KernelIdeal.ValueRun

end
-- ==== Proof.KernelKept.lean ====
/-
  Buffers that a region does not write keep their contents across it: a region's exit contents differ from its entry
  contents only at its output array; an input array is read through its window and left as found.
-/
import proofs.«123766_j46617575031251_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Which buffer each window of each region stages. -/
theorem arr0_0 : Pipeline.arrRef spec0 0 = main_arg0 := rfl
theorem arr0_1 : Pipeline.arrRef spec0 1 = main_v33 := rfl
theorem arr0_2 : Pipeline.arrRef spec0 2 = main_v32 := rfl
theorem arr0_3 : Pipeline.arrRef spec0 3 = main_v42 := rfl
theorem arr1_0 : Pipeline.arrRef spec1 0 = main_v53 := rfl
theorem arr1_1 : Pipeline.arrRef spec1 1 = main_v32 := rfl
theorem arr1_2 : Pipeline.arrRef spec1 2 = main_v35 := rfl
theorem arr1_3 : Pipeline.arrRef spec1 3 = main_v54 := rfl
theorem arr2_0 : Pipeline.arrRef spec2 0 = main_v54 := rfl
theorem arr2_1 : Pipeline.arrRef spec2 1 = main_v37 := rfl
theorem arr2_2 : Pipeline.arrRef spec2 2 = main_v32 := rfl
theorem arr2_3 : Pipeline.arrRef spec2 3 = main_v55 := rfl
theorem arr3_0 : Pipeline.arrRef spec3 0 = main_v66 := rfl
theorem arr3_1 : Pipeline.arrRef spec3 1 = main_v32 := rfl
theorem arr3_2 : Pipeline.arrRef spec3 2 = main_v39 := rfl
theorem arr3_3 : Pipeline.arrRef spec3 3 = main_v67 := rfl
theorem arr4_0 : Pipeline.arrRef spec4 0 = main_v67 := rfl
theorem arr4_1 : Pipeline.arrRef spec4 1 = main_v40 := rfl
theorem arr4_2 : Pipeline.arrRef spec4 2 = main_v32 := rfl
theorem arr4_3 : Pipeline.arrRef spec4 3 = main_v68 := rfl
theorem arr5_0 : Pipeline.arrRef spec5 0 = main_v79 := rfl
theorem arr5_1 : Pipeline.arrRef spec5 1 = main_v32 := rfl
theorem arr5_2 : Pipeline.arrRef spec5 2 = main_v41 := rfl
theorem arr5_3 : Pipeline.arrRef spec5 3 = main_v80 := rfl

theorem reg0_main_v14 : W18 m ρ c (Proc.devRef .tc main_v14) = W17 m ρ c (Proc.devRef .tc main_v14) := W18_of_ne m ρ c main_v14 (by decide)
theorem reg0_main_v21 : W18 m ρ c (Proc.devRef .tc main_v21) = W17 m ρ c (Proc.devRef .tc main_v21) := W18_of_ne m ρ c main_v21 (by decide)
theorem reg0_main_v32 : W18 m ρ c (Proc.devRef .tc main_v32) = W17 m ρ c (Proc.devRef .tc main_v32) :=
  (W18_arr m ρ c 2).trans (((dat0 (V17 m ρ) c).arrAt_in 2 rfl _).trans (A_eq0 (V17 m ρ) c 2))
theorem reg0_main_v35 : W18 m ρ c (Proc.devRef .tc main_v35) = W17 m ρ c (Proc.devRef .tc main_v35) := W18_of_ne m ρ c main_v35 (by decide)
theorem reg0_main_v37 : W18 m ρ c (Proc.devRef .tc main_v37) = W17 m ρ c (Proc.devRef .tc main_v37) := W18_of_ne m ρ c main_v37 (by decide)
theorem reg0_main_v39 : W18 m ρ c (Proc.devRef .tc main_v39) = W17 m ρ c (Proc.devRef .tc main_v39) := W18_of_ne m ρ c main_v39 (by decide)
theorem reg0_main_v40 : W18 m ρ c (Proc.devRef .tc main_v40) = W17 m ρ c (Proc.devRef .tc main_v40) := W18_of_ne m ρ c main_v40 (by decide)
theorem reg0_main_v41 : W18 m ρ c (Proc.devRef .tc main_v41) = W17 m ρ c (Proc.devRef .tc main_v41) := W18_of_ne m ρ c main_v41 (by decide)
/-- Region 0's output array at its exit is what the pipeline's write-backs leave. -/
theorem reg0_out : W18 m ρ c (Proc.devRef .tc main_v42) = (dat0 (V17 m ρ) c).arrAt 3 cfg0.N := W18_arr m ρ c 3

theorem reg1_main_v14 : W20 m ρ c (Proc.devRef .tc main_v14) = W19 m ρ c (Proc.devRef .tc main_v14) := W20_of_ne m ρ c main_v14 (by decide)
theorem reg1_main_v21 : W20 m ρ c (Proc.devRef .tc main_v21) = W19 m ρ c (Proc.devRef .tc main_v21) := W20_of_ne m ρ c main_v21 (by decide)
theorem reg1_main_v32 : W20 m ρ c (Proc.devRef .tc main_v32) = W19 m ρ c (Proc.devRef .tc main_v32) :=
  (W20_arr m ρ c 1).trans (((dat1 (V19 m ρ) c).arrAt_in 1 rfl _).trans (A_eq1 (V19 m ρ) c 1))
theorem reg1_main_v35 : W20 m ρ c (Proc.devRef .tc main_v35) = W19 m ρ c (Proc.devRef .tc main_v35) :=
  (W20_arr m ρ c 2).trans (((dat1 (V19 m ρ) c).arrAt_in 2 rfl _).trans (A_eq1 (V19 m ρ) c 2))
theorem reg1_main_v37 : W20 m ρ c (Proc.devRef .tc main_v37) = W19 m ρ c (Proc.devRef .tc main_v37) := W20_of_ne m ρ c main_v37 (by decide)
theorem reg1_main_v39 : W20 m ρ c (Proc.devRef .tc main_v39) = W19 m ρ c (Proc.devRef .tc main_v39) := W20_of_ne m ρ c main_v39 (by decide)
theorem reg1_main_v40 : W20 m ρ c (Proc.devRef .tc main_v40) = W19 m ρ c (Proc.devRef .tc main_v40) := W20_of_ne m ρ c main_v40 (by decide)
theorem reg1_main_v41 : W20 m ρ c (Proc.devRef .tc main_v41) = W19 m ρ c (Proc.devRef .tc main_v41) := W20_of_ne m ρ c main_v41 (by decide)
/-- Region 1's output array at its exit is what the pipeline's write-backs leave. -/
theorem reg1_out : W20 m ρ c (Proc.devRef .tc main_v54) = (dat1 (V19 m ρ) c).arrAt 3 cfg1.N := W20_arr m ρ c 3

theorem reg2_main_v14 : W21 m ρ c (Proc.devRef .tc main_v14) = W20 m ρ c (Proc.devRef .tc main_v14) := W21_of_ne m ρ c main_v14 (by decide)
theorem reg2_main_v21 : W21 m ρ c (Proc.devRef .tc main_v21) = W20 m ρ c (Proc.devRef .tc main_v21) := W21_of_ne m ρ c main_v21 (by decide)
theorem reg2_main_v32 : W21 m ρ c (Proc.devRef .tc main_v32) = W20 m ρ c (Proc.devRef .tc main_v32) :=
  (W21_arr m ρ c 2).trans (((dat2 (V20 m ρ) c).arrAt_in 2 rfl _).trans (A_eq2 (V20 m ρ) c 2))
theorem reg2_main_v35 : W21 m ρ c (Proc.devRef .tc main_v35) = W20 m ρ c (Proc.devRef .tc main_v35) := W21_of_ne m ρ c main_v35 (by decide)
theorem reg2_main_v37 : W21 m ρ c (Proc.devRef .tc main_v37) = W20 m ρ c (Proc.devRef .tc main_v37) :=
  (W21_arr m ρ c 1).trans (((dat2 (V20 m ρ) c).arrAt_in 1 rfl _).trans (A_eq2 (V20 m ρ) c 1))
theorem reg2_main_v39 : W21 m ρ c (Proc.devRef .tc main_v39) = W20 m ρ c (Proc.devRef .tc main_v39) := W21_of_ne m ρ c main_v39 (by decide)
theorem reg2_main_v40 : W21 m ρ c (Proc.devRef .tc main_v40) = W20 m ρ c (Proc.devRef .tc main_v40) := W21_of_ne m ρ c main_v40 (by decide)
theorem reg2_main_v41 : W21 m ρ c (Proc.devRef .tc main_v41) = W20 m ρ c (Proc.devRef .tc main_v41) := W21_of_ne m ρ c main_v41 (by decide)
/-- Region 2's output array at its exit is what the pipeline's write-backs leave. -/
theorem reg2_out : W21 m ρ c (Proc.devRef .tc main_v55) = (dat2 (V20 m ρ) c).arrAt 3 cfg2.N := W21_arr m ρ c 3

theorem reg3_main_v14 : W23 m ρ c (Proc.devRef .tc main_v14) = W22 m ρ c (Proc.devRef .tc main_v14) := W23_of_ne m ρ c main_v14 (by decide)
theorem reg3_main_v21 : W23 m ρ c (Proc.devRef .tc main_v21) = W22 m ρ c (Proc.devRef .tc main_v21) := W23_of_ne m ρ c main_v21 (by decide)
theorem reg3_main_v32 : W23 m ρ c (Proc.devRef .tc main_v32) = W22 m ρ c (Proc.devRef .tc main_v32) :=
  (W23_arr m ρ c 1).trans (((dat3 (V22 m ρ) c).arrAt_in 1 rfl _).trans (A_eq3 (V22 m ρ) c 1))
theorem reg3_main_v35 : W23 m ρ c (Proc.devRef .tc main_v35) = W22 m ρ c (Proc.devRef .tc main_v35) := W23_of_ne m ρ c main_v35 (by decide)
theorem reg3_main_v37 : W23 m ρ c (Proc.devRef .tc main_v37) = W22 m ρ c (Proc.devRef .tc main_v37) := W23_of_ne m ρ c main_v37 (by decide)
theorem reg3_main_v39 : W23 m ρ c (Proc.devRef .tc main_v39) = W22 m ρ c (Proc.devRef .tc main_v39) :=
  (W23_arr m ρ c 2).trans (((dat3 (V22 m ρ) c).arrAt_in 2 rfl _).trans (A_eq3 (V22 m ρ) c 2))
theorem reg3_main_v40 : W23 m ρ c (Proc.devRef .tc main_v40) = W22 m ρ c (Proc.devRef .tc main_v40) := W23_of_ne m ρ c main_v40 (by decide)
theorem reg3_main_v41 : W23 m ρ c (Proc.devRef .tc main_v41) = W22 m ρ c (Proc.devRef .tc main_v41) := W23_of_ne m ρ c main_v41 (by decide)
/-- Region 3's output array at its exit is what the pipeline's write-backs leave. -/
theorem reg3_out : W23 m ρ c (Proc.devRef .tc main_v67) = (dat3 (V22 m ρ) c).arrAt 3 cfg3.N := W23_arr m ρ c 3

theorem reg4_main_v14 : W24 m ρ c (Proc.devRef .tc main_v14) = W23 m ρ c (Proc.devRef .tc main_v14) := W24_of_ne m ρ c main_v14 (by decide)
theorem reg4_main_v21 : W24 m ρ c (Proc.devRef .tc main_v21) = W23 m ρ c (Proc.devRef .tc main_v21) := W24_of_ne m ρ c main_v21 (by decide)
theorem reg4_main_v32 : W24 m ρ c (Proc.devRef .tc main_v32) = W23 m ρ c (Proc.devRef .tc main_v32) :=
  (W24_arr m ρ c 2).trans (((dat4 (V23 m ρ) c).arrAt_in 2 rfl _).trans (A_eq4 (V23 m ρ) c 2))
theorem reg4_main_v35 : W24 m ρ c (Proc.devRef .tc main_v35) = W23 m ρ c (Proc.devRef .tc main_v35) := W24_of_ne m ρ c main_v35 (by decide)
theorem reg4_main_v37 : W24 m ρ c (Proc.devRef .tc main_v37) = W23 m ρ c (Proc.devRef .tc main_v37) := W24_of_ne m ρ c main_v37 (by decide)
theorem reg4_main_v39 : W24 m ρ c (Proc.devRef .tc main_v39) = W23 m ρ c (Proc.devRef .tc main_v39) := W24_of_ne m ρ c main_v39 (by decide)
theorem reg4_main_v40 : W24 m ρ c (Proc.devRef .tc main_v40) = W23 m ρ c (Proc.devRef .tc main_v40) :=
  (W24_arr m ρ c 1).trans (((dat4 (V23 m ρ) c).arrAt_in 1 rfl _).trans (A_eq4 (V23 m ρ) c 1))
theorem reg4_main_v41 : W24 m ρ c (Proc.devRef .tc main_v41) = W23 m ρ c (Proc.devRef .tc main_v41) := W24_of_ne m ρ c main_v41 (by decide)
/-- Region 4's output array at its exit is what the pipeline's write-backs leave. -/
theorem reg4_out : W24 m ρ c (Proc.devRef .tc main_v68) = (dat4 (V23 m ρ) c).arrAt 3 cfg4.N := W24_arr m ρ c 3

theorem reg5_main_v14 : W26 m ρ c (Proc.devRef .tc main_v14) = W25 m ρ c (Proc.devRef .tc main_v14) := W26_of_ne m ρ c main_v14 (by decide)
theorem reg5_main_v21 : W26 m ρ c (Proc.devRef .tc main_v21) = W25 m ρ c (Proc.devRef .tc main_v21) := W26_of_ne m ρ c main_v21 (by decide)
theorem reg5_main_v32 : W26 m ρ c (Proc.devRef .tc main_v32) = W25 m ρ c (Proc.devRef .tc main_v32) :=
  (W26_arr m ρ c 1).trans (((dat5 (V25 m ρ) c).arrAt_in 1 rfl _).trans (A_eq5 (V25 m ρ) c 1))
theorem reg5_main_v35 : W26 m ρ c (Proc.devRef .tc main_v35) = W25 m ρ c (Proc.devRef .tc main_v35) := W26_of_ne m ρ c main_v35 (by decide)
theorem reg5_main_v37 : W26 m ρ c (Proc.devRef .tc main_v37) = W25 m ρ c (Proc.devRef .tc main_v37) := W26_of_ne m ρ c main_v37 (by decide)
theorem reg5_main_v39 : W26 m ρ c (Proc.devRef .tc main_v39) = W25 m ρ c (Proc.devRef .tc main_v39) := W26_of_ne m ρ c main_v39 (by decide)
theorem reg5_main_v40 : W26 m ρ c (Proc.devRef .tc main_v40) = W25 m ρ c (Proc.devRef .tc main_v40) := W26_of_ne m ρ c main_v40 (by decide)
theorem reg5_main_v41 : W26 m ρ c (Proc.devRef .tc main_v41) = W25 m ρ c (Proc.devRef .tc main_v41) :=
  (W26_arr m ρ c 2).trans (((dat5 (V25 m ρ) c).arrAt_in 2 rfl _).trans (A_eq5 (V25 m ρ) c 2))
/-- Region 5's output array at its exit is what the pipeline's write-backs leave. -/
theorem reg5_out : W26 m ρ c (Proc.devRef .tc main_v80) = (dat5 (V25 m ρ) c).arrAt 3 cfg5.N := W26_arr m ρ c 3

end Cert.KernelIdeal.Kept

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«123766_j46617575031251_2_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.Spec.lean ====
/-
  A three-layer graph convolution, written once as the reference computes it and once as the kernel computes it.

  Nodes are `Fin N`, edges `Fin E`; an edge carries two 32-bit index words, its source word `s e` and its target
  word `t e`. A word, read signed, LANDS on node `i` when it equals `i` (a word outside `[0, N)` lands nowhere);
  a word READS the row `row nW v`: negative words are first wrapped by adding the word `nW`, then the word is
  read signed and clamped into `[0, N - 1]`.

  The degree of a node is the number of edges whose target word lands on it (a sum of the word `1.0`), and its
  scale `dinv` is `deg^(-1/2)` where `deg > 0` and `0` elsewhere.

  The reference's layer scales every message by `dinv(source) · dinv(target)` and adds the bias after summing
  the messages that land on a node. The kernel's layer scales each row of `X·W` by the row's `dinv` before the
  messages are gathered, sums the messages that land on a node, scales the sum by the node's `dinv` and adds the
  bias. The kernel also works on the hidden width padded with zero columns (and zero rows of the next weight
  matrix), and on edges taken in another order.
-/
import Idealize.ShloMosaic.PureOps.Ideal
import proofs.«123766_j46617575031251_2_alg».proof.Proof.LibRowIndexed

noncomputable section

namespace Gcn

open Idealize.ShloMosaic

/-- The f32 word `1.0` as an extended real. -/
abbrev oneW : EReal := Ideal.ofBits .f32 0x3F800000#32
/-- The f32 word `-inf` as an extended real. -/
abbrev negInfW : EReal := Ideal.ofBits .f32 0xFF800000#32

/-- jnp's wrap of a negative index word: `v + nW` when `v` is negative as a signed word, else `v`. -/
def wrap (nW v : BitVec 32) : BitVec 32 := Scalar.select (IntOp.cmpi .slt v 0#32) (IntOp.addi v nW) v

/-- The row of an `N`-row table an index word reads: wrapped, read signed, clamped into `[0, N - 1]`. -/
def row {N : Nat} (hN : 0 < N) (nW v : BitVec 32) : Fin N := RowIndexed.nodeOf N hN (wrap nW v)

variable {N E : Nat}

/-- The number of edges whose target word lands on node `i`, as a sum of the word `1.0`. -/
def deg (t : Fin E → BitVec 32) (i : Fin N) : EReal :=
  ∑ _e ∈ Finset.univ.filter (fun e : Fin E => (t e).toInt = (i.val : Int)), oneW

/-- `d^(-1/2)` where `d > 0` (computed as `rsqrt (max d 1.0)`), and `0` elsewhere. -/
def dinvOf (d : EReal) : EReal := Scalar.select (Ideal.cmp .ogt d 0) (Ideal.rsqrt (max d oneW)) 0

/-- The scale of node `i`. -/
def dinv (t : Fin E → BitVec 32) (i : Fin N) : EReal := dinvOf (deg t i)

/-- The sum over the edges landing on node `i` of the rows of `Y` their source words read. -/
def aggregate {M : Nat} (hN : 0 < N) (nW : BitVec 32) (Y : Fin N → Fin M → EReal) (s t : Fin E → BitVec 32)
    (i : Fin N) (c : Fin M) : EReal :=
  ∑ e ∈ Finset.univ.filter (fun e : Fin E => (t e).toInt = (i.val : Int)), Y (row hN nW (s e)) c

/-- A matrix product. -/
def matProd {n K M : Nat} (X : Fin n → Fin K → EReal) (W : Fin K → Fin M → EReal) (i : Fin n) (c : Fin M) : EReal :=
  ∑ k : Fin K, X i k * W k c

/-! ## The reference's arrangement -/

/-- One layer as the reference computes it: messages `(dinv(source) · dinv(target)) · (X·W)[source]` summed over
    the edges landing on the node, then the bias. -/
def refLayer {K M : Nat} (hN : 0 < N) (nW : BitVec 32) (X : Fin N → Fin K → EReal) (W : Fin K → Fin M → EReal)
    (b : Fin M → EReal) (s t : Fin E → BitVec 32) (i : Fin N) (c : Fin M) : EReal :=
  (∑ e ∈ Finset.univ.filter (fun e : Fin E => (t e).toInt = (i.val : Int)),
      (dinv t (row hN nW (s e)) * dinv t (row hN nW (t e))) * matProd X W (row hN nW (s e)) c) + b c

/-- The row maximum, folded from `-inf`. -/
def rowMax {M : Nat} (z : Fin M → EReal) : EReal := (Finset.univ : Finset (Fin M)).fold max negInfW z

/-- `log_softmax` of one row. -/
def logSoftmax {M : Nat} (z : Fin M → EReal) (c : Fin M) : EReal :=
  (z c - rowMax z) - Ideal.log (∑ k : Fin M, Ideal.exp (z k - rowMax z))

/-- The reference: two layers with `relu`, a third with `log_softmax` along the rows. -/
def refNet {K H C : Nat} (hN : 0 < N) (nW : BitVec 32) (x : Fin N → Fin K → EReal)
    (W1 : Fin K → Fin H → EReal) (b1 : Fin H → EReal) (W2 : Fin H → Fin H → EReal) (b2 : Fin H → EReal)
    (W3 : Fin H → Fin C → EReal) (b3 : Fin C → EReal) (s t : Fin E → BitVec 32) (i : Fin N) (c : Fin C) : EReal :=
  logSoftmax (fun c' =>
    refLayer hN nW (fun i k => max (refLayer hN nW (fun i k => max (refLayer hN nW x W1 b1 s t i k) 0) W2 b2 s t i k) 0)
      W3 b3 s t i c') c

/-! ## The kernel's arrangement -/

/-- A product whose rows are scaled: `(X·W)[i, c] · d[i]`. -/
def scaledProd {n K M : Nat} (X : Fin n → Fin K → EReal) (W : Fin K → Fin M → EReal) (d : Fin n → EReal)
    (i : Fin n) (c : Fin M) : EReal := matProd X W i c * d i

/-- `max (A[i, c] · d[i] + b[c], 0)`. -/
def biasRelu {n M : Nat} (A : Fin n → Fin M → EReal) (d : Fin n → EReal) (b : Fin M → EReal) (i : Fin n) (c : Fin M) : EReal :=
  max (A i c * d i + b c) 0

/-- `log_softmax` along the row of `A[i, ·] · d[i] + b`. -/
def biasLogSoftmax {n M : Nat} (A : Fin n → Fin M → EReal) (d : Fin n → EReal) (b : Fin M → EReal) (i : Fin n) (c : Fin M) : EReal :=
  logSoftmax (fun c' => A i c' * d i + b c') c

/-- A matrix extended by zero columns and zero rows. -/
def padMat {K M K' M' : Nat} (W : Fin K → Fin M → EReal) (k : Fin K') (c : Fin M') : EReal :=
  if h : k.val < K ∧ c.val < M then W ⟨k.val, h.1⟩ ⟨c.val, h.2⟩ else 0

/-- A vector extended by zeros. -/
def padVec {M M' : Nat} (b : Fin M → EReal) (c : Fin M') : EReal :=
  if h : c.val < M then b ⟨c.val, h⟩ else 0

/-- The kernel: every product scaled by `dinv` before the messages are gathered, every aggregate scaled by
    `dinv` after; the hidden width padded from `H` to `Hp` by zeros; `s'`, `t'` the edge words in the
    kernel's order. -/
def kerNet {K H Hp C : Nat} (hN : 0 < N) (nW : BitVec 32) (x : Fin N → Fin K → EReal)
    (W1 : Fin K → Fin H → EReal) (b1 : Fin H → EReal) (W2 : Fin H → Fin H → EReal) (b2 : Fin H → EReal)
    (W3 : Fin H → Fin C → EReal) (b3 : Fin C → EReal) (s' t' : Fin E → BitVec 32) (i : Fin N) (c : Fin C) : EReal :=
  let d : Fin N → EReal := dinv t'
  let h1 : Fin N → Fin Hp → EReal :=
    biasRelu (aggregate hN nW (scaledProd x (padMat (K' := K) (M' := Hp) W1) d) s' t') d (padVec b1)
  let h2 : Fin N → Fin Hp → EReal :=
    biasRelu (aggregate hN nW (scaledProd h1 (padMat (K' := Hp) (M' := Hp) W2) d) s' t') d (padVec b2)
  biasLogSoftmax (aggregate hN nW (scaledProd h2 (padMat (K' := Hp) (M' := C) W3) d) s' t') d b3 i c

end Gcn

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.RegionLib.lean ====
/-
  Readings, at coordinates, of the vector operations the six kernel bodies are made of, at the block shapes
  they use: a [2000,1] column and a [1,b] row broadcast over a [2000,b] block (b = 128 or 32); the product of a
  [2000,128] block with a [128,b] matrix into a zero accumulator; and, for rows of 32 entries, the lane maximum
  folded from -inf, the lane sum, and a [2000] vector kept as a [2000,1] column.
-/
import proofs.«123766_j46617575031251_2_alg».proof.Proof.Gen.KernelIdeal.Frame
import proofs.«123766_j46617575031251_2_alg».proof.Proof.LibPlainMatmul
import proofs.«123766_j46617575031251_2_alg».proof.Proof.LibRowReduce
import proofs.«123766_j46617575031251_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.RegionValue

open Cert.KernelIdeal Cert.KernelIdeal.Gen Idealize.ShloMosaic
open Idealize.ShloMosaic.ValueIdx

/-- The zero offsets of a whole-block access, as a constant function. -/
theorem hz2 : (![0, 0] : Fin 2 → Nat) = fun _ => 0 := funext fun a => by fin_cases a <;> rfl

/-! ## Broadcasts over a block -/

/-- A column [2000,1] broadcast along the lanes to [2000,128], read at (r, q), is the column at row r. -/
theorem bcastCol128_at {α : Type} (x : S2000x1.Idx → α) (h : S2000x1.Broadcasts S2000x128) (r : Fin 2000) (q : Fin 128) :
    broadcastTo S2000x128 x h (ix2 r q) = x (ix2 r 0) :=
  broadcastTo_apply x h (ix2 r q) (ix2 r 0) fun a => by
    match a with
    | ⟨0, _⟩ => rfl
    | ⟨1, _⟩ => rfl

/-- A row [1,128] broadcast along the sublanes to [2000,128], read at (r, q), is the row at lane q. -/
theorem bcastRow128_at {α : Type} (x : S1x128.Idx → α) (h : S1x128.Broadcasts S2000x128) (r : Fin 2000) (q : Fin 128) :
    broadcastTo S2000x128 x h (ix2 r q) = x (ix2 0 q) :=
  broadcastTo_apply x h (ix2 r q) (ix2 0 q) fun a => by
    match a with
    | ⟨0, _⟩ => rfl
    | ⟨1, _⟩ => rfl

/-- A column [2000,1] broadcast along the lanes to [2000,32], read at (r, q), is the column at row r. -/
theorem bcastCol32_at {α : Type} (x : S2000x1.Idx → α) (h : S2000x1.Broadcasts S2000x32) (r : Fin 2000) (q : Fin 32) :
    broadcastTo S2000x32 x h (ix2 r q) = x (ix2 r 0) :=
  broadcastTo_apply x h (ix2 r q) (ix2 r 0) fun a => by
    match a with
    | ⟨0, _⟩ => rfl
    | ⟨1, _⟩ => rfl

/-- A row [1,32] broadcast along the sublanes to [2000,32], read at (r, q), is the row at lane q. -/
theorem bcastRow32_at {α : Type} (x : S1x32.Idx → α) (h : S1x32.Broadcasts S2000x32) (r : Fin 2000) (q : Fin 32) :
    broadcastTo S2000x32 x h (ix2 r q) = x (ix2 0 q) :=
  broadcastTo_apply x h (ix2 r q) (ix2 0 q) fun a => by
    match a with
    | ⟨0, _⟩ => rfl
    | ⟨1, _⟩ => rfl

/-! ## The block product -/

/-- A [2000,128] block times a [128,128] matrix into the zero accumulator: at (r, q) the sum over k of l(r,k)·w(k,q). -/
theorem matmul128_at (l : FVec Ideal S2000x128 .bf16) (w : FVec Ideal S128x128 .bf16) (r : Fin 2000) (q : Fin 128) :
    matmul (F := Ideal) dot_S2000x128_S128x128_S2000x128_1_0_0_1_n_n none l w
        (constant (F := Ideal) S2000x128 .f32 0x00000000#32) (ix2 r q)
      = ∑ k : Fin 128, l (ix2 r k) * w (ix2 k q) :=
  PlainMatmul.apply_zero (M := 2000) (K := 128) (N := 128) l w r q

/-- A [2000,128] block times a [128,32] matrix into the zero accumulator: at (r, q) the sum over k of l(r,k)·w(k,q). -/
theorem matmul32_at (l : FVec Ideal S2000x128 .bf16) (w : FVec Ideal S128x32 .bf16) (r : Fin 2000) (q : Fin 32) :
    matmul (F := Ideal) dot_S2000x128_S128x32_S2000x32_1_0_0_1_n_n none l w
        (constant (F := Ideal) S2000x32 .f32 0x00000000#32) (ix2 r q)
      = ∑ k : Fin 128, l (ix2 r k) * w (ix2 k q) :=
  PlainMatmul.apply_zero (M := 2000) (K := 128) (N := 32) l w r q

/-! ## Row reductions of a [2000,32] block -/

/-- The lane maximum of row r: the fold of max over the row's 32 entries from -inf. -/
theorem laneMax32_at (z : FVec Ideal S2000x32 .f32) (h : S2000x32.Reduces [1] S2000) (hφ : FKind.Formats .f32)
    (hm : (0xFF800000#32 : BitVec 32) = FKind.maximumf.neutral .f32 hφ) (r : Fin 2000) :
    multiReduction (F := Ideal) .maximumf [1] S2000 z 0xFF800000#32 h hφ hm (ix1 r)
      = (Finset.univ : Finset (Fin 32)).fold max (Ideal.ofBits .f32 0xFF800000#32) (fun k => z (ix2 r k)) :=
  RowReduce.laneMax_at z 0xFF800000#32 h hφ hm r

/-- The lane sum of row r: the sum of the row's 32 entries. -/
theorem laneSum32_at (z : FVec Ideal S2000x32 .f32) (h : S2000x32.Reduces [1] S2000) (hφ : FKind.Formats .f32)
    (hs : (0x00000000#32 : BitVec 32) = FKind.add.neutral .f32 hφ) (r : Fin 2000) :
    multiReduction (F := Ideal) .add [1] S2000 z 0x00000000#32 h hφ hs (ix1 r) = ∑ k : Fin 32, z (ix2 r k) :=
  RowReduce.laneSum_at z 0x00000000#32 h hφ hs r

/-- A [2000] vector kept as a [2000,1] column reads its entry r at (r, 0). -/
theorem castCol_at {α : Type} (v : S2000.Idx → α) (h : S2000.ShapeCasts S2000x1) (r : Fin 2000) :
    shapeCast S2000x1 v h (ix2 r 0) = v (ix1 r) :=
  KeepdimsColumn.shapeCast_a_a1_apply v h r 0

end Cert.KernelIdeal.RegionValue

end
-- ==== Proof.Region0.lean ====
/-
  Region 0 of the kernel (a block product scaled row by row): its output array, entry by entry.

  The grid has 25 points; point t reads rows 2000·t … 2000·t + 1999 of X and of the scale column d, and the whole weight
  matrix W, and stores (Σ_k X[i,k]·W[k,c])·d[i] over the same rows of the output. A change of float format is the identity
  on the extended reals, and the product into a zero accumulator is the plain sum. The 25 row blocks tile the 50000 rows,
  so the output array ends at that function of X, W and d at every entry.
-/
import proofs.«123766_j46617575031251_2_alg».proof.Proof.Gen.KernelIdeal.Frame
import proofs.«123766_j46617575031251_2_alg».proof.Proof.Spec
import proofs.«123766_j46617575031251_2_alg».proof.Proof.RegionLib
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The index maps over the 25 grid points: the row-block windows sit at block (t, 0), the weight window at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- There are 25 grid points. -/
theorem lt25_0 (t : Fin cfg0.N) : t.val < 25 := by
  have h := t.isLt
  have hN : cfg0.N = 25 := Gen.N_0
  omega

/-- Row r of point t's block is row 2000·t + r of the array. -/
abbrev row0 (t : Fin cfg0.N) (r : Fin 2000) : Fin 50000 := ⟨2000 * t.val + r.val, by have := lt25_0 t; omega⟩

/-- The body's stored value at (r, q): the row of the block times the column of the weights, scaled by the row's scale. -/
theorem pay0_at (x0 : Vec Ideal S2000x128 .f32) (x1 : Vec Ideal S128x128 .f32) (x2 : Vec Ideal S2000x1 .f32)
    (r : Fin 2000) (q : Fin 128) :
    Gen.k0_pay1 (F := Ideal) x0 x1 x2 (ix2 r q)
      = Gcn.scaledProd (fun i k => x0 (ix2 i k)) (fun k c' => x1 (ix2 k c')) (fun i => x2 (ix2 i 0)) r q := by
  unfold Gen.k0_pay1
  simp only [truncf_apply, mulf_apply, shapeCast_self, bcastCol128_at]
  rw [matmul128_at]
  simp only [truncf_apply]
  rfl

/-- The same over blocks that are restrictions of whole arrays: rows R r of X and of d, the whole of W. -/
theorem blk0_eq (x0 : Vec Ideal S2000x128 .f32) (x1 : Vec Ideal S128x128 .f32) (x2 : Vec Ideal S2000x1 .f32)
    (A0 : S50000x128.Idx → EReal) (A1 : S128x128.Idx → EReal) (A2 : S50000x1.Idx → EReal) (R : Fin 2000 → Fin 50000)
    (h0 : ∀ r k, x0 (ix2 r k) = A0 (ix2 (R r) k)) (h1 : ∀ k q, x1 (ix2 k q) = A1 (ix2 k q))
    (h2 : ∀ r, x2 (ix2 r 0) = A2 (ix2 (R r) 0)) (r : Fin 2000) (q : Fin 128) :
    Gen.k0_pay1 (F := Ideal) x0 x1 x2 (ix2 r q)
      = Gcn.scaledProd (fun i k => A0 (ix2 i k)) (fun k c' => A1 (ix2 k c')) (fun i => A2 (ix2 i 0)) (R r) q := by
  rw [pay0_at]
  unfold Gcn.scaledProd Gcn.matProd
  simp only [h0, h1, h2]

/-- Entry (r, q) of window 0's block at point t is entry (2000·t + r, q) of its array. -/
theorem iblk0_0_at (c : Dev nD) (t : Fin cfg0.N) (r : Fin 2000) (q : Fin 128) :
    (iblk0 V c 0 t : Vec Ideal S2000x128 .f32) (ix2 r q) = V c main_arg0 (ix2 (row0 t r) q) := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t 0 * 2000 + 1 * r.val = 2000 * t.val + r.val; rw [e0]; omega
  | ⟨1, _⟩ => show win0_0.index t 1 * 128 + 1 * q.val = q.val; rw [e1]; omega

/-- Window 1's block is its whole array at every point. -/
theorem iblk0_1_at (c : Dev nD) (t : Fin cfg0.N) (k : Fin 128) (q : Fin 128) :
    (iblk0 V c 1 t : Vec Ideal S128x128 .f32) (ix2 k q) = V c main_v33 (ix2 k q) := by
  obtain ⟨-, -, e0, e1, -⟩ := idx_facts0 t
  unfold iblk0
  rw [View.read_apply]
  show V c main_v33 _ = V c main_v33 _
  refine congrArg _ ?_
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- Entry (r, 0) of window 2's block at point t is entry (2000·t + r, 0) of its array. -/
theorem iblk0_2_at (c : Dev nD) (t : Fin cfg0.N) (r : Fin 2000) :
    (iblk0 V c 2 t : Vec Ideal S2000x1 .f32) (ix2 r 0) = V c main_v32 (ix2 (row0 t r) 0) := by
  obtain ⟨-, -, -, -, e0, e1, -⟩ := idx_facts0 t
  unfold iblk0
  rw [View.read_apply]
  show V c main_v32 _ = V c main_v32 _
  refine congrArg _ ?_
  funext a
  apply Fin.ext
  match a with
  | ⟨0, _⟩ => show win0_2.index t 0 * 2000 + 1 * r.val = 2000 * t.val + r.val; rw [e0]; omega
  | ⟨1, _⟩ => show win0_2.index t 1 * 1 + 1 * 0 = 0; rw [e1]

/-- Entry (r, q) of the output's block at point t sits at (2000·t + r, q) of the output array. -/
theorem emb0_3_at (c : Dev nD) (t : Fin cfg0.N) (r : Fin 2000) (q : Fin 128) :
    (((cfg0.win 3).blk t).view.emb (ix2 r q) : S50000x128.Idx) = ix2 (row0 t r) q := by
  obtain ⟨-, -, -, -, -, -, e0, e1⟩ := idx_facts0 t
  funext a
  apply Fin.ext
  match a with
  | ⟨0, _⟩ => show win0_3.index t 0 * 2000 + 1 * r.val = 2000 * t.val + r.val; rw [e0]; omega
  | ⟨1, _⟩ => show win0_3.index t 1 * 128 + 1 * q.val = q.val; rw [e1]; omega

/-- What the output array ends holding, as one function of the three arrays the region finds. -/
def G0 (c : Dev nD) : S50000x128.Idx → EReal := fun i =>
  Gcn.scaledProd (fun i k => V c main_arg0 (ix2 i k)) (fun k c' => V c main_v33 (ix2 k c')) (fun i => V c main_v32 (ix2 i 0))
    (i 0 : Fin 50000) (i 1 : Fin 128)

/-- What point t writes back is block t of that function. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz2]
  simp only [View.ld_unit_zero (S := S2000x128) hz2, View.ld_unit_zero (S := S128x128) hz2, View.ld_unit_zero (S := S2000x1) hz2]
  funext (j : S2000x128.Idx)
  obtain ⟨r, q, rfl⟩ : ∃ (r : Fin 2000) (q : Fin 128), j = ix2 r q := ⟨j 0, j 1, eq_ix2 j⟩
  show Gen.k0_pay1 (F := Ideal) (iblk0 V c 0 t) (iblk0 V c 1 t) (iblk0 V c 2 t) (ix2 r q)
    = G0 V c (((cfg0.win 3).blk t).view.emb (ix2 r q))
  refine (blk0_eq (iblk0 V c 0 t) (iblk0 V c 1 t) (iblk0 V c 2 t) (V c main_arg0) (V c main_v33) (V c main_v32) (row0 t)
    (iblk0_0_at V c t) (iblk0_1_at V c t) (iblk0_2_at V c t) r q).trans ?_
  rw [emb0_3_at c t r q]
  rfl

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v42).slice (win0_3.rect t)).set ↔ _
  rw [View.set_slice_whole, Rect.mem_set_unit]
  exact Iff.rfl

/-- Every block index (q, 0) with q < 25 is some grid point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

/-- Row i of the output array is covered by the grid point i / 2000: the 25 blocks of 2000 rows tile the 50000 rows. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the region is that one function. -/
theorem final0 (c : Dev nD) : (dat0 (F := Ideal) V c).arrAt 3 cfg0.N = G0 V c :=
  (dat0 (F := Ideal) V c).arrAt_eq_of_cover 3 (G0 V c) (fun t _ => flushed0_eq V c t) cover0

/-- REGION 0: the output array at (i, k) is (Σ_j X[i,j]·W[j,k])·d[i] of the three arrays the region finds. -/
theorem value0 (c : Dev nD) (i : Fin 50000) (k : Fin 128) :
    (Gen.dat0 (F := Ideal) V c).arrAt 3 cfg0.N (ix2 i k)
      = Gcn.scaledProd (fun i k => V c main_arg0 (ix2 i k)) (fun k c' => V c main_v33 (ix2 k c')) (fun i => V c main_v32 (ix2 i 0)) i k := by
  rw [final0 V c]
  rfl

end Cert.KernelIdeal.RegionValue

end
-- ==== Proof.Region1.lean ====
/-
  Region 1 of the kernel (bias, scale and relu of an aggregate): its output array, entry by entry.

  The grid has 25 points; point t reads rows 2000·t … 2000·t + 1999 of the aggregate A and of the scale column d, and the
  whole bias row b, and stores max(A[i,k]·d[i] + b[k], 0) over the same rows of the output. The 25 row blocks tile the
  50000 rows, so the output array ends at that function of A, d and b at every entry.
-/
import proofs.«123766_j46617575031251_2_alg».proof.Proof.Gen.KernelIdeal.Frame
import proofs.«123766_j46617575031251_2_alg».proof.Proof.Spec
import proofs.«123766_j46617575031251_2_alg».proof.Proof.RegionLib
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The index maps over the 25 grid points: the row-block windows sit at block (t, 0), the bias window at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- There are 25 grid points. -/
theorem lt25_1 (t : Fin cfg1.N) : t.val < 25 := by
  have h := t.isLt
  have hN : cfg1.N = 25 := Gen.N_1
  omega

/-- Row r of point t's block is row 2000·t + r of the array. -/
abbrev row1 (t : Fin cfg1.N) (r : Fin 2000) : Fin 50000 := ⟨2000 * t.val + r.val, by have := lt25_1 t; omega⟩

/-- The body's stored value at (r, q): the block entry scaled by the row's scale, plus the lane's bias, clamped below at 0. -/
theorem pay1_at (x0 : Vec Ideal S2000x128 .f32) (x1 : Vec Ideal S2000x1 .f32) (x2 : Vec Ideal S1x128 .f32)
    (r : Fin 2000) (q : Fin 128) :
    Gen.k1_pay1 (F := Ideal) x0 x1 x2 (ix2 r q) = max (x0 (ix2 r q) * x1 (ix2 r 0) + x2 (ix2 0 q)) 0 := by
  unfold Gen.k1_pay1
  simp only [truncf_apply, maximumf_apply, addf_apply, mulf_apply, broadcast_apply, shapeCast_self,
    bcastCol128_at, bcastRow128_at, Ideal.ofBits_def, Ideal.ofBits_zero_f32]

/-- Entry (r, q) of window 0's block at point t is entry (2000·t + r, q) of its array. -/
theorem iblk1_0_at (c : Dev nD) (t : Fin cfg1.N) (r : Fin 2000) (q : Fin 128) :
    (iblk1 V c 0 t : Vec Ideal S2000x128 .f32) (ix2 r q) = V c main_v53 (ix2 (row1 t r) q) := by
  obtain ⟨e0, e1, -⟩ := idx_facts1 t
  unfold iblk1
  rw [View.read_apply]
  show V c main_v53 _ = V c main_v53 _
  refine congrArg _ ?_
  funext a
  apply Fin.ext
  match a with
  | ⟨0, _⟩ => show win1_0.index t 0 * 2000 + 1 * r.val = 2000 * t.val + r.val; rw [e0]; omega
  | ⟨1, _⟩ => show win1_0.index t 1 * 128 + 1 * q.val = q.val; rw [e1]; omega

/-- Entry (r, 0) of window 1's block at point t is entry (2000·t + r, 0) of its array. -/
theorem iblk1_1_at (c : Dev nD) (t : Fin cfg1.N) (r : Fin 2000) :
    (iblk1 V c 1 t : Vec Ideal S2000x1 .f32) (ix2 r 0) = V c main_v32 (ix2 (row1 t r) 0) := by
  obtain ⟨-, -, e0, e1, -⟩ := idx_facts1 t
  unfold iblk1
  rw [View.read_apply]
  show V c main_v32 _ = V c main_v32 _
  refine congrArg _ ?_
  funext a
  apply Fin.ext
  match a with
  | ⟨0, _⟩ => show win1_1.index t 0 * 2000 + 1 * r.val = 2000 * t.val + r.val; rw [e0]; omega
  | ⟨1, _⟩ => show win1_1.index t 1 * 1 + 1 * 0 = 0; rw [e1]

/-- Window 2's block is its whole array at every point. -/
theorem iblk1_2_at (c : Dev nD) (t : Fin cfg1.N) (q : Fin 128) :
    (iblk1 V c 2 t : Vec Ideal S1x128 .f32) (ix2 0 q) = V c main_v35 (ix2 0 q) := by
  obtain ⟨-, -, -, -, e0, e1, -⟩ := idx_facts1 t
  unfold iblk1
  rw [View.read_apply]
  show V c main_v35 _ = V c main_v35 _
  refine congrArg _ ?_
  funext a
  apply Fin.ext
  match a with
  | ⟨0, _⟩ => show win1_2.index t 0 * 1 + 1 * 0 = 0; rw [e0]
  | ⟨1, _⟩ => show win1_2.index t 1 * 128 + 1 * q.val = q.val; rw [e1]; omega

/-- Entry (r, q) of the output's block at point t sits at (2000·t + r, q) of the output array. -/
theorem emb1_3_at (c : Dev nD) (t : Fin cfg1.N) (r : Fin 2000) (q : Fin 128) :
    (((cfg1.win 3).blk t).view.emb (ix2 r q) : S50000x128.Idx) = ix2 (row1 t r) q := by
  obtain ⟨-, -, -, -, -, -, e0, e1⟩ := idx_facts1 t
  funext a
  apply Fin.ext
  match a with
  | ⟨0, _⟩ => show win1_3.index t 0 * 2000 + 1 * r.val = 2000 * t.val + r.val; rw [e0]; omega
  | ⟨1, _⟩ => show win1_3.index t 1 * 128 + 1 * q.val = q.val; rw [e1]; omega

/-- What the output array ends holding, as one function of the three arrays the region finds. -/
def G1 (c : Dev nD) : S50000x128.Idx → EReal := fun i =>
  Gcn.biasRelu (fun i k => V c main_v53 (ix2 i k)) (fun i => V c main_v32 (ix2 i 0)) (fun k => V c main_v35 (ix2 0 k))
    (i 0 : Fin 50000) (i 1 : Fin 128)

/-- What point t writes back is block t of that function. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz2]
  simp only [View.ld_unit_zero (S := S2000x128) hz2, View.ld_unit_zero (S := S2000x1) hz2, View.ld_unit_zero (S := S1x128) hz2]
  funext (j : S2000x128.Idx)
  obtain ⟨r, q, rfl⟩ : ∃ (r : Fin 2000) (q : Fin 128), j = ix2 r q := ⟨j 0, j 1, eq_ix2 j⟩
  show Gen.k1_pay1 (F := Ideal) (iblk1 V c 0 t) (iblk1 V c 1 t) (iblk1 V c 2 t) (ix2 r q)
    = G1 V c (((cfg1.win 3).blk t).view.emb (ix2 r q))
  refine (pay1_at (iblk1 V c 0 t) (iblk1 V c 1 t) (iblk1 V c 2 t) r q).trans ?_
  rw [iblk1_0_at V c t r q, iblk1_1_at V c t r, iblk1_2_at V c t q, emb1_3_at c t r q]
  rfl

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v54).slice (win1_3.rect t)).set ↔ _
  rw [View.set_slice_whole, Rect.mem_set_unit]
  exact Iff.rfl

/-- Every block index (q, 0) with q < 25 is some grid point's. -/
theorem idx_onto1 : ∀ q0 : Fin 25, ∃ t : Fin cfg1.N, win1_3.index t = ![q0.val, 0] :=
  (by decide +kernel : ∀ q0 : Fin 25, ∃ t : Fin grid1.N, win1_3.index t = ![q0.val, 0])

/-- Row i of the output array is covered by the grid point i / 2000: the 25 blocks of 2000 rows tile the 50000 rows. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The output array after the region is that one function. -/
theorem final1 (c : Dev nD) : (dat1 (F := Ideal) V c).arrAt 3 cfg1.N = G1 V c :=
  (dat1 (F := Ideal) V c).arrAt_eq_of_cover 3 (G1 V c) (fun t _ => flushed1_eq V c t) cover1

/-- REGION 1: the output array at (i, k) is max(A[i,k]·d[i] + b[k], 0) of the three arrays the region finds. -/
theorem value1 (c : Dev nD) (i : Fin 50000) (k : Fin 128) :
    (Gen.dat1 (F := Ideal) V c).arrAt 3 cfg1.N (ix2 i k)
      = Gcn.biasRelu (fun i k => V c main_v53 (ix2 i k)) (fun i => V c main_v32 (ix2 i 0)) (fun k => V c main_v35 (ix2 0 k)) i k := by
  rw [final1 V c]
  rfl

end Cert.KernelIdeal.RegionValue

end
-- ==== Proof.Region2.lean ====
/-
  Region 2 of the kernel (a block product scaled row by row): its output array, entry by entry.

  The grid has 25 points; point t reads rows 2000·t … 2000·t + 1999 of X and of the scale column d, and the whole weight
  matrix W, and stores (Σ_k X[i,k]·W[k,c])·d[i] over the same rows of the output. A change of float format is the identity
  on the extended reals, and the product into a zero accumulator is the plain sum. The 25 row blocks tile the 50000 rows,
  so the output array ends at that function of X, W and d at every entry.
-/
import proofs.«123766_j46617575031251_2_alg».proof.Proof.Gen.KernelIdeal.Frame
import proofs.«123766_j46617575031251_2_alg».proof.Proof.Spec
import proofs.«123766_j46617575031251_2_alg».proof.Proof.RegionLib
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The index maps over the 25 grid points: the row-block windows sit at block (t, 0), the weight window at (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- There are 25 grid points. -/
theorem lt25_2 (t : Fin cfg2.N) : t.val < 25 := by
  have h := t.isLt
  have hN : cfg2.N = 25 := Gen.N_2
  omega

/-- Row r of point t's block is row 2000·t + r of the array. -/
abbrev row2 (t : Fin cfg2.N) (r : Fin 2000) : Fin 50000 := ⟨2000 * t.val + r.val, by have := lt25_2 t; omega⟩

/-- The body's stored value at (r, q): the row of the block times the column of the weights, scaled by the row's scale. -/
theorem pay2_at (x0 : Vec Ideal S2000x128 .bf16) (x1 : Vec Ideal S128x128 .f32) (x2 : Vec Ideal S2000x1 .f32)
    (r : Fin 2000) (q : Fin 128) :
    Gen.k2_pay1 (F := Ideal) x0 x1 x2 (ix2 r q)
      = Gcn.scaledProd (fun i k => x0 (ix2 i k)) (fun k c' => x1 (ix2 k c')) (fun i => x2 (ix2 i 0)) r q := by
  unfold Gen.k2_pay1
  simp only [truncf_apply, mulf_apply, shapeCast_self, bcastCol128_at]
  rw [matmul128_at]
  simp only [truncf_apply]
  rfl

/-- The same over blocks that are restrictions of whole arrays: rows R r of X and of d, the whole of W. -/
theorem blk2_eq (x0 : Vec Ideal S2000x128 .bf16) (x1 : Vec Ideal S128x128 .f32) (x2 : Vec Ideal S2000x1 .f32)
    (A0 : S50000x128.Idx → EReal) (A1 : S128x128.Idx → EReal) (A2 : S50000x1.Idx → EReal) (R : Fin 2000 → Fin 50000)
    (h0 : ∀ r k, x0 (ix2 r k) = A0 (ix2 (R r) k)) (h1 : ∀ k q, x1 (ix2 k q) = A1 (ix2 k q))
    (h2 : ∀ r, x2 (ix2 r 0) = A2 (ix2 (R r) 0)) (r : Fin 2000) (q : Fin 128) :
    Gen.k2_pay1 (F := Ideal) x0 x1 x2 (ix2 r q)
      = Gcn.scaledProd (fun i k => A0 (ix2 i k)) (fun k c' => A1 (ix2 k c')) (fun i => A2 (ix2 i 0)) (R r) q := by
  rw [pay2_at]
  unfold Gcn.scaledProd Gcn.matProd
  simp only [h0, h1, h2]

/-- Entry (r, q) of window 0's block at point t is entry (2000·t + r, q) of its array. -/
theorem iblk2_0_at (c : Dev nD) (t : Fin cfg2.N) (r : Fin 2000) (q : Fin 128) :
    (iblk2 V c 0 t : Vec Ideal S2000x128 .bf16) (ix2 r q) = V c main_v54 (ix2 (row2 t r) q) := by
  obtain ⟨e0, e1, -⟩ := idx_facts2 t
  unfold iblk2
  rw [View.read_apply]
  show V c main_v54 _ = V c main_v54 _
  refine congrArg _ ?_
  funext a
  apply Fin.ext
  match a with
  | ⟨0, _⟩ => show win2_0.index t 0 * 2000 + 1 * r.val = 2000 * t.val + r.val; rw [e0]; omega
  | ⟨1, _⟩ => show win2_0.index t 1 * 128 + 1 * q.val = q.val; rw [e1]; omega

/-- Window 1's block is its whole array at every point. -/
theorem iblk2_1_at (c : Dev nD) (t : Fin cfg2.N) (k : Fin 128) (q : Fin 128) :
    (iblk2 V c 1 t : Vec Ideal S128x128 .f32) (ix2 k q) = V c main_v37 (ix2 k q) := by
  obtain ⟨-, -, e0, e1, -⟩ := idx_facts2 t
  unfold iblk2
  rw [View.read_apply]
  show V c main_v37 _ = V c main_v37 _
  refine congrArg _ ?_
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- Entry (r, 0) of window 2's block at point t is entry (2000·t + r, 0) of its array. -/
theorem iblk2_2_at (c : Dev nD) (t : Fin cfg2.N) (r : Fin 2000) :
    (iblk2 V c 2 t : Vec Ideal S2000x1 .f32) (ix2 r 0) = V c main_v32 (ix2 (row2 t r) 0) := by
  obtain ⟨-, -, -, -, e0, e1, -⟩ := idx_facts2 t
  unfold iblk2
  rw [View.read_apply]
  show V c main_v32 _ = V c main_v32 _
  refine congrArg _ ?_
  funext a
  apply Fin.ext
  match a with
  | ⟨0, _⟩ => show win2_2.index t 0 * 2000 + 1 * r.val = 2000 * t.val + r.val; rw [e0]; omega
  | ⟨1, _⟩ => show win2_2.index t 1 * 1 + 1 * 0 = 0; rw [e1]

/-- Entry (r, q) of the output's block at point t sits at (2000·t + r, q) of the output array. -/
theorem emb2_3_at (c : Dev nD) (t : Fin cfg2.N) (r : Fin 2000) (q : Fin 128) :
    (((cfg2.win 3).blk t).view.emb (ix2 r q) : S50000x128.Idx) = ix2 (row2 t r) q := by
  obtain ⟨-, -, -, -, -, -, e0, e1⟩ := idx_facts2 t
  funext a
  apply Fin.ext
  match a with
  | ⟨0, _⟩ => show win2_3.index t 0 * 2000 + 1 * r.val = 2000 * t.val + r.val; rw [e0]; omega
  | ⟨1, _⟩ => show win2_3.index t 1 * 128 + 1 * q.val = q.val; rw [e1]; omega

/-- What the output array ends holding, as one function of the three arrays the region finds. -/
def G2 (c : Dev nD) : S50000x128.Idx → EReal := fun i =>
  Gcn.scaledProd (fun i k => V c main_v54 (ix2 i k)) (fun k c' => V c main_v37 (ix2 k c')) (fun i => V c main_v32 (ix2 i 0))
    (i 0 : Fin 50000) (i 1 : Fin 128)

/-- What point t writes back is block t of that function. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S2000x128) hz2, View.ld_unit_zero (S := S128x128) hz2, View.ld_unit_zero (S := S2000x1) hz2]
  funext (j : S2000x128.Idx)
  obtain ⟨r, q, rfl⟩ : ∃ (r : Fin 2000) (q : Fin 128), j = ix2 r q := ⟨j 0, j 1, eq_ix2 j⟩
  show Gen.k2_pay1 (F := Ideal) (iblk2 V c 0 t) (iblk2 V c 1 t) (iblk2 V c 2 t) (ix2 r q)
    = G2 V c (((cfg2.win 3).blk t).view.emb (ix2 r q))
  refine (blk2_eq (iblk2 V c 0 t) (iblk2 V c 1 t) (iblk2 V c 2 t) (V c main_v54) (V c main_v37) (V c main_v32) (row2 t)
    (iblk2_0_at V c t) (iblk2_1_at V c t) (iblk2_2_at V c t) r q).trans ?_
  rw [emb2_3_at c t r q]
  rfl

/-- An index of the output array is in point t's block iff each coordinate is in the block's range on its axis. -/
theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v55).slice (win2_3.rect t)).set ↔ _
  rw [View.set_slice_whole, Rect.mem_set_unit]
  exact Iff.rfl

/-- Every block index (q, 0) with q < 25 is some grid point's. -/
theorem idx_onto2 : ∀ q0 : Fin 25, ∃ t : Fin cfg2.N, win2_3.index t = ![q0.val, 0] :=
  (by decide +kernel : ∀ q0 : Fin 25, ∃ t : Fin grid2.N, win2_3.index t = ![q0.val, 0])

/-- Row i of the output array is covered by the grid point i / 2000: the 25 blocks of 2000 rows tile the 50000 rows. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The output array after the region is that one function. -/
theorem final2 (c : Dev nD) : (dat2 (F := Ideal) V c).arrAt 3 cfg2.N = G2 V c :=
  (dat2 (F := Ideal) V c).arrAt_eq_of_cover 3 (G2 V c) (fun t _ => flushed2_eq V c t) cover2

/-- REGION 2: the output array at (i, k) is (Σ_j X[i,j]·W[j,k])·d[i] of the three arrays the region finds. -/
theorem value2 (c : Dev nD) (i : Fin 50000) (k : Fin 128) :
    (Gen.dat2 (F := Ideal) V c).arrAt 3 cfg2.N (ix2 i k)
      = Gcn.scaledProd (fun i k => V c main_v54 (ix2 i k)) (fun k c' => V c main_v37 (ix2 k c')) (fun i => V c main_v32 (ix2 i 0)) i k := by
  rw [final2 V c]
  rfl

end Cert.KernelIdeal.RegionValue

end
-- ==== Proof.Region3.lean ====
/-
  Region 3 of the kernel (bias, scale and relu of an aggregate): its output array, entry by entry.

  The grid has 25 points; point t reads rows 2000·t … 2000·t + 1999 of the aggregate A and of the scale column d, and the
  whole bias row b, and stores max(A[i,k]·d[i] + b[k], 0) over the same rows of the output. The 25 row blocks tile the
  50000 rows, so the output array ends at that function of A, d and b at every entry.
-/
import proofs.«123766_j46617575031251_2_alg».proof.Proof.Gen.KernelIdeal.Frame
import proofs.«123766_j46617575031251_2_alg».proof.Proof.Spec
import proofs.«123766_j46617575031251_2_alg».proof.Proof.RegionLib
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The index maps over the 25 grid points: the row-block windows sit at block (t, 0), the bias window at (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- There are 25 grid points. -/
theorem lt25_3 (t : Fin cfg3.N) : t.val < 25 := by
  have h := t.isLt
  have hN : cfg3.N = 25 := Gen.N_3
  omega

/-- Row r of point t's block is row 2000·t + r of the array. -/
abbrev row3 (t : Fin cfg3.N) (r : Fin 2000) : Fin 50000 := ⟨2000 * t.val + r.val, by have := lt25_3 t; omega⟩

/-- The body's stored value at (r, q): the block entry scaled by the row's scale, plus the lane's bias, clamped below at 0. -/
theorem pay3_at (x0 : Vec Ideal S2000x128 .f32) (x1 : Vec Ideal S2000x1 .f32) (x2 : Vec Ideal S1x128 .f32)
    (r : Fin 2000) (q : Fin 128) :
    Gen.k3_pay1 (F := Ideal) x0 x1 x2 (ix2 r q) = max (x0 (ix2 r q) * x1 (ix2 r 0) + x2 (ix2 0 q)) 0 := by
  unfold Gen.k3_pay1
  simp only [truncf_apply, maximumf_apply, addf_apply, mulf_apply, broadcast_apply, shapeCast_self,
    bcastCol128_at, bcastRow128_at, Ideal.ofBits_def, Ideal.ofBits_zero_f32]

/-- Entry (r, q) of window 0's block at point t is entry (2000·t + r, q) of its array. -/
theorem iblk3_0_at (c : Dev nD) (t : Fin cfg3.N) (r : Fin 2000) (q : Fin 128) :
    (iblk3 V c 0 t : Vec Ideal S2000x128 .f32) (ix2 r q) = V c main_v66 (ix2 (row3 t r) q) := by
  obtain ⟨e0, e1, -⟩ := idx_facts3 t
  unfold iblk3
  rw [View.read_apply]
  show V c main_v66 _ = V c main_v66 _
  refine congrArg _ ?_
  funext a
  apply Fin.ext
  match a with
  | ⟨0, _⟩ => show win3_0.index t 0 * 2000 + 1 * r.val = 2000 * t.val + r.val; rw [e0]; omega
  | ⟨1, _⟩ => show win3_0.index t 1 * 128 + 1 * q.val = q.val; rw [e1]; omega

/-- Entry (r, 0) of window 1's block at point t is entry (2000·t + r, 0) of its array. -/
theorem iblk3_1_at (c : Dev nD) (t : Fin cfg3.N) (r : Fin 2000) :
    (iblk3 V c 1 t : Vec Ideal S2000x1 .f32) (ix2 r 0) = V c main_v32 (ix2 (row3 t r) 0) := by
  obtain ⟨-, -, e0, e1, -⟩ := idx_facts3 t
  unfold iblk3
  rw [View.read_apply]
  show V c main_v32 _ = V c main_v32 _
  refine congrArg _ ?_
  funext a
  apply Fin.ext
  match a with
  | ⟨0, _⟩ => show win3_1.index t 0 * 2000 + 1 * r.val = 2000 * t.val + r.val; rw [e0]; omega
  | ⟨1, _⟩ => show win3_1.index t 1 * 1 + 1 * 0 = 0; rw [e1]

/-- Window 2's block is its whole array at every point. -/
theorem iblk3_2_at (c : Dev nD) (t : Fin cfg3.N) (q : Fin 128) :
    (iblk3 V c 2 t : Vec Ideal S1x128 .f32) (ix2 0 q) = V c main_v39 (ix2 0 q) := by
  obtain ⟨-, -, -, -, e0, e1, -⟩ := idx_facts3 t
  unfold iblk3
  rw [View.read_apply]
  show V c main_v39 _ = V c main_v39 _
  refine congrArg _ ?_
  funext a
  apply Fin.ext
  match a with
  | ⟨0, _⟩ => show win3_2.index t 0 * 1 + 1 * 0 = 0; rw [e0]
  | ⟨1, _⟩ => show win3_2.index t 1 * 128 + 1 * q.val = q.val; rw [e1]; omega

/-- Entry (r, q) of the output's block at point t sits at (2000·t + r, q) of the output array. -/
theorem emb3_3_at (c : Dev nD) (t : Fin cfg3.N) (r : Fin 2000) (q : Fin 128) :
    (((cfg3.win 3).blk t).view.emb (ix2 r q) : S50000x128.Idx) = ix2 (row3 t r) q := by
  obtain ⟨-, -, -, -, -, -, e0, e1⟩ := idx_facts3 t
  funext a
  apply Fin.ext
  match a with
  | ⟨0, _⟩ => show win3_3.index t 0 * 2000 + 1 * r.val = 2000 * t.val + r.val; rw [e0]; omega
  | ⟨1, _⟩ => show win3_3.index t 1 * 128 + 1 * q.val = q.val; rw [e1]; omega

/-- What the output array ends holding, as one function of the three arrays the region finds. -/
def G3 (c : Dev nD) : S50000x128.Idx → EReal := fun i =>
  Gcn.biasRelu (fun i k => V c main_v66 (ix2 i k)) (fun i => V c main_v32 (ix2 i 0)) (fun k => V c main_v39 (ix2 0 k))
    (i 0 : Fin 50000) (i 1 : Fin 128)

/-- What point t writes back is block t of that function. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  unfold out3_3
  rw [View.canon_unit_zero hz2]
  simp only [View.ld_unit_zero (S := S2000x128) hz2, View.ld_unit_zero (S := S2000x1) hz2, View.ld_unit_zero (S := S1x128) hz2]
  funext (j : S2000x128.Idx)
  obtain ⟨r, q, rfl⟩ : ∃ (r : Fin 2000) (q : Fin 128), j = ix2 r q := ⟨j 0, j 1, eq_ix2 j⟩
  show Gen.k3_pay1 (F := Ideal) (iblk3 V c 0 t) (iblk3 V c 1 t) (iblk3 V c 2 t) (ix2 r q)
    = G3 V c (((cfg3.win 3).blk t).view.emb (ix2 r q))
  refine (pay3_at (iblk3 V c 0 t) (iblk3 V c 1 t) (iblk3 V c 2 t) r q).trans ?_
  rw [iblk3_0_at V c t r q, iblk3_1_at V c t r, iblk3_2_at V c t q, emb3_3_at c t r q]
  rfl

/-- An index of the output array is in point t's block iff each coordinate is in the block's range on its axis. -/
theorem mem_blk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v67).slice (win3_3.rect t)).set ↔ _
  rw [View.set_slice_whole, Rect.mem_set_unit]
  exact Iff.rfl

/-- Every block index (q, 0) with q < 25 is some grid point's. -/
theorem idx_onto3 : ∀ q0 : Fin 25, ∃ t : Fin cfg3.N, win3_3.index t = ![q0.val, 0] :=
  (by decide +kernel : ∀ q0 : Fin 25, ∃ t : Fin grid3.N, win3_3.index t = ![q0.val, 0])

/-- Row i of the output array is covered by the grid point i / 2000: the 25 blocks of 2000 rows tile the 50000 rows. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The output array after the region is that one function. -/
theorem final3 (c : Dev nD) : (dat3 (F := Ideal) V c).arrAt 3 cfg3.N = G3 V c :=
  (dat3 (F := Ideal) V c).arrAt_eq_of_cover 3 (G3 V c) (fun t _ => flushed3_eq V c t) cover3

/-- REGION 3: the output array at (i, k) is max(A[i,k]·d[i] + b[k], 0) of the three arrays the region finds. -/
theorem value3 (c : Dev nD) (i : Fin 50000) (k : Fin 128) :
    (Gen.dat3 (F := Ideal) V c).arrAt 3 cfg3.N (ix2 i k)
      = Gcn.biasRelu (fun i k => V c main_v66 (ix2 i k)) (fun i => V c main_v32 (ix2 i 0)) (fun k => V c main_v39 (ix2 0 k)) i k := by
  rw [final3 V c]
  rfl

end Cert.KernelIdeal.RegionValue

end
-- ==== Proof.Region4.lean ====
/-
  Region 4 of the kernel (a block product scaled row by row): its output array, entry by entry.

  The grid has 25 points; point t reads rows 2000·t … 2000·t + 1999 of X and of the scale column d, and the whole weight
  matrix W, and stores (Σ_k X[i,k]·W[k,c])·d[i] over the same rows of the output. A change of float format is the identity
  on the extended reals, and the product into a zero accumulator is the plain sum. The 25 row blocks tile the 50000 rows,
  so the output array ends at that function of X, W and d at every entry.
-/
import proofs.«123766_j46617575031251_2_alg».proof.Proof.Gen.KernelIdeal.Frame
import proofs.«123766_j46617575031251_2_alg».proof.Proof.Spec
import proofs.«123766_j46617575031251_2_alg».proof.Proof.RegionLib
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The index maps over the 25 grid points: the row-block windows sit at block (t, 0), the weight window at (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- There are 25 grid points. -/
theorem lt25_4 (t : Fin cfg4.N) : t.val < 25 := by
  have h := t.isLt
  have hN : cfg4.N = 25 := Gen.N_4
  omega

/-- Row r of point t's block is row 2000·t + r of the array. -/
abbrev row4 (t : Fin cfg4.N) (r : Fin 2000) : Fin 50000 := ⟨2000 * t.val + r.val, by have := lt25_4 t; omega⟩

/-- The body's stored value at (r, q): the row of the block times the column of the weights, scaled by the row's scale. -/
theorem pay4_at (x0 : Vec Ideal S2000x128 .bf16) (x1 : Vec Ideal S128x32 .f32) (x2 : Vec Ideal S2000x1 .f32)
    (r : Fin 2000) (q : Fin 32) :
    Gen.k4_pay1 (F := Ideal) x0 x1 x2 (ix2 r q)
      = Gcn.scaledProd (fun i k => x0 (ix2 i k)) (fun k c' => x1 (ix2 k c')) (fun i => x2 (ix2 i 0)) r q := by
  unfold Gen.k4_pay1
  simp only [truncf_apply, mulf_apply, shapeCast_self, bcastCol32_at]
  rw [matmul32_at]
  simp only [truncf_apply]
  rfl

/-- The same over blocks that are restrictions of whole arrays: rows R r of X and of d, the whole of W. -/
theorem blk4_eq (x0 : Vec Ideal S2000x128 .bf16) (x1 : Vec Ideal S128x32 .f32) (x2 : Vec Ideal S2000x1 .f32)
    (A0 : S50000x128.Idx → EReal) (A1 : S128x32.Idx → EReal) (A2 : S50000x1.Idx → EReal) (R : Fin 2000 → Fin 50000)
    (h0 : ∀ r k, x0 (ix2 r k) = A0 (ix2 (R r) k)) (h1 : ∀ k q, x1 (ix2 k q) = A1 (ix2 k q))
    (h2 : ∀ r, x2 (ix2 r 0) = A2 (ix2 (R r) 0)) (r : Fin 2000) (q : Fin 32) :
    Gen.k4_pay1 (F := Ideal) x0 x1 x2 (ix2 r q)
      = Gcn.scaledProd (fun i k => A0 (ix2 i k)) (fun k c' => A1 (ix2 k c')) (fun i => A2 (ix2 i 0)) (R r) q := by
  rw [pay4_at]
  unfold Gcn.scaledProd Gcn.matProd
  simp only [h0, h1, h2]

/-- Entry (r, q) of window 0's block at point t is entry (2000·t + r, q) of its array. -/
theorem iblk4_0_at (c : Dev nD) (t : Fin cfg4.N) (r : Fin 2000) (q : Fin 128) :
    (iblk4 V c 0 t : Vec Ideal S2000x128 .bf16) (ix2 r q) = V c main_v67 (ix2 (row4 t r) q) := by
  obtain ⟨e0, e1, -⟩ := idx_facts4 t
  unfold iblk4
  rw [View.read_apply]
  show V c main_v67 _ = V c main_v67 _
  refine congrArg _ ?_
  funext a
  apply Fin.ext
  match a with
  | ⟨0, _⟩ => show win4_0.index t 0 * 2000 + 1 * r.val = 2000 * t.val + r.val; rw [e0]; omega
  | ⟨1, _⟩ => show win4_0.index t 1 * 128 + 1 * q.val = q.val; rw [e1]; omega

/-- Window 1's block is its whole array at every point. -/
theorem iblk4_1_at (c : Dev nD) (t : Fin cfg4.N) (k : Fin 128) (q : Fin 32) :
    (iblk4 V c 1 t : Vec Ideal S128x32 .f32) (ix2 k q) = V c main_v40 (ix2 k q) := by
  obtain ⟨-, -, e0, e1, -⟩ := idx_facts4 t
  unfold iblk4
  rw [View.read_apply]
  show V c main_v40 _ = V c main_v40 _
  refine congrArg _ ?_
  funext a
  apply Fin.ext
  match a with
  | ⟨0, _⟩ => show win4_1.index t 0 * 128 + 1 * k.val = k.val; rw [e0]; omega
  | ⟨1, _⟩ => show win4_1.index t 1 * 32 + 1 * q.val = q.val; rw [e1]; omega

/-- Entry (r, 0) of window 2's block at point t is entry (2000·t + r, 0) of its array. -/
theorem iblk4_2_at (c : Dev nD) (t : Fin cfg4.N) (r : Fin 2000) :
    (iblk4 V c 2 t : Vec Ideal S2000x1 .f32) (ix2 r 0) = V c main_v32 (ix2 (row4 t r) 0) := by
  obtain ⟨-, -, -, -, e0, e1, -⟩ := idx_facts4 t
  unfold iblk4
  rw [View.read_apply]
  show V c main_v32 _ = V c main_v32 _
  refine congrArg _ ?_
  funext a
  apply Fin.ext
  match a with
  | ⟨0, _⟩ => show win4_2.index t 0 * 2000 + 1 * r.val = 2000 * t.val + r.val; rw [e0]; omega
  | ⟨1, _⟩ => show win4_2.index t 1 * 1 + 1 * 0 = 0; rw [e1]

/-- Entry (r, q) of the output's block at point t sits at (2000·t + r, q) of the output array. -/
theorem emb4_3_at (c : Dev nD) (t : Fin cfg4.N) (r : Fin 2000) (q : Fin 32) :
    (((cfg4.win 3).blk t).view.emb (ix2 r q) : S50000x32.Idx) = ix2 (row4 t r) q := by
  obtain ⟨-, -, -, -, -, -, e0, e1⟩ := idx_facts4 t
  funext a
  apply Fin.ext
  match a with
  | ⟨0, _⟩ => show win4_3.index t 0 * 2000 + 1 * r.val = 2000 * t.val + r.val; rw [e0]; omega
  | ⟨1, _⟩ => show win4_3.index t 1 * 32 + 1 * q.val = q.val; rw [e1]; omega

/-- What the output array ends holding, as one function of the three arrays the region finds. -/
def G4 (c : Dev nD) : S50000x32.Idx → EReal := fun i =>
  Gcn.scaledProd (fun i k => V c main_v67 (ix2 i k)) (fun k c' => V c main_v40 (ix2 k c')) (fun i => V c main_v32 (ix2 i 0))
    (i 0 : Fin 50000) (i 1 : Fin 32)

/-- What point t writes back is block t of that function. -/
theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_3]
  unfold out4_3
  rw [View.canon_unit_zero hz2]
  simp only [View.ld_unit_zero (S := S2000x128) hz2, View.ld_unit_zero (S := S128x32) hz2, View.ld_unit_zero (S := S2000x1) hz2]
  funext (j : S2000x32.Idx)
  obtain ⟨r, q, rfl⟩ : ∃ (r : Fin 2000) (q : Fin 32), j = ix2 r q := ⟨j 0, j 1, eq_ix2 j⟩
  show Gen.k4_pay1 (F := Ideal) (iblk4 V c 0 t) (iblk4 V c 1 t) (iblk4 V c 2 t) (ix2 r q)
    = G4 V c (((cfg4.win 3).blk t).view.emb (ix2 r q))
  refine (blk4_eq (iblk4 V c 0 t) (iblk4 V c 1 t) (iblk4 V c 2 t) (V c main_v67) (V c main_v40) (V c main_v32) (row4 t)
    (iblk4_0_at V c t) (iblk4_1_at V c t) (iblk4_2_at V c t) r q).trans ?_
  rw [emb4_3_at c t r q]
  rfl

/-- An index of the output array is in point t's block iff each coordinate is in the block's range on its axis. -/
theorem mem_blk4 (t : Fin cfg4.N) (i : S50000x32.Idx) :
    i ∈ ((cfg4.win 3).blk t).view.set ↔ ∀ a : Fin 2, win4_3.index t a * S2000x32.size a ≤ (i a).val ∧ (i a).val < win4_3.index t a * S2000x32.size a + S2000x32.size a := by
  show i ∈ ((View.whole main_v68).slice (win4_3.rect t)).set ↔ _
  rw [View.set_slice_whole, Rect.mem_set_unit]
  exact Iff.rfl

/-- Every block index (q, 0) with q < 25 is some grid point's. -/
theorem idx_onto4 : ∀ q0 : Fin 25, ∃ t : Fin cfg4.N, win4_3.index t = ![q0.val, 0] :=
  (by decide +kernel : ∀ q0 : Fin 25, ∃ t : Fin grid4.N, win4_3.index t = ![q0.val, 0])

/-- Row i of the output array is covered by the grid point i / 2000: the 25 blocks of 2000 rows tile the 50000 rows. -/
theorem cover4 (i : S50000x32.Idx) :
    ∃ t : Fin cfg4.N, (cfg4.win 3).flush t = true ∧ i ∈ ((cfg4.win 3).blk t).view.set := by
  have hi0 : (i 0).val < 50000 := (i 0).isLt
  have hi1 : (i 1).val < 32 := (i 1).isLt
  obtain ⟨t, ht⟩ := idx_onto4 ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 32 ≤ (i 1).val ∧ (i 1).val < win4_3.index t (1 : Fin 2) * 32 + 32; omega

/-- The output array after the region is that one function. -/
theorem final4 (c : Dev nD) : (dat4 (F := Ideal) V c).arrAt 3 cfg4.N = G4 V c :=
  (dat4 (F := Ideal) V c).arrAt_eq_of_cover 3 (G4 V c) (fun t _ => flushed4_eq V c t) cover4

/-- REGION 4: the output array at (i, k) is (Σ_j X[i,j]·W[j,k])·d[i] of the three arrays the region finds. -/
theorem value4 (c : Dev nD) (i : Fin 50000) (k : Fin 32) :
    (Gen.dat4 (F := Ideal) V c).arrAt 3 cfg4.N (ix2 i k)
      = Gcn.scaledProd (fun i k => V c main_v67 (ix2 i k)) (fun k c' => V c main_v40 (ix2 k c')) (fun i => V c main_v32 (ix2 i 0)) i k := by
  rw [final4 V c]
  rfl

end Cert.KernelIdeal.RegionValue

end
-- ==== Proof.Region5.lean ====
/-
  Region 5 of the kernel (bias, scale and log-softmax of an aggregate): its output array, entry by entry.

  The grid has 25 points; point t reads rows 2000·t … 2000·t + 1999 of the aggregate A and of the scale column d, and the
  whole bias row b. With z[i,c] = A[i,c]·d[i] + b[c], the body takes each row's maximum m[i] (a fold of max from -inf over
  the row's 32 entries), shifts the row by it, sums the exponentials of the shifted row, and stores
  (z[i,c] - m[i]) - log Σ_k exp(z[i,k] - m[i]): the log-softmax of row i of z. The row quantities m and the log-sum are kept
  as [2000,1] columns and broadcast back over the lanes. The 25 row blocks tile the 50000 rows, so the output array ends at
  the log-softmax of z at every entry.
-/
import proofs.«123766_j46617575031251_2_alg».proof.Proof.Gen.KernelIdeal.Frame
import proofs.«123766_j46617575031251_2_alg».proof.Proof.Spec
import proofs.«123766_j46617575031251_2_alg».proof.Proof.RegionLib
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The index maps over the 25 grid points: the row-block windows sit at block (t, 0), the bias window at (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- There are 25 grid points. -/
theorem lt25_5 (t : Fin cfg5.N) : t.val < 25 := by
  have h := t.isLt
  have hN : cfg5.N = 25 := Gen.N_5
  omega

/-- Row r of point t's block is row 2000·t + r of the array. -/
abbrev row5 (t : Fin cfg5.N) (r : Fin 2000) : Fin 50000 := ⟨2000 * t.val + r.val, by have := lt25_5 t; omega⟩

/-! ## The body's arithmetic, read at coordinates -/

/-- The block the softmax is taken of: the aggregate scaled row by row, plus the bias. -/
def z5 (x0 : Vec Ideal S2000x32 .f32) (x1 : Vec Ideal S2000x1 .f32) (x2 : Vec Ideal S1x32 .f32) : FVec Ideal S2000x32 .f32 :=
  addf (mulf (shapeCast S2000x32 x0 shapeCasts_S2000x32_S2000x32)
      (broadcastTo S2000x32 (shapeCast S2000x1 x1 shapeCasts_S2000x1_S2000x1) broadcasts_S2000x1_S2000x32))
    (broadcastTo S2000x32 (shapeCast S1x32 x2 shapeCasts_S1x32_S1x32) broadcasts_S1x32_S2000x32)

theorem z5_at (x0 : Vec Ideal S2000x32 .f32) (x1 : Vec Ideal S2000x1 .f32) (x2 : Vec Ideal S1x32 .f32) (r : Fin 2000) (c : Fin 32) :
    z5 x0 x1 x2 (ix2 r c) = x0 (ix2 r c) * x1 (ix2 r 0) + x2 (ix2 0 c) := by
  unfold z5
  simp only [addf_apply, mulf_apply, shapeCast_self, bcastCol32_at, bcastRow32_at]

/-- The rows' maxima, kept as a column. -/
def rowMaxCol (z : FVec Ideal S2000x32 .f32) : FVec Ideal S2000x1 .f32 :=
  shapeCast S2000x1 (multiReduction (F := Ideal) .maximumf [1] S2000 z 0xFF800000#32 reduces_S2000x32_S2000 (.inl rfl) rfl)
    shapeCasts_S2000_S2000x1

theorem rowMaxCol_at (z : FVec Ideal S2000x32 .f32) (r : Fin 2000) :
    rowMaxCol z (ix2 r 0) = Gcn.rowMax (fun c => z (ix2 r c)) := by
  unfold rowMaxCol
  exact (castCol_at _ _ r).trans (laneMax32_at z _ _ _ r)

/-- Each row shifted by its maximum. -/
def shifted (z : FVec Ideal S2000x32 .f32) : FVec Ideal S2000x32 .f32 :=
  subf z (broadcastTo S2000x32 (rowMaxCol z) broadcasts_S2000x1_S2000x32)

theorem shifted_at (z : FVec Ideal S2000x32 .f32) (r : Fin 2000) (c : Fin 32) :
    shifted z (ix2 r c) = z (ix2 r c) - Gcn.rowMax (fun c => z (ix2 r c)) := by
  unfold shifted
  rw [subf_apply, bcastCol32_at, rowMaxCol_at]

/-- The logarithm of each row's sum of exponentials of the shifted row, kept as a column. -/
def logSumCol (z : FVec Ideal S2000x32 .f32) : FVec Ideal S2000x1 .f32 :=
  log (shapeCast S2000x1
    (multiReduction (F := Ideal) .add [1] S2000 (exp (shifted z)) 0x00000000#32 reduces_S2000x32_S2000 (.inl rfl) rfl)
    shapeCasts_S2000_S2000x1)

theorem logSumCol_at (z : FVec Ideal S2000x32 .f32) (r : Fin 2000) :
    logSumCol z (ix2 r 0)
      = Ideal.log (∑ k : Fin 32, Ideal.exp (z (ix2 r k) - Gcn.rowMax (fun c => z (ix2 r c)))) := by
  unfold logSumCol
  show Ideal.log (shapeCast S2000x1
    (multiReduction (F := Ideal) .add [1] S2000 (exp (shifted z)) 0x00000000#32 reduces_S2000x32_S2000 (.inl rfl) rfl)
    shapeCasts_S2000_S2000x1 (ix2 r 0)) = _
  refine congrArg Ideal.log (((castCol_at _ _ r).trans (laneSum32_at (exp (shifted z)) _ _ _ r)).trans ?_)
  refine Finset.sum_congr rfl fun k _ => ?_
  show Ideal.exp (shifted z (ix2 r k)) = _
  rw [shifted_at]

/-- The rows' log-softmax, as the body computes it. -/
def lsm5 (z : FVec Ideal S2000x32 .f32) : FVec Ideal S2000x32 .f32 :=
  subf (shifted z) (broadcastTo S2000x32 (logSumCol z) broadcasts_S2000x1_S2000x32)

theorem lsm5_at (z : FVec Ideal S2000x32 .f32) (r : Fin 2000) (q : Fin 32) :
    lsm5 z (ix2 r q) = Gcn.logSoftmax (fun c => z (ix2 r c)) q := by
  unfold lsm5
  rw [subf_apply, bcastCol32_at, shifted_at, logSumCol_at]
  rfl

/-- The body's stored block is the log-softmax of the rows of z. -/
theorem k5_eq (x0 : Vec Ideal S2000x32 .f32) (x1 : Vec Ideal S2000x1 .f32) (x2 : Vec Ideal S1x32 .f32) :
    Gen.k5_pay1 (F := Ideal) x0 x1 x2 = lsm5 (z5 x0 x1 x2) := rfl

/-- The body's stored value at (r, q). -/
theorem pay5_at (x0 : Vec Ideal S2000x32 .f32) (x1 : Vec Ideal S2000x1 .f32) (x2 : Vec Ideal S1x32 .f32)
    (r : Fin 2000) (q : Fin 32) :
    Gen.k5_pay1 (F := Ideal) x0 x1 x2 (ix2 r q)
      = Gcn.biasLogSoftmax (fun i k => x0 (ix2 i k)) (fun i => x1 (ix2 i 0)) (fun k => x2 (ix2 0 k)) r q := by
  rw [k5_eq, lsm5_at]
  unfold Gcn.biasLogSoftmax
  exact congrArg (fun f => Gcn.logSoftmax f q) (funext fun c => z5_at x0 x1 x2 r c)

/-- The same over blocks that are restrictions of whole arrays: rows R r of A and of d, the whole of b. -/
theorem blk5_eq (x0 : Vec Ideal S2000x32 .f32) (x1 : Vec Ideal S2000x1 .f32) (x2 : Vec Ideal S1x32 .f32)
    (A0 : S50000x32.Idx → EReal) (A1 : S50000x1.Idx → EReal) (A2 : S1x32.Idx → EReal) (R : Fin 2000 → Fin 50000)
    (h0 : ∀ r k, x0 (ix2 r k) = A0 (ix2 (R r) k)) (h1 : ∀ r, x1 (ix2 r 0) = A1 (ix2 (R r) 0))
    (h2 : ∀ q, x2 (ix2 0 q) = A2 (ix2 0 q)) (r : Fin 2000) (q : Fin 32) :
    Gen.k5_pay1 (F := Ideal) x0 x1 x2 (ix2 r q)
      = Gcn.biasLogSoftmax (fun i k => A0 (ix2 i k)) (fun i => A1 (ix2 i 0)) (fun k => A2 (ix2 0 k)) (R r) q := by
  rw [pay5_at]
  unfold Gcn.biasLogSoftmax
  simp only [h0, h1, h2]

/-- Entry (r, q) of window 0's block at point t is entry (2000·t + r, q) of its array. -/
theorem iblk5_0_at (c : Dev nD) (t : Fin cfg5.N) (r : Fin 2000) (q : Fin 32) :
    (iblk5 V c 0 t : Vec Ideal S2000x32 .f32) (ix2 r q) = V c main_v79 (ix2 (row5 t r) q) := by
  obtain ⟨e0, e1, -⟩ := idx_facts5 t
  unfold iblk5
  rw [View.read_apply]
  show V c main_v79 _ = V c main_v79 _
  refine congrArg _ ?_
  funext a
  apply Fin.ext
  match a with
  | ⟨0, _⟩ => show win5_0.index t 0 * 2000 + 1 * r.val = 2000 * t.val + r.val; rw [e0]; omega
  | ⟨1, _⟩ => show win5_0.index t 1 * 32 + 1 * q.val = q.val; rw [e1]; omega

/-- Entry (r, 0) of window 1's block at point t is entry (2000·t + r, 0) of its array. -/
theorem iblk5_1_at (c : Dev nD) (t : Fin cfg5.N) (r : Fin 2000) :
    (iblk5 V c 1 t : Vec Ideal S2000x1 .f32) (ix2 r 0) = V c main_v32 (ix2 (row5 t r) 0) := by
  obtain ⟨-, -, e0, e1, -⟩ := idx_facts5 t
  unfold iblk5
  rw [View.read_apply]
  show V c main_v32 _ = V c main_v32 _
  refine congrArg _ ?_
  funext a
  apply Fin.ext
  match a with
  | ⟨0, _⟩ => show win5_1.index t 0 * 2000 + 1 * r.val = 2000 * t.val + r.val; rw [e0]; omega
  | ⟨1, _⟩ => show win5_1.index t 1 * 1 + 1 * 0 = 0; rw [e1]

/-- Window 2's block is its whole array at every point. -/
theorem iblk5_2_at (c : Dev nD) (t : Fin cfg5.N) (q : Fin 32) :
    (iblk5 V c 2 t : Vec Ideal S1x32 .f32) (ix2 0 q) = V c main_v41 (ix2 0 q) := by
  obtain ⟨-, -, -, -, e0, e1, -⟩ := idx_facts5 t
  unfold iblk5
  rw [View.read_apply]
  show V c main_v41 _ = V c main_v41 _
  refine congrArg _ ?_
  funext a
  apply Fin.ext
  match a with
  | ⟨0, _⟩ => show win5_2.index t 0 * 1 + 1 * 0 = 0; rw [e0]
  | ⟨1, _⟩ => show win5_2.index t 1 * 32 + 1 * q.val = q.val; rw [e1]; omega

/-- Entry (r, q) of the output's block at point t sits at (2000·t + r, q) of the output array. -/
theorem emb5_3_at (c : Dev nD) (t : Fin cfg5.N) (r : Fin 2000) (q : Fin 32) :
    (((cfg5.win 3).blk t).view.emb (ix2 r q) : S50000x32.Idx) = ix2 (row5 t r) q := by
  obtain ⟨-, -, -, -, -, -, e0, e1⟩ := idx_facts5 t
  funext a
  apply Fin.ext
  match a with
  | ⟨0, _⟩ => show win5_3.index t 0 * 2000 + 1 * r.val = 2000 * t.val + r.val; rw [e0]; omega
  | ⟨1, _⟩ => show win5_3.index t 1 * 32 + 1 * q.val = q.val; rw [e1]; omega

/-- What the output array ends holding, as one function of the three arrays the region finds. -/
def G5 (c : Dev nD) : S50000x32.Idx → EReal := fun i =>
  Gcn.biasLogSoftmax (fun i k => V c main_v79 (ix2 i k)) (fun i => V c main_v32 (ix2 i 0)) (fun k => V c main_v41 (ix2 0 k))
    (i 0 : Fin 50000) (i 1 : Fin 32)

/-- What point t writes back is block t of that function. -/
theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 (F := Ideal) V c).after 3 t) = _
  rw [after5_3]
  unfold out5_3
  rw [View.canon_unit_zero hz2]
  simp only [View.ld_unit_zero (S := S2000x32) hz2, View.ld_unit_zero (S := S2000x1) hz2, View.ld_unit_zero (S := S1x32) hz2]
  funext (j : S2000x32.Idx)
  obtain ⟨r, q, rfl⟩ : ∃ (r : Fin 2000) (q : Fin 32), j = ix2 r q := ⟨j 0, j 1, eq_ix2 j⟩
  show Gen.k5_pay1 (F := Ideal) (iblk5 V c 0 t) (iblk5 V c 1 t) (iblk5 V c 2 t) (ix2 r q)
    = G5 V c (((cfg5.win 3).blk t).view.emb (ix2 r q))
  refine (blk5_eq (iblk5 V c 0 t) (iblk5 V c 1 t) (iblk5 V c 2 t) (V c main_v79) (V c main_v32) (V c main_v41) (row5 t)
    (iblk5_0_at V c t) (iblk5_1_at V c t) (iblk5_2_at V c t) r q).trans ?_
  rw [emb5_3_at c t r q]
  rfl

/-- An index of the output array is in point t's block iff each coordinate is in the block's range on its axis. -/
theorem mem_blk5 (t : Fin cfg5.N) (i : S50000x32.Idx) :
    i ∈ ((cfg5.win 3).blk t).view.set ↔ ∀ a : Fin 2, win5_3.index t a * S2000x32.size a ≤ (i a).val ∧ (i a).val < win5_3.index t a * S2000x32.size a + S2000x32.size a := by
  show i ∈ ((View.whole main_v80).slice (win5_3.rect t)).set ↔ _
  rw [View.set_slice_whole, Rect.mem_set_unit]
  exact Iff.rfl

/-- Every block index (q, 0) with q < 25 is some grid point's. -/
theorem idx_onto5 : ∀ q0 : Fin 25, ∃ t : Fin cfg5.N, win5_3.index t = ![q0.val, 0] :=
  (by decide +kernel : ∀ q0 : Fin 25, ∃ t : Fin grid5.N, win5_3.index t = ![q0.val, 0])

/-- Row i of the output array is covered by the grid point i / 2000: the 25 blocks of 2000 rows tile the 50000 rows. -/
theorem cover5 (i : S50000x32.Idx) :
    ∃ t : Fin cfg5.N, (cfg5.win 3).flush t = true ∧ i ∈ ((cfg5.win 3).blk t).view.set := by
  have hi0 : (i 0).val < 50000 := (i 0).isLt
  have hi1 : (i 1).val < 32 := (i 1).isLt
  obtain ⟨t, ht⟩ := idx_onto5 ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 32 ≤ (i 1).val ∧ (i 1).val < win5_3.index t (1 : Fin 2) * 32 + 32; omega

/-- The output array after the region is that one function. -/
theorem final5 (c : Dev nD) : (dat5 (F := Ideal) V c).arrAt 3 cfg5.N = G5 V c :=
  (dat5 (F := Ideal) V c).arrAt_eq_of_cover 3 (G5 V c) (fun t _ => flushed5_eq V c t) cover5

/-- REGION 5: the output array at (i, k) is the log-softmax along row i of A[i,·]·d[i] + b, at k. -/
theorem value5 (c : Dev nD) (i : Fin 50000) (k : Fin 32) :
    (Gen.dat5 (F := Ideal) V c).arrAt 3 cfg5.N (ix2 i k)
      = Gcn.biasLogSoftmax (fun i k => V c main_v79 (ix2 i k)) (fun i => V c main_v32 (ix2 i 0)) (fun k => V c main_v41 (ix2 0 k)) i k := by
  rw [final5 V c]
  rfl

end Cert.KernelIdeal.RegionValue

end
-- ==== Proof.StretchRead.lean ====
/-
  The host stretch between two regions of the graph convolution, read at a coordinate.

  Between two regions the program takes the edges' source words, wraps the negative ones by adding the node
  count, reads for every edge the row of the scaled table its wrapped source word addresses (clamped into the
  table), widens the rows from bf16 to f32 (the identity on the extended reals), and adds every edge's row
  into the row of a zero table that the edge's target word names (an edge whose target word names no row is
  dropped). At table entry `(i, k)` this is the sum, over the edges whose target word is `i`, of entry `k` of
  the row their source word reads: the specification's `Gcn.aggregate`.
-/
import Idealize.ShloMosaic.PureOps.Ideal
import Idealize.ShloMosaic.Lib.ValueIdx
import Idealize.ShloMosaic.Lib.ValueLayout
import Idealize.ShloMosaic.PureOps.Ideal.Laws
import proofs.«123766_j46617575031251_2_alg».proof.Proof.Spec
import proofs.«123766_j46617575031251_2_alg».proof.Proof.LibRowIndexed

noncomputable section

namespace Cert.KernelIdeal.StretchValue

open Idealize.ShloMosaic Idealize.ShloMosaic.ValueIdx

/-- The stretch's operations composed, over abstract sizes: `N` nodes, `E` edges, rows of width `C`; `nW` is
    the node count as a word, `tbl` the scaled table, `sw` and `tw` the edges' source and target words. -/
def gatherScatter {N E C : Nat} (nW : BitVec 32)
    (gd : GatherDims ⟨2, ![N, C]⟩ ⟨2, ![E, 1]⟩ ⟨2, ![E, C]⟩) (sd : ScatterDims ⟨2, ![N, C]⟩ ⟨2, ![E, 1]⟩ ⟨2, ![E, C]⟩)
    (hz : (⟨0, ![]⟩ : Shape).BroadcastsInDim ⟨2, ![N, C]⟩ ![]) (hs : (⟨0, ![]⟩ : Shape).BroadcastsInDim ⟨1, ![E]⟩ ![])
    (hc : (⟨1, ![E]⟩ : Shape).BroadcastsInDim ⟨2, ![E, 1]⟩ ![0]) (hlt : FTy.bits .bf16 < FTy.bits .f32)
    (tbl : FVec Ideal ⟨2, ![N, C]⟩ .bf16) (sw tw : IVec ⟨1, ![E]⟩ 32) : FVec Ideal ⟨2, ![N, C]⟩ .f32 :=
  Host.scatterAdd (F := Ideal) sd
    (broadcastInDim ⟨2, ![N, C]⟩ ![] hz (constant (F := Ideal) ⟨0, ![]⟩ .f32 0x00000000#32))
    (broadcastInDim ⟨2, ![E, 1]⟩ ![0] hc tw)
    (extf .f32 (Host.gather gd tbl (broadcastInDim ⟨2, ![E, 1]⟩ ![0] hc
        (select (cmpi .slt sw (broadcastInDim ⟨1, ![E]⟩ ![] hs (constantI ⟨0, ![]⟩ 32 0#32)))
          (addi sw (broadcastInDim ⟨1, ![E]⟩ ![] hs (constantI ⟨0, ![]⟩ 32 nW))) sw))) hlt)

/-- The wrapped source word of edge `e`: the pointwise compare, add and select are the specification's `wrap`. -/
theorem wrapped_apply {E : Nat} (nW : BitVec 32) (hs : (⟨0, ![]⟩ : Shape).BroadcastsInDim ⟨1, ![E]⟩ ![])
    (sw : IVec ⟨1, ![E]⟩ 32) (e : Fin E) :
    select (cmpi .slt sw (broadcastInDim ⟨1, ![E]⟩ ![] hs (constantI ⟨0, ![]⟩ 32 0#32)))
        (addi sw (broadcastInDim ⟨1, ![E]⟩ ![] hs (constantI ⟨0, ![]⟩ 32 nW))) sw (ix1 e)
      = Gcn.wrap nW (sw (ix1 e)) := rfl

/-- The stretch at table entry `(i, k)` is the specification's aggregate of the table over the edge words. -/
theorem gatherScatter_apply {N E C : Nat} (hN : 0 < N) (nW : BitVec 32) (gwf) (swf)
    (hz : (⟨0, ![]⟩ : Shape).BroadcastsInDim ⟨2, ![N, C]⟩ ![]) (hs : (⟨0, ![]⟩ : Shape).BroadcastsInDim ⟨1, ![E]⟩ ![])
    (hc : (⟨1, ![E]⟩ : Shape).BroadcastsInDim ⟨2, ![E, 1]⟩ ![0]) (hlt : FTy.bits .bf16 < FTy.bits .f32)
    (tbl : FVec Ideal ⟨2, ![N, C]⟩ .bf16) (sw tw : IVec ⟨1, ![E]⟩ 32) (i : Fin N) (k : Fin C) :
    gatherScatter nW (RowIndexed.rowGather N E C gwf) (RowIndexed.rowScatter N E C swf) hz hs hc hlt tbl sw tw (ix2 i k)
      = Gcn.aggregate hN nW (fun i k => tbl (ix2 i k)) (fun e => sw (ix1 e)) (fun e => tw (ix1 e)) i k := by
  unfold gatherScatter Gcn.aggregate
  rw [RowIndexed.scatterAdd_ideal, RowIndexed.rowScatter_add_apply, RowIndexed.bcast_scalar_apply, constant_apply,
    Ideal.ofBits_zero_f32, zero_add]
  refine Finset.sum_congr (Finset.filter_congr fun e _ => by rw [RowIndexed.col_apply]) fun e _ => ?_
  rw [extf_apply, RowIndexed.rowGather_apply hN, RowIndexed.col_apply, wrapped_apply]
  rfl

end Cert.KernelIdeal.StretchValue
-- ==== Proof.Stretch1.lean ====
/-
  The host stretch after region 0: the edges' source words are wrapped, each edge reads the row of the scaled
  table its source word addresses, the rows are widened to f32, and every edge's row is added into the row of a
  zero table its target word names. Read at an entry, the stretch's result is the specification's aggregate of
  the table the stretch finds; every buffer the stretch does not write keeps its contents.
-/
import proofs.«123766_j46617575031251_2_alg».proof.Proof.Gen.KernelIdeal.Launch
import proofs.«123766_j46617575031251_2_alg».proof.Proof.StretchRead

noncomputable section

namespace Cert.KernelIdeal.StretchValue

open Idealize.ShloMosaic Idealize.ShloMosaic.ValueIdx
open Cert.KernelIdeal

/-- The stretch's result buffer holds the composed operations applied to the table and the two word vectors. -/
theorem term1 (W : Valuation τ sig (Elt Ideal)) :
    (StableHlo.after (Gen.hostOps1 (F := Ideal)) W (Proc.devRef .tc main_v53) : FVec Ideal S50000x128 .f32)
      = gatherScatter (N := 50000) (E := 850000) (C := 128) 50000#32
          gather_S50000x128_S850000x1_S850000x128_1_0_n_n_0_1_1128 scatter_S50000x128_S850000x1_S850000x128_1_0_0_1
          Gen.bcast_S_S50000x128 Gen.bcast_S_S850000 Gen.bcast_S850000_S850000x1_0 Gen.bitsLt_bf16_f32
          (W (Proc.devRef .tc main_v42)) (W (Proc.devRef .tc main_v14)) (W (Proc.devRef .tc main_v21)) := by
  simp only [Gen.hostOps1]
  after_results_simp
  rfl

/-- Entry `(i, k)` of the stretch's result: the sum, over the edges whose target word is `i`, of entry `k` of the
    table row their wrapped source word reads. -/
theorem agg1 (W : Valuation τ sig (Elt Ideal)) (i : Fin 50000) (k : Fin 128) :
    StableHlo.after (Gen.hostOps1 (F := Ideal)) W (Proc.devRef .tc main_v53) (ix2 i k)
      = Gcn.aggregate (N := 50000) (E := 850000) (by decide) 50000#32 (fun i k => W (Proc.devRef .tc main_v42) (ix2 i k))
          (fun e => W (Proc.devRef .tc main_v14) (ix1 e)) (fun e => W (Proc.devRef .tc main_v21) (ix1 e)) i k := by
  rw [term1 W]
  exact gatherScatter_apply (N := 50000) (E := 850000) (C := 128) (by decide) 50000#32 _ _ _ _ _ _ _ _ _ i k

/-- A buffer none of the stretch's operations writes keeps its contents: each operation's one result buffer is
    another reference. -/
local macro "keep_stretch" : tactic =>
  `(tactic| (refine StableHlo.after_of_forall_not_mem _ _ (List.forall_iff_forall_mem.mp ?_)
             simp only [Gen.hostOps1, List.Forall, StableHlo.nullary_writes, StableHlo.unary_writes, StableHlo.binary_writes,
               StableHlo.ternary_writes, Finset.mem_singleton]
             repeat' apply And.intro
             all_goals exact StableHlo.devRef_ne_of_ne (by decide)))

theorem keep1_main_v14 (W : Valuation τ sig (Elt Ideal)) :
    StableHlo.after (Gen.hostOps1 (F := Ideal)) W (Proc.devRef .tc main_v14) = W (Proc.devRef .tc main_v14) := by
  keep_stretch
theorem keep1_main_v21 (W : Valuation τ sig (Elt Ideal)) :
    StableHlo.after (Gen.hostOps1 (F := Ideal)) W (Proc.devRef .tc main_v21) = W (Proc.devRef .tc main_v21) := by
  keep_stretch
theorem keep1_main_v32 (W : Valuation τ sig (Elt Ideal)) :
    StableHlo.after (Gen.hostOps1 (F := Ideal)) W (Proc.devRef .tc main_v32) = W (Proc.devRef .tc main_v32) := by
  keep_stretch
theorem keep1_main_v35 (W : Valuation τ sig (Elt Ideal)) :
    StableHlo.after (Gen.hostOps1 (F := Ideal)) W (Proc.devRef .tc main_v35) = W (Proc.devRef .tc main_v35) := by
  keep_stretch
theorem keep1_main_v37 (W : Valuation τ sig (Elt Ideal)) :
    StableHlo.after (Gen.hostOps1 (F := Ideal)) W (Proc.devRef .tc main_v37) = W (Proc.devRef .tc main_v37) := by
  keep_stretch
theorem keep1_main_v39 (W : Valuation τ sig (Elt Ideal)) :
    StableHlo.after (Gen.hostOps1 (F := Ideal)) W (Proc.devRef .tc main_v39) = W (Proc.devRef .tc main_v39) := by
  keep_stretch
theorem keep1_main_v40 (W : Valuation τ sig (Elt Ideal)) :
    StableHlo.after (Gen.hostOps1 (F := Ideal)) W (Proc.devRef .tc main_v40) = W (Proc.devRef .tc main_v40) := by
  keep_stretch
theorem keep1_main_v41 (W : Valuation τ sig (Elt Ideal)) :
    StableHlo.after (Gen.hostOps1 (F := Ideal)) W (Proc.devRef .tc main_v41) = W (Proc.devRef .tc main_v41) := by
  keep_stretch

end Cert.KernelIdeal.StretchValue
-- ==== Proof.Stretch3.lean ====
/-
  The host stretch after region 2: the edges' source words are wrapped, each edge reads the row of the scaled
  table its source word addresses, the rows are widened to f32, and every edge's row is added into the row of a
  zero table its target word names. Read at an entry, the stretch's result is the specification's aggregate of
  the table the stretch finds; every buffer the stretch does not write keeps its contents.
-/
import proofs.«123766_j46617575031251_2_alg».proof.Proof.Gen.KernelIdeal.Launch
import proofs.«123766_j46617575031251_2_alg».proof.Proof.StretchRead

noncomputable section

namespace Cert.KernelIdeal.StretchValue

open Idealize.ShloMosaic Idealize.ShloMosaic.ValueIdx
open Cert.KernelIdeal

/-- The stretch's result buffer holds the composed operations applied to the table and the two word vectors. -/
theorem term3 (W : Valuation τ sig (Elt Ideal)) :
    (StableHlo.after (Gen.hostOps3 (F := Ideal)) W (Proc.devRef .tc main_v66) : FVec Ideal S50000x128 .f32)
      = gatherScatter (N := 50000) (E := 850000) (C := 128) 50000#32
          gather_S50000x128_S850000x1_S850000x128_1_0_n_n_0_1_1128 scatter_S50000x128_S850000x1_S850000x128_1_0_0_1
          Gen.bcast_S_S50000x128 Gen.bcast_S_S850000 Gen.bcast_S850000_S850000x1_0 Gen.bitsLt_bf16_f32
          (W (Proc.devRef .tc main_v55)) (W (Proc.devRef .tc main_v14)) (W (Proc.devRef .tc main_v21)) := by
  simp only [Gen.hostOps3]
  after_results_simp
  rfl

/-- Entry `(i, k)` of the stretch's result: the sum, over the edges whose target word is `i`, of entry `k` of the
    table row their wrapped source word reads. -/
theorem agg3 (W : Valuation τ sig (Elt Ideal)) (i : Fin 50000) (k : Fin 128) :
    StableHlo.after (Gen.hostOps3 (F := Ideal)) W (Proc.devRef .tc main_v66) (ix2 i k)
      = Gcn.aggregate (N := 50000) (E := 850000) (by decide) 50000#32 (fun i k => W (Proc.devRef .tc main_v55) (ix2 i k))
          (fun e => W (Proc.devRef .tc main_v14) (ix1 e)) (fun e => W (Proc.devRef .tc main_v21) (ix1 e)) i k := by
  rw [term3 W]
  exact gatherScatter_apply (N := 50000) (E := 850000) (C := 128) (by decide) 50000#32 _ _ _ _ _ _ _ _ _ i k

/-- A buffer none of the stretch's operations writes keeps its contents: each operation's one result buffer is
    another reference. -/
local macro "keep_stretch" : tactic =>
  `(tactic| (refine StableHlo.after_of_forall_not_mem _ _ (List.forall_iff_forall_mem.mp ?_)
             simp only [Gen.hostOps3, List.Forall, StableHlo.nullary_writes, StableHlo.unary_writes, StableHlo.binary_writes,
               StableHlo.ternary_writes, Finset.mem_singleton]
             repeat' apply And.intro
             all_goals exact StableHlo.devRef_ne_of_ne (by decide)))

theorem keep3_main_v14 (W : Valuation τ sig (Elt Ideal)) :
    StableHlo.after (Gen.hostOps3 (F := Ideal)) W (Proc.devRef .tc main_v14) = W (Proc.devRef .tc main_v14) := by
  keep_stretch
theorem keep3_main_v21 (W : Valuation τ sig (Elt Ideal)) :
    StableHlo.after (Gen.hostOps3 (F := Ideal)) W (Proc.devRef .tc main_v21) = W (Proc.devRef .tc main_v21) := by
  keep_stretch
theorem keep3_main_v32 (W : Valuation τ sig (Elt Ideal)) :
    StableHlo.after (Gen.hostOps3 (F := Ideal)) W (Proc.devRef .tc main_v32) = W (Proc.devRef .tc main_v32) := by
  keep_stretch
theorem keep3_main_v35 (W : Valuation τ sig (Elt Ideal)) :
    StableHlo.after (Gen.hostOps3 (F := Ideal)) W (Proc.devRef .tc main_v35) = W (Proc.devRef .tc main_v35) := by
  keep_stretch
theorem keep3_main_v37 (W : Valuation τ sig (Elt Ideal)) :
    StableHlo.after (Gen.hostOps3 (F := Ideal)) W (Proc.devRef .tc main_v37) = W (Proc.devRef .tc main_v37) := by
  keep_stretch
theorem keep3_main_v39 (W : Valuation τ sig (Elt Ideal)) :
    StableHlo.after (Gen.hostOps3 (F := Ideal)) W (Proc.devRef .tc main_v39) = W (Proc.devRef .tc main_v39) := by
  keep_stretch
theorem keep3_main_v40 (W : Valuation τ sig (Elt Ideal)) :
    StableHlo.after (Gen.hostOps3 (F := Ideal)) W (Proc.devRef .tc main_v40) = W (Proc.devRef .tc main_v40) := by
  keep_stretch
theorem keep3_main_v41 (W : Valuation τ sig (Elt Ideal)) :
    StableHlo.after (Gen.hostOps3 (F := Ideal)) W (Proc.devRef .tc main_v41) = W (Proc.devRef .tc main_v41) := by
  keep_stretch

end Cert.KernelIdeal.StretchValue
-- ==== Proof.Stretch5.lean ====
/-
  The host stretch after region 4: the edges' source words are wrapped, each edge reads the row of the scaled
  table its source word addresses, the rows are widened to f32, and every edge's row is added into the row of a
  zero table its target word names. Read at an entry, the stretch's result is the specification's aggregate of
  the table the stretch finds; every buffer the stretch does not write keeps its contents.
-/
import proofs.«123766_j46617575031251_2_alg».proof.Proof.Gen.KernelIdeal.Launch
import proofs.«123766_j46617575031251_2_alg».proof.Proof.StretchRead

noncomputable section

namespace Cert.KernelIdeal.StretchValue

open Idealize.ShloMosaic Idealize.ShloMosaic.ValueIdx
open Cert.KernelIdeal

/-- The stretch's result buffer holds the composed operations applied to the table and the two word vectors. -/
theorem term5 (W : Valuation τ sig (Elt Ideal)) :
    (StableHlo.after (Gen.hostOps5 (F := Ideal)) W (Proc.devRef .tc main_v79) : FVec Ideal S50000x32 .f32)
      = gatherScatter (N := 50000) (E := 850000) (C := 32) 50000#32
          gather_S50000x32_S850000x1_S850000x32_1_0_n_n_0_1_132 scatter_S50000x32_S850000x1_S850000x32_1_0_0_1
          Gen.bcast_S_S50000x32 Gen.bcast_S_S850000 Gen.bcast_S850000_S850000x1_0 Gen.bitsLt_bf16_f32
          (W (Proc.devRef .tc main_v68)) (W (Proc.devRef .tc main_v14)) (W (Proc.devRef .tc main_v21)) := by
  simp only [Gen.hostOps5]
  after_results_simp
  rfl

/-- Entry `(i, k)` of the stretch's result: the sum, over the edges whose target word is `i`, of entry `k` of the
    table row their wrapped source word reads. -/
theorem agg5 (W : Valuation τ sig (Elt Ideal)) (i : Fin 50000) (k : Fin 32) :
    StableHlo.after (Gen.hostOps5 (F := Ideal)) W (Proc.devRef .tc main_v79) (ix2 i k)
      = Gcn.aggregate (N := 50000) (E := 850000) (by decide) 50000#32 (fun i k => W (Proc.devRef .tc main_v68) (ix2 i k))
          (fun e => W (Proc.devRef .tc main_v14) (ix1 e)) (fun e => W (Proc.devRef .tc main_v21) (ix1 e)) i k := by
  rw [term5 W]
  exact gatherScatter_apply (N := 50000) (E := 850000) (C := 32) (by decide) 50000#32 _ _ _ _ _ _ _ _ _ i k

/-- A buffer none of the stretch's operations writes keeps its contents: each operation's one result buffer is
    another reference. -/
local macro "keep_stretch" : tactic =>
  `(tactic| (refine StableHlo.after_of_forall_not_mem _ _ (List.forall_iff_forall_mem.mp ?_)
             simp only [Gen.hostOps5, List.Forall, StableHlo.nullary_writes, StableHlo.unary_writes, StableHlo.binary_writes,
               StableHlo.ternary_writes, Finset.mem_singleton]
             repeat' apply And.intro
             all_goals exact StableHlo.devRef_ne_of_ne (by decide)))

theorem keep5_main_v14 (W : Valuation τ sig (Elt Ideal)) :
    StableHlo.after (Gen.hostOps5 (F := Ideal)) W (Proc.devRef .tc main_v14) = W (Proc.devRef .tc main_v14) := by
  keep_stretch
theorem keep5_main_v21 (W : Valuation τ sig (Elt Ideal)) :
    StableHlo.after (Gen.hostOps5 (F := Ideal)) W (Proc.devRef .tc main_v21) = W (Proc.devRef .tc main_v21) := by
  keep_stretch
theorem keep5_main_v32 (W : Valuation τ sig (Elt Ideal)) :
    StableHlo.after (Gen.hostOps5 (F := Ideal)) W (Proc.devRef .tc main_v32) = W (Proc.devRef .tc main_v32) := by
  keep_stretch
theorem keep5_main_v35 (W : Valuation τ sig (Elt Ideal)) :
    StableHlo.after (Gen.hostOps5 (F := Ideal)) W (Proc.devRef .tc main_v35) = W (Proc.devRef .tc main_v35) := by
  keep_stretch
theorem keep5_main_v37 (W : Valuation τ sig (Elt Ideal)) :
    StableHlo.after (Gen.hostOps5 (F := Ideal)) W (Proc.devRef .tc main_v37) = W (Proc.devRef .tc main_v37) := by
  keep_stretch
theorem keep5_main_v39 (W : Valuation τ sig (Elt Ideal)) :
    StableHlo.after (Gen.hostOps5 (F := Ideal)) W (Proc.devRef .tc main_v39) = W (Proc.devRef .tc main_v39) := by
  keep_stretch
theorem keep5_main_v40 (W : Valuation τ sig (Elt Ideal)) :
    StableHlo.after (Gen.hostOps5 (F := Ideal)) W (Proc.devRef .tc main_v40) = W (Proc.devRef .tc main_v40) := by
  keep_stretch
theorem keep5_main_v41 (W : Valuation τ sig (Elt Ideal)) :
    StableHlo.after (Gen.hostOps5 (F := Ideal)) W (Proc.devRef .tc main_v41) = W (Proc.devRef .tc main_v41) := by
  keep_stretch

end Cert.KernelIdeal.StretchValue
-- ==== Proof.KernelChain.lean ====
/-
  The idealized kernel's result as one expression of what the first region finds.

  Walking the run backwards from the result: the last region writes log_softmax of (aggregate · dinv + bias); its aggregate
  is the scatter-add, by the sorted target words, of the rows the sorted source words read from the third scaled product;
  that product's left factor is the second hidden layer, and so on down to the first scaled product of the input
  features. The word vectors, the dinv column, the padded weights and biases are written before the first region and
  never again, so every later reader finds them as the first region did.
-/
import proofs.«123766_j46617575031251_2_alg».proof.Proof.KernelKept
import proofs.«123766_j46617575031251_2_alg».proof.Proof.Spec
import Idealize.ShloMosaic.Lib.ValueIdx
import proofs.«123766_j46617575031251_2_alg».proof.Proof.Region0
import proofs.«123766_j46617575031251_2_alg».proof.Proof.Region1
import proofs.«123766_j46617575031251_2_alg».proof.Proof.Region2
import proofs.«123766_j46617575031251_2_alg».proof.Proof.Region3
import proofs.«123766_j46617575031251_2_alg».proof.Proof.Region4
import proofs.«123766_j46617575031251_2_alg».proof.Proof.Region5
import proofs.«123766_j46617575031251_2_alg».proof.Proof.Stretch1
import proofs.«123766_j46617575031251_2_alg».proof.Proof.Stretch3
import proofs.«123766_j46617575031251_2_alg».proof.Proof.Stretch5

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The dinv column as the first region finds it. -/
def dvec : Fin 50000 → EReal := fun i => W17 m ρ c (Proc.devRef .tc main_v32) (ix2 i 0)
/-- The sorted source words. -/
def sW : Fin 850000 → BitVec 32 := fun e => W17 m ρ c (Proc.devRef .tc main_v14) (ix1 e)
/-- The sorted target words. -/
def tW : Fin 850000 → BitVec 32 := fun e => W17 m ρ c (Proc.devRef .tc main_v21) (ix1 e)

/-- Layer 1's scaled product, its aggregate and the hidden layer; then layers 2 and 3. -/
def xs1 : Fin 50000 → Fin 128 → EReal :=
  Gcn.scaledProd (fun i k => W17 m ρ c (Proc.devRef .tc main_arg0) (ix2 i k)) (fun k q => W17 m ρ c (Proc.devRef .tc main_v33) (ix2 k q)) (dvec m ρ c)
def ag1 : Fin 50000 → Fin 128 → EReal := Gcn.aggregate (N := 50000) (E := 850000) (by decide) 50000#32 (xs1 m ρ c) (sW m ρ c) (tW m ρ c)
def hd1 : Fin 50000 → Fin 128 → EReal := Gcn.biasRelu (ag1 m ρ c) (dvec m ρ c) (fun q => W17 m ρ c (Proc.devRef .tc main_v35) (ix2 0 q))
def xs2 : Fin 50000 → Fin 128 → EReal := Gcn.scaledProd (hd1 m ρ c) (fun k q => W17 m ρ c (Proc.devRef .tc main_v37) (ix2 k q)) (dvec m ρ c)
def ag2 : Fin 50000 → Fin 128 → EReal := Gcn.aggregate (N := 50000) (E := 850000) (by decide) 50000#32 (xs2 m ρ c) (sW m ρ c) (tW m ρ c)
def hd2 : Fin 50000 → Fin 128 → EReal := Gcn.biasRelu (ag2 m ρ c) (dvec m ρ c) (fun q => W17 m ρ c (Proc.devRef .tc main_v39) (ix2 0 q))
def xs3 : Fin 50000 → Fin 32 → EReal := Gcn.scaledProd (hd2 m ρ c) (fun k q => W17 m ρ c (Proc.devRef .tc main_v40) (ix2 k q)) (dvec m ρ c)
def ag3 : Fin 50000 → Fin 32 → EReal := Gcn.aggregate (N := 50000) (E := 850000) (by decide) 50000#32 (xs3 m ρ c) (sW m ρ c) (tW m ρ c)
def outK : Fin 50000 → Fin 32 → EReal := Gcn.biasLogSoftmax (ag3 m ρ c) (dvec m ρ c) (fun q => W17 m ρ c (Proc.devRef .tc main_v41) (ix2 0 q))

open Cert.KernelIdeal.Kept Cert.KernelIdeal.RegionValue Cert.KernelIdeal.StretchValue

/-! ## The kept buffers at every later boundary -/

theorem v14_18 : W18 m ρ c (Proc.devRef .tc main_v14) = W17 m ρ c (Proc.devRef .tc main_v14) := (reg0_main_v14 m ρ c)
theorem v14_19 : W19 m ρ c (Proc.devRef .tc main_v14) = W17 m ρ c (Proc.devRef .tc main_v14) := (keep1_main_v14 (W18 m ρ c)).trans (v14_18 m ρ c)
theorem v14_20 : W20 m ρ c (Proc.devRef .tc main_v14) = W17 m ρ c (Proc.devRef .tc main_v14) := (reg1_main_v14 m ρ c).trans (v14_19 m ρ c)
theorem v14_21 : W21 m ρ c (Proc.devRef .tc main_v14) = W17 m ρ c (Proc.devRef .tc main_v14) := (reg2_main_v14 m ρ c).trans (v14_20 m ρ c)
theorem v14_22 : W22 m ρ c (Proc.devRef .tc main_v14) = W17 m ρ c (Proc.devRef .tc main_v14) := (keep3_main_v14 (W21 m ρ c)).trans (v14_21 m ρ c)
theorem v14_23 : W23 m ρ c (Proc.devRef .tc main_v14) = W17 m ρ c (Proc.devRef .tc main_v14) := (reg3_main_v14 m ρ c).trans (v14_22 m ρ c)
theorem v14_24 : W24 m ρ c (Proc.devRef .tc main_v14) = W17 m ρ c (Proc.devRef .tc main_v14) := (reg4_main_v14 m ρ c).trans (v14_23 m ρ c)
theorem v21_18 : W18 m ρ c (Proc.devRef .tc main_v21) = W17 m ρ c (Proc.devRef .tc main_v21) := (reg0_main_v21 m ρ c)
theorem v21_19 : W19 m ρ c (Proc.devRef .tc main_v21) = W17 m ρ c (Proc.devRef .tc main_v21) := (keep1_main_v21 (W18 m ρ c)).trans (v21_18 m ρ c)
theorem v21_20 : W20 m ρ c (Proc.devRef .tc main_v21) = W17 m ρ c (Proc.devRef .tc main_v21) := (reg1_main_v21 m ρ c).trans (v21_19 m ρ c)
theorem v21_21 : W21 m ρ c (Proc.devRef .tc main_v21) = W17 m ρ c (Proc.devRef .tc main_v21) := (reg2_main_v21 m ρ c).trans (v21_20 m ρ c)
theorem v21_22 : W22 m ρ c (Proc.devRef .tc main_v21) = W17 m ρ c (Proc.devRef .tc main_v21) := (keep3_main_v21 (W21 m ρ c)).trans (v21_21 m ρ c)
theorem v21_23 : W23 m ρ c (Proc.devRef .tc main_v21) = W17 m ρ c (Proc.devRef .tc main_v21) := (reg3_main_v21 m ρ c).trans (v21_22 m ρ c)
theorem v21_24 : W24 m ρ c (Proc.devRef .tc main_v21) = W17 m ρ c (Proc.devRef .tc main_v21) := (reg4_main_v21 m ρ c).trans (v21_23 m ρ c)
theorem v32_18 : W18 m ρ c (Proc.devRef .tc main_v32) = W17 m ρ c (Proc.devRef .tc main_v32) := (reg0_main_v32 m ρ c)
theorem v32_19 : W19 m ρ c (Proc.devRef .tc main_v32) = W17 m ρ c (Proc.devRef .tc main_v32) := (keep1_main_v32 (W18 m ρ c)).trans (v32_18 m ρ c)
theorem v32_20 : W20 m ρ c (Proc.devRef .tc main_v32) = W17 m ρ c (Proc.devRef .tc main_v32) := (reg1_main_v32 m ρ c).trans (v32_19 m ρ c)
theorem v32_21 : W21 m ρ c (Proc.devRef .tc main_v32) = W17 m ρ c (Proc.devRef .tc main_v32) := (reg2_main_v32 m ρ c).trans (v32_20 m ρ c)
theorem v32_22 : W22 m ρ c (Proc.devRef .tc main_v32) = W17 m ρ c (Proc.devRef .tc main_v32) := (keep3_main_v32 (W21 m ρ c)).trans (v32_21 m ρ c)
theorem v32_23 : W23 m ρ c (Proc.devRef .tc main_v32) = W17 m ρ c (Proc.devRef .tc main_v32) := (reg3_main_v32 m ρ c).trans (v32_22 m ρ c)
theorem v32_24 : W24 m ρ c (Proc.devRef .tc main_v32) = W17 m ρ c (Proc.devRef .tc main_v32) := (reg4_main_v32 m ρ c).trans (v32_23 m ρ c)
theorem v32_25 : W25 m ρ c (Proc.devRef .tc main_v32) = W17 m ρ c (Proc.devRef .tc main_v32) := (keep5_main_v32 (W24 m ρ c)).trans (v32_24 m ρ c)
theorem v35_18 : W18 m ρ c (Proc.devRef .tc main_v35) = W17 m ρ c (Proc.devRef .tc main_v35) := (reg0_main_v35 m ρ c)
theorem v35_19 : W19 m ρ c (Proc.devRef .tc main_v35) = W17 m ρ c (Proc.devRef .tc main_v35) := (keep1_main_v35 (W18 m ρ c)).trans (v35_18 m ρ c)
theorem v37_18 : W18 m ρ c (Proc.devRef .tc main_v37) = W17 m ρ c (Proc.devRef .tc main_v37) := (reg0_main_v37 m ρ c)
theorem v37_19 : W19 m ρ c (Proc.devRef .tc main_v37) = W17 m ρ c (Proc.devRef .tc main_v37) := (keep1_main_v37 (W18 m ρ c)).trans (v37_18 m ρ c)
theorem v37_20 : W20 m ρ c (Proc.devRef .tc main_v37) = W17 m ρ c (Proc.devRef .tc main_v37) := (reg1_main_v37 m ρ c).trans (v37_19 m ρ c)
theorem v39_18 : W18 m ρ c (Proc.devRef .tc main_v39) = W17 m ρ c (Proc.devRef .tc main_v39) := (reg0_main_v39 m ρ c)
theorem v39_19 : W19 m ρ c (Proc.devRef .tc main_v39) = W17 m ρ c (Proc.devRef .tc main_v39) := (keep1_main_v39 (W18 m ρ c)).trans (v39_18 m ρ c)
theorem v39_20 : W20 m ρ c (Proc.devRef .tc main_v39) = W17 m ρ c (Proc.devRef .tc main_v39) := (reg1_main_v39 m ρ c).trans (v39_19 m ρ c)
theorem v39_21 : W21 m ρ c (Proc.devRef .tc main_v39) = W17 m ρ c (Proc.devRef .tc main_v39) := (reg2_main_v39 m ρ c).trans (v39_20 m ρ c)
theorem v39_22 : W22 m ρ c (Proc.devRef .tc main_v39) = W17 m ρ c (Proc.devRef .tc main_v39) := (keep3_main_v39 (W21 m ρ c)).trans (v39_21 m ρ c)
theorem v40_18 : W18 m ρ c (Proc.devRef .tc main_v40) = W17 m ρ c (Proc.devRef .tc main_v40) := (reg0_main_v40 m ρ c)
theorem v40_19 : W19 m ρ c (Proc.devRef .tc main_v40) = W17 m ρ c (Proc.devRef .tc main_v40) := (keep1_main_v40 (W18 m ρ c)).trans (v40_18 m ρ c)
theorem v40_20 : W20 m ρ c (Proc.devRef .tc main_v40) = W17 m ρ c (Proc.devRef .tc main_v40) := (reg1_main_v40 m ρ c).trans (v40_19 m ρ c)
theorem v40_21 : W21 m ρ c (Proc.devRef .tc main_v40) = W17 m ρ c (Proc.devRef .tc main_v40) := (reg2_main_v40 m ρ c).trans (v40_20 m ρ c)
theorem v40_22 : W22 m ρ c (Proc.devRef .tc main_v40) = W17 m ρ c (Proc.devRef .tc main_v40) := (keep3_main_v40 (W21 m ρ c)).trans (v40_21 m ρ c)
theorem v40_23 : W23 m ρ c (Proc.devRef .tc main_v40) = W17 m ρ c (Proc.devRef .tc main_v40) := (reg3_main_v40 m ρ c).trans (v40_22 m ρ c)
theorem v41_18 : W18 m ρ c (Proc.devRef .tc main_v41) = W17 m ρ c (Proc.devRef .tc main_v41) := (reg0_main_v41 m ρ c)
theorem v41_19 : W19 m ρ c (Proc.devRef .tc main_v41) = W17 m ρ c (Proc.devRef .tc main_v41) := (keep1_main_v41 (W18 m ρ c)).trans (v41_18 m ρ c)
theorem v41_20 : W20 m ρ c (Proc.devRef .tc main_v41) = W17 m ρ c (Proc.devRef .tc main_v41) := (reg1_main_v41 m ρ c).trans (v41_19 m ρ c)
theorem v41_21 : W21 m ρ c (Proc.devRef .tc main_v41) = W17 m ρ c (Proc.devRef .tc main_v41) := (reg2_main_v41 m ρ c).trans (v41_20 m ρ c)
theorem v41_22 : W22 m ρ c (Proc.devRef .tc main_v41) = W17 m ρ c (Proc.devRef .tc main_v41) := (keep3_main_v41 (W21 m ρ c)).trans (v41_21 m ρ c)
theorem v41_23 : W23 m ρ c (Proc.devRef .tc main_v41) = W17 m ρ c (Proc.devRef .tc main_v41) := (reg3_main_v41 m ρ c).trans (v41_22 m ρ c)
theorem v41_24 : W24 m ρ c (Proc.devRef .tc main_v41) = W17 m ρ c (Proc.devRef .tc main_v41) := (reg4_main_v41 m ρ c).trans (v41_23 m ρ c)
theorem v41_25 : W25 m ρ c (Proc.devRef .tc main_v41) = W17 m ρ c (Proc.devRef .tc main_v41) := (keep5_main_v41 (W24 m ρ c)).trans (v41_24 m ρ c)

/-! ## The values, region by region and stretch by stretch -/

theorem a18 (i : Fin 50000) (k : Fin 128) : W18 m ρ c (Proc.devRef .tc main_v42) (ix2 i k) = xs1 m ρ c i k :=
  (congrFun (reg0_out m ρ c) (ix2 i k)).trans (value0 (V17 m ρ) c i k)

theorem a19 (i : Fin 50000) (k : Fin 128) : W19 m ρ c (Proc.devRef .tc main_v53) (ix2 i k) = ag1 m ρ c i k := by
  refine (agg1 (W18 m ρ c) i k).trans ?_
  rw [v14_18, v21_18, show (fun i k => W18 m ρ c (Proc.devRef .tc main_v42) (ix2 i k)) = xs1 m ρ c from funext fun i => funext fun k => a18 m ρ c i k]
  rfl

theorem a20 (i : Fin 50000) (k : Fin 128) : W20 m ρ c (Proc.devRef .tc main_v54) (ix2 i k) = hd1 m ρ c i k := by
  refine (congrFun (reg1_out m ρ c) (ix2 i k)).trans ((value1 (V19 m ρ) c i k).trans ?_)
  show Gcn.biasRelu (fun i k => W19 m ρ c (Proc.devRef .tc main_v53) (ix2 i k)) (fun i => W19 m ρ c (Proc.devRef .tc main_v32) (ix2 i 0)) (fun k => W19 m ρ c (Proc.devRef .tc main_v35) (ix2 0 k)) i k = _
  rw [v32_19, v35_19, show (fun i k => W19 m ρ c (Proc.devRef .tc main_v53) (ix2 i k)) = ag1 m ρ c from funext fun i => funext fun k => a19 m ρ c i k]
  rfl

theorem a21 (i : Fin 50000) (k : Fin 128) : W21 m ρ c (Proc.devRef .tc main_v55) (ix2 i k) = xs2 m ρ c i k := by
  refine (congrFun (reg2_out m ρ c) (ix2 i k)).trans ((value2 (V20 m ρ) c i k).trans ?_)
  show Gcn.scaledProd (fun i k => W20 m ρ c (Proc.devRef .tc main_v54) (ix2 i k)) (fun k c' => W20 m ρ c (Proc.devRef .tc main_v37) (ix2 k c')) (fun i => W20 m ρ c (Proc.devRef .tc main_v32) (ix2 i 0)) i k = _
  rw [v32_20, v37_20, show (fun i k => W20 m ρ c (Proc.devRef .tc main_v54) (ix2 i k)) = hd1 m ρ c from funext fun i => funext fun k => a20 m ρ c i k]
  rfl

theorem a22 (i : Fin 50000) (k : Fin 128) : W22 m ρ c (Proc.devRef .tc main_v66) (ix2 i k) = ag2 m ρ c i k := by
  refine (agg3 (W21 m ρ c) i k).trans ?_
  rw [v14_21, v21_21, show (fun i k => W21 m ρ c (Proc.devRef .tc main_v55) (ix2 i k)) = xs2 m ρ c from funext fun i => funext fun k => a21 m ρ c i k]
  rfl

theorem a23 (i : Fin 50000) (k : Fin 128) : W23 m ρ c (Proc.devRef .tc main_v67) (ix2 i k) = hd2 m ρ c i k := by
  refine (congrFun (reg3_out m ρ c) (ix2 i k)).trans ((value3 (V22 m ρ) c i k).trans ?_)
  show Gcn.biasRelu (fun i k => W22 m ρ c (Proc.devRef .tc main_v66) (ix2 i k)) (fun i => W22 m ρ c (Proc.devRef .tc main_v32) (ix2 i 0)) (fun k => W22 m ρ c (Proc.devRef .tc main_v39) (ix2 0 k)) i k = _
  rw [v32_22, v39_22, show (fun i k => W22 m ρ c (Proc.devRef .tc main_v66) (ix2 i k)) = ag2 m ρ c from funext fun i => funext fun k => a22 m ρ c i k]
  rfl

theorem a24 (i : Fin 50000) (k : Fin 32) : W24 m ρ c (Proc.devRef .tc main_v68) (ix2 i k) = xs3 m ρ c i k := by
  refine (congrFun (reg4_out m ρ c) (ix2 i k)).trans ((value4 (V23 m ρ) c i k).trans ?_)
  show Gcn.scaledProd (fun i k => W23 m ρ c (Proc.devRef .tc main_v67) (ix2 i k)) (fun k c' => W23 m ρ c (Proc.devRef .tc main_v40) (ix2 k c')) (fun i => W23 m ρ c (Proc.devRef .tc main_v32) (ix2 i 0)) i k = _
  rw [v32_23, v40_23, show (fun i k => W23 m ρ c (Proc.devRef .tc main_v67) (ix2 i k)) = hd2 m ρ c from funext fun i => funext fun k => a23 m ρ c i k]
  rfl

theorem a25 (i : Fin 50000) (k : Fin 32) : W25 m ρ c (Proc.devRef .tc main_v79) (ix2 i k) = ag3 m ρ c i k := by
  refine (agg5 (W24 m ρ c) i k).trans ?_
  rw [v14_24, v21_24, show (fun i k => W24 m ρ c (Proc.devRef .tc main_v68) (ix2 i k)) = xs3 m ρ c from funext fun i => funext fun k => a24 m ρ c i k]
  rfl

/-- The result array after the run, entry by entry. -/
theorem a26 (i : Fin 50000) (k : Fin 32) : W26 m ρ c (Proc.devRef .tc main_v80) (ix2 i k) = outK m ρ c i k := by
  refine (congrFun (reg5_out m ρ c) (ix2 i k)).trans ((value5 (V25 m ρ) c i k).trans ?_)
  show Gcn.biasLogSoftmax (fun i k => W25 m ρ c (Proc.devRef .tc main_v79) (ix2 i k)) (fun i => W25 m ρ c (Proc.devRef .tc main_v32) (ix2 i 0)) (fun k => W25 m ρ c (Proc.devRef .tc main_v41) (ix2 0 k)) i k = _
  rw [v32_25, v41_25, show (fun i k => W25 m ρ c (Proc.devRef .tc main_v79) (ix2 i k)) = ag3 m ρ c from funext fun i => funext fun k => a25 m ρ c i k]
  rfl

end Cert.KernelIdeal.Chain

end
-- ==== Proof.PrefixSkip.lean ====
/-
  Which buffers each stretch of host operations before the first region writes, and hence which it leaves alone:
  a buffer that no operation of stretches `j, …, k - 1` writes holds after stretch `k - 1` what it held before
  stretch `j`.
-/
import proofs.«123766_j46617575031251_2_alg».proof.Proof.Gen.KernelIdeal.Frame

noncomputable section

namespace Cert.KernelIdeal.PrefixValue

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ) (ρ : Dev nD → PrngReg) (c : Dev nD)

/-! ## What each stretch writes -/

/-- The buffers stretch 0 writes. -/
abbrev wr0 : List (Ref sig .tc) := [main_v0, main_v1, main_v2, main_v3, main_v4, main_v5, main_v6]
theorem wr0_writes : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 0 leaves every other buffer alone. -/
theorem W1_of (r : Ref sig .tc) (h : r ∉ wr0) : W1 m ρ c (Proc.devRef .tc r) = W0 m ρ c (Proc.devRef .tc r) :=
  StableHlo.after_of_writes_sub hostOps0 _ wr0_writes h

/-- The buffers stretch 1 writes. -/
abbrev wr1 : List (Ref sig .tc) := [main_call0_v0, main_call0_v1_0, main_v7]
theorem wr1_writes : (hostOps0_1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 1 leaves every other buffer alone. -/
theorem W2_of (r : Ref sig .tc) (h : r ∉ wr1) : W2 m ρ c (Proc.devRef .tc r) = W1 m ρ c (Proc.devRef .tc r) :=
  StableHlo.after_of_writes_sub hostOps0_1 _ wr1_writes h

/-- The buffers stretch 2 writes. -/
abbrev wr2 : List (Ref sig .tc) := [main_c, main_v8, main_v9, main_c_0, main_v10, main_v11, main_v12, main_v13, main_v14, main_c_1, main_v15, main_v16, main_c_2, main_v17, main_v18, main_v19, main_v20, main_v21, main_cst, main_v22, main_cst_3, main_v23, main_v24, main_v25, main_cst_4, main_v26, main_v27, main_cst_5, main_v28, main_v29, main_v30, main_cst_6]
theorem wr2_writes : (hostOps0_2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 2 leaves every other buffer alone. -/
theorem W3_of (r : Ref sig .tc) (h : r ∉ wr2) : W3 m ρ c (Proc.devRef .tc r) = W2 m ρ c (Proc.devRef .tc r) :=
  StableHlo.after_of_writes_sub hostOps0_2 _ wr2_writes h

/-- The buffers stretch 3 writes. -/
abbrev wr3 : List (Ref sig .tc) := [main_call1_v0, main_call1_v1, main_v31]
theorem wr3_writes : (hostOps0_3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 3 leaves every other buffer alone. -/
theorem W4_of (r : Ref sig .tc) (h : r ∉ wr3) : W4 m ρ c (Proc.devRef .tc r) = W3 m ρ c (Proc.devRef .tc r) :=
  StableHlo.after_of_writes_sub hostOps0_3 _ wr3_writes h

/-- The buffers stretch 4 writes. -/
abbrev wr4 : List (Ref sig .tc) := [main_v32, main_c_7]
theorem wr4_writes : (hostOps0_4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 4 leaves every other buffer alone. -/
theorem W5_of (r : Ref sig .tc) (h : r ∉ wr4) : W5 m ρ c (Proc.devRef .tc r) = W4 m ρ c (Proc.devRef .tc r) :=
  StableHlo.after_of_writes_sub hostOps0_4 _ wr4_writes h

/-- The buffers stretch 5 writes. -/
abbrev wr5 : List (Ref sig .tc) := [main_call2_v0, main_v33]
theorem wr5_writes : (hostOps0_5 : List (HloOp τ sig (Elt F))).Forall fun op => op.writes ⊆ (wr5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 5 leaves every other buffer alone. -/
theorem W6_of (r : Ref sig .tc) (h : r ∉ wr5) : W6 m ρ c (Proc.devRef .tc r) = W5 m ρ c (Proc.devRef .tc r) :=
  StableHlo.after_of_writes_sub hostOps0_5 _ wr5_writes h

/-- The buffers stretch 6 writes. -/
abbrev wr6 : List (Ref sig .tc) := [main_c_8]
theorem wr6_writes : (hostOps0_6 : List (HloOp τ sig (Elt F))).Forall fun op => op.writes ⊆ (wr6.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 6 leaves every other buffer alone. -/
theorem W7_of (r : Ref sig .tc) (h : r ∉ wr6) : W7 m ρ c (Proc.devRef .tc r) = W6 m ρ c (Proc.devRef .tc r) :=
  StableHlo.after_of_writes_sub hostOps0_6 _ wr6_writes h

/-- The buffers stretch 7 writes. -/
abbrev wr7 : List (Ref sig .tc) := [main_call3_v0, main_v34]
theorem wr7_writes : (hostOps0_7 : List (HloOp τ sig (Elt F))).Forall fun op => op.writes ⊆ (wr7.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 7 leaves every other buffer alone. -/
theorem W8_of (r : Ref sig .tc) (h : r ∉ wr7) : W8 m ρ c (Proc.devRef .tc r) = W7 m ρ c (Proc.devRef .tc r) :=
  StableHlo.after_of_writes_sub hostOps0_7 _ wr7_writes h

/-- The buffers stretch 8 writes. -/
abbrev wr8 : List (Ref sig .tc) := [main_v35, main_c_9]
theorem wr8_writes : (hostOps0_8 : List (HloOp τ sig (Elt F))).Forall fun op => op.writes ⊆ (wr8.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 8 leaves every other buffer alone. -/
theorem W9_of (r : Ref sig .tc) (h : r ∉ wr8) : W9 m ρ c (Proc.devRef .tc r) = W8 m ρ c (Proc.devRef .tc r) :=
  StableHlo.after_of_writes_sub hostOps0_8 _ wr8_writes h

/-- The buffers stretch 9 writes. -/
abbrev wr9 : List (Ref sig .tc) := [main_call4_v0, main_v36]
theorem wr9_writes : (hostOps0_9 : List (HloOp τ sig (Elt F))).Forall fun op => op.writes ⊆ (wr9.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 9 leaves every other buffer alone. -/
theorem W10_of (r : Ref sig .tc) (h : r ∉ wr9) : W10 m ρ c (Proc.devRef .tc r) = W9 m ρ c (Proc.devRef .tc r) :=
  StableHlo.after_of_writes_sub hostOps0_9 _ wr9_writes h

/-- The buffers stretch 10 writes. -/
abbrev wr10 : List (Ref sig .tc) := [main_c_10]
theorem wr10_writes : (hostOps0_10 : List (HloOp τ sig (Elt F))).Forall fun op => op.writes ⊆ (wr10.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 10 leaves every other buffer alone. -/
theorem W11_of (r : Ref sig .tc) (h : r ∉ wr10) : W11 m ρ c (Proc.devRef .tc r) = W10 m ρ c (Proc.devRef .tc r) :=
  StableHlo.after_of_writes_sub hostOps0_10 _ wr10_writes h

/-- The buffers stretch 11 writes. -/
abbrev wr11 : List (Ref sig .tc) := [main_call5_v0, main_v37]
theorem wr11_writes : (hostOps0_11 : List (HloOp τ sig (Elt F))).Forall fun op => op.writes ⊆ (wr11.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 11 leaves every other buffer alone. -/
theorem W12_of (r : Ref sig .tc) (h : r ∉ wr11) : W12 m ρ c (Proc.devRef .tc r) = W11 m ρ c (Proc.devRef .tc r) :=
  StableHlo.after_of_writes_sub hostOps0_11 _ wr11_writes h

/-- The buffers stretch 12 writes. -/
abbrev wr12 : List (Ref sig .tc) := [main_c_11]
theorem wr12_writes : (hostOps0_12 : List (HloOp τ sig (Elt F))).Forall fun op => op.writes ⊆ (wr12.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 12 leaves every other buffer alone. -/
theorem W13_of (r : Ref sig .tc) (h : r ∉ wr12) : W13 m ρ c (Proc.devRef .tc r) = W12 m ρ c (Proc.devRef .tc r) :=
  StableHlo.after_of_writes_sub hostOps0_12 _ wr12_writes h

/-- The buffers stretch 13 writes. -/
abbrev wr13 : List (Ref sig .tc) := [main_call6_v0, main_v38]
theorem wr13_writes : (hostOps0_13 : List (HloOp τ sig (Elt F))).Forall fun op => op.writes ⊆ (wr13.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 13 leaves every other buffer alone. -/
theorem W14_of (r : Ref sig .tc) (h : r ∉ wr13) : W14 m ρ c (Proc.devRef .tc r) = W13 m ρ c (Proc.devRef .tc r) :=
  StableHlo.after_of_writes_sub hostOps0_13 _ wr13_writes h

/-- The buffers stretch 14 writes. -/
abbrev wr14 : List (Ref sig .tc) := [main_v39, main_c_12]
theorem wr14_writes : (hostOps0_14 : List (HloOp τ sig (Elt F))).Forall fun op => op.writes ⊆ (wr14.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 14 leaves every other buffer alone. -/
theorem W15_of (r : Ref sig .tc) (h : r ∉ wr14) : W15 m ρ c (Proc.devRef .tc r) = W14 m ρ c (Proc.devRef .tc r) :=
  StableHlo.after_of_writes_sub hostOps0_14 _ wr14_writes h

/-- The buffers stretch 15 writes. -/
abbrev wr15 : List (Ref sig .tc) := [main_call7_v0, main_v40]
theorem wr15_writes : (hostOps0_15 : List (HloOp τ sig (Elt F))).Forall fun op => op.writes ⊆ (wr15.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 15 leaves every other buffer alone. -/
theorem W16_of (r : Ref sig .tc) (h : r ∉ wr15) : W16 m ρ c (Proc.devRef .tc r) = W15 m ρ c (Proc.devRef .tc r) :=
  StableHlo.after_of_writes_sub hostOps0_15 _ wr15_writes h

/-- The buffers stretch 16 writes. -/
abbrev wr16 : List (Ref sig .tc) := [main_v41]
theorem wr16_writes : (hostOps0_16 : List (HloOp τ sig (Elt F))).Forall fun op => op.writes ⊆ (wr16.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- Stretch 16 leaves every other buffer alone. -/
theorem W17_of (r : Ref sig .tc) (h : r ∉ wr16) : W17 m ρ c (Proc.devRef .tc r) = W16 m ρ c (Proc.devRef .tc r) :=
  StableHlo.after_of_writes_sub hostOps0_16 _ wr16_writes h

/-! ## From a stretch's exit to the first region's entry -/

/-- The buffers stretches `k, …, 16` write. -/
abbrev wrFrom16 : List (Ref sig .tc) := wr16
abbrev wrFrom15 : List (Ref sig .tc) := wr15 ++ wrFrom16
abbrev wrFrom14 : List (Ref sig .tc) := wr14 ++ wrFrom15
abbrev wrFrom13 : List (Ref sig .tc) := wr13 ++ wrFrom14
abbrev wrFrom12 : List (Ref sig .tc) := wr12 ++ wrFrom13
abbrev wrFrom11 : List (Ref sig .tc) := wr11 ++ wrFrom12
abbrev wrFrom10 : List (Ref sig .tc) := wr10 ++ wrFrom11
abbrev wrFrom9 : List (Ref sig .tc) := wr9 ++ wrFrom10
abbrev wrFrom8 : List (Ref sig .tc) := wr8 ++ wrFrom9
abbrev wrFrom7 : List (Ref sig .tc) := wr7 ++ wrFrom8
abbrev wrFrom6 : List (Ref sig .tc) := wr6 ++ wrFrom7
abbrev wrFrom5 : List (Ref sig .tc) := wr5 ++ wrFrom6
abbrev wrFrom4 : List (Ref sig .tc) := wr4 ++ wrFrom5
abbrev wrFrom3 : List (Ref sig .tc) := wr3 ++ wrFrom4
abbrev wrFrom2 : List (Ref sig .tc) := wr2 ++ wrFrom3
abbrev wrFrom1 : List (Ref sig .tc) := wr1 ++ wrFrom2

theorem W17_eq_W16 (r : Ref sig .tc) (h : r ∉ wrFrom16) : W17 m ρ c (Proc.devRef .tc r) = W16 m ρ c (Proc.devRef .tc r) :=
  W17_of m ρ c r h
theorem W17_eq_W15 (r : Ref sig .tc) (h : r ∉ wrFrom15) : W17 m ρ c (Proc.devRef .tc r) = W15 m ρ c (Proc.devRef .tc r) :=
  (W17_eq_W16 m ρ c r fun hh => h (List.mem_append_right _ hh)).trans (W16_of m ρ c r fun hh => h (List.mem_append_left _ hh))
theorem W17_eq_W14 (r : Ref sig .tc) (h : r ∉ wrFrom14) : W17 m ρ c (Proc.devRef .tc r) = W14 m ρ c (Proc.devRef .tc r) :=
  (W17_eq_W15 m ρ c r fun hh => h (List.mem_append_right _ hh)).trans (W15_of m ρ c r fun hh => h (List.mem_append_left _ hh))
theorem W17_eq_W13 (r : Ref sig .tc) (h : r ∉ wrFrom13) : W17 m ρ c (Proc.devRef .tc r) = W13 m ρ c (Proc.devRef .tc r) :=
  (W17_eq_W14 m ρ c r fun hh => h (List.mem_append_right _ hh)).trans (W14_of m ρ c r fun hh => h (List.mem_append_left _ hh))
theorem W17_eq_W12 (r : Ref sig .tc) (h : r ∉ wrFrom12) : W17 m ρ c (Proc.devRef .tc r) = W12 m ρ c (Proc.devRef .tc r) :=
  (W17_eq_W13 m ρ c r fun hh => h (List.mem_append_right _ hh)).trans (W13_of m ρ c r fun hh => h (List.mem_append_left _ hh))
theorem W17_eq_W11 (r : Ref sig .tc) (h : r ∉ wrFrom11) : W17 m ρ c (Proc.devRef .tc r) = W11 m ρ c (Proc.devRef .tc r) :=
  (W17_eq_W12 m ρ c r fun hh => h (List.mem_append_right _ hh)).trans (W12_of m ρ c r fun hh => h (List.mem_append_left _ hh))
theorem W17_eq_W10 (r : Ref sig .tc) (h : r ∉ wrFrom10) : W17 m ρ c (Proc.devRef .tc r) = W10 m ρ c (Proc.devRef .tc r) :=
  (W17_eq_W11 m ρ c r fun hh => h (List.mem_append_right _ hh)).trans (W11_of m ρ c r fun hh => h (List.mem_append_left _ hh))
theorem W17_eq_W9 (r : Ref sig .tc) (h : r ∉ wrFrom9) : W17 m ρ c (Proc.devRef .tc r) = W9 m ρ c (Proc.devRef .tc r) :=
  (W17_eq_W10 m ρ c r fun hh => h (List.mem_append_right _ hh)).trans (W10_of m ρ c r fun hh => h (List.mem_append_left _ hh))
theorem W17_eq_W8 (r : Ref sig .tc) (h : r ∉ wrFrom8) : W17 m ρ c (Proc.devRef .tc r) = W8 m ρ c (Proc.devRef .tc r) :=
  (W17_eq_W9 m ρ c r fun hh => h (List.mem_append_right _ hh)).trans (W9_of m ρ c r fun hh => h (List.mem_append_left _ hh))
theorem W17_eq_W7 (r : Ref sig .tc) (h : r ∉ wrFrom7) : W17 m ρ c (Proc.devRef .tc r) = W7 m ρ c (Proc.devRef .tc r) :=
  (W17_eq_W8 m ρ c r fun hh => h (List.mem_append_right _ hh)).trans (W8_of m ρ c r fun hh => h (List.mem_append_left _ hh))
theorem W17_eq_W6 (r : Ref sig .tc) (h : r ∉ wrFrom6) : W17 m ρ c (Proc.devRef .tc r) = W6 m ρ c (Proc.devRef .tc r) :=
  (W17_eq_W7 m ρ c r fun hh => h (List.mem_append_right _ hh)).trans (W7_of m ρ c r fun hh => h (List.mem_append_left _ hh))
theorem W17_eq_W5 (r : Ref sig .tc) (h : r ∉ wrFrom5) : W17 m ρ c (Proc.devRef .tc r) = W5 m ρ c (Proc.devRef .tc r) :=
  (W17_eq_W6 m ρ c r fun hh => h (List.mem_append_right _ hh)).trans (W6_of m ρ c r fun hh => h (List.mem_append_left _ hh))
theorem W17_eq_W4 (r : Ref sig .tc) (h : r ∉ wrFrom4) : W17 m ρ c (Proc.devRef .tc r) = W4 m ρ c (Proc.devRef .tc r) :=
  (W17_eq_W5 m ρ c r fun hh => h (List.mem_append_right _ hh)).trans (W5_of m ρ c r fun hh => h (List.mem_append_left _ hh))
theorem W17_eq_W3 (r : Ref sig .tc) (h : r ∉ wrFrom3) : W17 m ρ c (Proc.devRef .tc r) = W3 m ρ c (Proc.devRef .tc r) :=
  (W17_eq_W4 m ρ c r fun hh => h (List.mem_append_right _ hh)).trans (W4_of m ρ c r fun hh => h (List.mem_append_left _ hh))
theorem W17_eq_W2 (r : Ref sig .tc) (h : r ∉ wrFrom2) : W17 m ρ c (Proc.devRef .tc r) = W2 m ρ c (Proc.devRef .tc r) :=
  (W17_eq_W3 m ρ c r fun hh => h (List.mem_append_right _ hh)).trans (W3_of m ρ c r fun hh => h (List.mem_append_left _ hh))
theorem W17_eq_W1 (r : Ref sig .tc) (h : r ∉ wrFrom1) : W17 m ρ c (Proc.devRef .tc r) = W1 m ρ c (Proc.devRef .tc r) :=
  (W17_eq_W2 m ρ c r fun hh => h (List.mem_append_right _ hh)).trans (W2_of m ρ c r fun hh => h (List.mem_append_left _ hh))

/-! ## From the launch to a stretch's entry -/

/-- The buffers stretches `0, …, k - 1` write. -/
abbrev wrTo1 : List (Ref sig .tc) := wr0
abbrev wrTo2 : List (Ref sig .tc) := wrTo1 ++ wr1
abbrev wrTo3 : List (Ref sig .tc) := wrTo2 ++ wr2
abbrev wrTo4 : List (Ref sig .tc) := wrTo3 ++ wr3
abbrev wrTo5 : List (Ref sig .tc) := wrTo4 ++ wr4
abbrev wrTo6 : List (Ref sig .tc) := wrTo5 ++ wr5
abbrev wrTo7 : List (Ref sig .tc) := wrTo6 ++ wr6
abbrev wrTo8 : List (Ref sig .tc) := wrTo7 ++ wr7
abbrev wrTo9 : List (Ref sig .tc) := wrTo8 ++ wr8
abbrev wrTo10 : List (Ref sig .tc) := wrTo9 ++ wr9
abbrev wrTo11 : List (Ref sig .tc) := wrTo10 ++ wr10
abbrev wrTo12 : List (Ref sig .tc) := wrTo11 ++ wr11
abbrev wrTo13 : List (Ref sig .tc) := wrTo12 ++ wr12
abbrev wrTo14 : List (Ref sig .tc) := wrTo13 ++ wr13
abbrev wrTo15 : List (Ref sig .tc) := wrTo14 ++ wr14
abbrev wrTo16 : List (Ref sig .tc) := wrTo15 ++ wr15
abbrev wrTo17 : List (Ref sig .tc) := wrTo16 ++ wr16

theorem W1_eq_W0 (r : Ref sig .tc) (h : r ∉ wrTo1) : W1 m ρ c (Proc.devRef .tc r) = W0 m ρ c (Proc.devRef .tc r) :=
  W1_of m ρ c r h
theorem W2_eq_W0 (r : Ref sig .tc) (h : r ∉ wrTo2) : W2 m ρ c (Proc.devRef .tc r) = W0 m ρ c (Proc.devRef .tc r) :=
  (W2_of m ρ c r fun hh => h (List.mem_append_right _ hh)).trans (W1_eq_W0 m ρ c r fun hh => h (List.mem_append_left _ hh))
theorem W3_eq_W0 (r : Ref sig .tc) (h : r ∉ wrTo3) : W3 m ρ c (Proc.devRef .tc r) = W0 m ρ c (Proc.devRef .tc r) :=
  (W3_of m ρ c r fun hh => h (List.mem_append_right _ hh)).trans (W2_eq_W0 m ρ c r fun hh => h (List.mem_append_left _ hh))
theorem W4_eq_W0 (r : Ref sig .tc) (h : r ∉ wrTo4) : W4 m ρ c (Proc.devRef .tc r) = W0 m ρ c (Proc.devRef .tc r) :=
  (W4_of m ρ c r fun hh => h (List.mem_append_right _ hh)).trans (W3_eq_W0 m ρ c r fun hh => h (List.mem_append_left _ hh))
theorem W5_eq_W0 (r : Ref sig .tc) (h : r ∉ wrTo5) : W5 m ρ c (Proc.devRef .tc r) = W0 m ρ c (Proc.devRef .tc r) :=
  (W5_of m ρ c r fun hh => h (List.mem_append_right _ hh)).trans (W4_eq_W0 m ρ c r fun hh => h (List.mem_append_left _ hh))
theorem W6_eq_W0 (r : Ref sig .tc) (h : r ∉ wrTo6) : W6 m ρ c (Proc.devRef .tc r) = W0 m ρ c (Proc.devRef .tc r) :=
  (W6_of m ρ c r fun hh => h (List.mem_append_right _ hh)).trans (W5_eq_W0 m ρ c r fun hh => h (List.mem_append_left _ hh))
theorem W7_eq_W0 (r : Ref sig .tc) (h : r ∉ wrTo7) : W7 m ρ c (Proc.devRef .tc r) = W0 m ρ c (Proc.devRef .tc r) :=
  (W7_of m ρ c r fun hh => h (List.mem_append_right _ hh)).trans (W6_eq_W0 m ρ c r fun hh => h (List.mem_append_left _ hh))
theorem W8_eq_W0 (r : Ref sig .tc) (h : r ∉ wrTo8) : W8 m ρ c (Proc.devRef .tc r) = W0 m ρ c (Proc.devRef .tc r) :=
  (W8_of m ρ c r fun hh => h (List.mem_append_right _ hh)).trans (W7_eq_W0 m ρ c r fun hh => h (List.mem_append_left _ hh))
theorem W9_eq_W0 (r : Ref sig .tc) (h : r ∉ wrTo9) : W9 m ρ c (Proc.devRef .tc r) = W0 m ρ c (Proc.devRef .tc r) :=
  (W9_of m ρ c r fun hh => h (List.mem_append_right _ hh)).trans (W8_eq_W0 m ρ c r fun hh => h (List.mem_append_left _ hh))
theorem W10_eq_W0 (r : Ref sig .tc) (h : r ∉ wrTo10) : W10 m ρ c (Proc.devRef .tc r) = W0 m ρ c (Proc.devRef .tc r) :=
  (W10_of m ρ c r fun hh => h (List.mem_append_right _ hh)).trans (W9_eq_W0 m ρ c r fun hh => h (List.mem_append_left _ hh))
theorem W11_eq_W0 (r : Ref sig .tc) (h : r ∉ wrTo11) : W11 m ρ c (Proc.devRef .tc r) = W0 m ρ c (Proc.devRef .tc r) :=
  (W11_of m ρ c r fun hh => h (List.mem_append_right _ hh)).trans (W10_eq_W0 m ρ c r fun hh => h (List.mem_append_left _ hh))
theorem W12_eq_W0 (r : Ref sig .tc) (h : r ∉ wrTo12) : W12 m ρ c (Proc.devRef .tc r) = W0 m ρ c (Proc.devRef .tc r) :=
  (W12_of m ρ c r fun hh => h (List.mem_append_right _ hh)).trans (W11_eq_W0 m ρ c r fun hh => h (List.mem_append_left _ hh))
theorem W13_eq_W0 (r : Ref sig .tc) (h : r ∉ wrTo13) : W13 m ρ c (Proc.devRef .tc r) = W0 m ρ c (Proc.devRef .tc r) :=
  (W13_of m ρ c r fun hh => h (List.mem_append_right _ hh)).trans (W12_eq_W0 m ρ c r fun hh => h (List.mem_append_left _ hh))
theorem W14_eq_W0 (r : Ref sig .tc) (h : r ∉ wrTo14) : W14 m ρ c (Proc.devRef .tc r) = W0 m ρ c (Proc.devRef .tc r) :=
  (W14_of m ρ c r fun hh => h (List.mem_append_right _ hh)).trans (W13_eq_W0 m ρ c r fun hh => h (List.mem_append_left _ hh))
theorem W15_eq_W0 (r : Ref sig .tc) (h : r ∉ wrTo15) : W15 m ρ c (Proc.devRef .tc r) = W0 m ρ c (Proc.devRef .tc r) :=
  (W15_of m ρ c r fun hh => h (List.mem_append_right _ hh)).trans (W14_eq_W0 m ρ c r fun hh => h (List.mem_append_left _ hh))
theorem W16_eq_W0 (r : Ref sig .tc) (h : r ∉ wrTo16) : W16 m ρ c (Proc.devRef .tc r) = W0 m ρ c (Proc.devRef .tc r) :=
  (W16_of m ρ c r fun hh => h (List.mem_append_right _ hh)).trans (W15_eq_W0 m ρ c r fun hh => h (List.mem_append_left _ hh))
theorem W17_eq_W0 (r : Ref sig .tc) (h : r ∉ wrTo17) : W17 m ρ c (Proc.devRef .tc r) = W0 m ρ c (Proc.devRef .tc r) :=
  (W17_of m ρ c r fun hh => h (List.mem_append_right _ hh)).trans (W16_eq_W0 m ρ c r fun hh => h (List.mem_append_left _ hh))

/-- At launch a buffer holds the launch memory. -/
theorem W0_eq (b : Ref sig .tc) : W0 m ρ c (Proc.devRef .tc b) = m ((c : Thread nD τ).loc b) := rfl

end Cert.KernelIdeal.PrefixValue
-- ==== Proof.PrefixDefs.lean ====
/-
  The whole-array values the host computes before the first region, as functions of the argument arrays.

  The edge array `ei` is `[2, 800000]`: row 0 the source words, row 1 the target words. A self-loop per node is
  appended to each row (`srcK`, `dstK`: 850000 words), the edges are sorted by target word with a stable argsort
  (`sigma`: position `e` of the sorted order is taken from position `sigma e`), and both rows are gathered in that
  order. The degree of a node is the number of sorted target words landing on it, its scale the inverse square root
  of the degree where positive. The weights and biases are padded with zeros to the lane width.
-/
import proofs.«123766_j46617575031251_2_alg».proof.KernelIdeal
import Idealize.ShloMosaic.PureOps.Ideal
import Idealize.ShloMosaic.Lib.SortFacts

noncomputable section

namespace Cert.KernelIdeal.PrefixValue

open Idealize.ShloMosaic
open Cert.KernelIdeal Cert.KernelIdeal.Facts₀

variable [Facts₀]

/-- The source words with one self-loop per node appended. -/
def srcK (ei : IVec S2x800000 32) : IVec S850000 32 :=
  concatenate S850000 0
    [⟨S800000, shapeCast S800000 (extractStridedSlice S1x800000 ![0, 0] ei slices_S2x800000_S1x800000_0_0)
        shapeCasts_S1x800000_S800000⟩,
      ⟨S50000, iotaInDim S50000 32 0⟩]
    concatenates_S800000_S50000_S850000_d0

/-- The target words with one self-loop per node appended. -/
def dstK (ei : IVec S2x800000 32) : IVec S850000 32 :=
  concatenate S850000 0
    [⟨S800000, shapeCast S800000 (extractStridedSlice S1x800000 ![1, 0] ei slices_S2x800000_S1x800000_1_0)
        shapeCasts_S1x800000_S800000⟩,
      ⟨S50000, iotaInDim S50000 32 0⟩]
    concatenates_S800000_S50000_S850000_d0

/-- The stable argsort of the target words: sorted position `e` is taken from position `sigma ei e`. -/
def sigma (ei : IVec S2x800000 32) : Fin 850000 → Fin 850000 :=
  sortedFrom (fun k k' : Fin 850000 =>
    comparator_i32_i32_d0 (dstK ei (Shape.Idx.ofFin k), iotaInDim S850000 32 0 (Shape.Idx.ofFin k))
      (dstK ei (Shape.Idx.ofFin k'), iotaInDim S850000 32 0 (Shape.Idx.ofFin k')) == 1#1)

/-- The argsort of a vector of keys, as words. -/
def orderOf (keys : IVec S850000 32) : IVec S850000 32 :=
  (Host.sort2 S850000 0 comparator_i32_i32_d0 keys (iotaInDim S850000 32 0)).2

/-- An order's words as a column of row indices, negative words wrapped by the length. -/
def wrapCol (o : IVec S850000 32) : IVec S850000x1 32 :=
  broadcastInDim S850000x1 ![0] bcast_S850000_S850000x1_0
    (select (cmpi .slt o (broadcastInDim S850000 ![] bcast_S_S850000 (constantI S_ 32 0#32)))
      (addi o (broadcastInDim S850000 ![] bcast_S_S850000 (constantI S_ 32 850000#32))) o)

/-- A vector of words taken in a given order. -/
def gatherBy (x o : IVec S850000 32) : IVec S850000 32 :=
  Host.gather gather_S850000_S850000x1_S850000_n_0_n_n_0_1_1 x (wrapCol o)

/-- The degrees: the word `1.0` summed into the node each target word lands on. -/
def degOf (t : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 t)
    (broadcastInDim S850000 ![] bcast_S_S850000 (constant (F := Ideal) S_ .f32 0x3F800000#32))

/-- Is the degree positive. -/
def degPos (d : FVec Ideal S50000 .f32) : IVec S50000 1 :=
  cmpf .ogt d (broadcastInDim S50000 ![] bcast_S_S50000 (constant (F := Ideal) S_ .f32 0x00000000#32))

/-- `rsqrt (max d 1.0)`. -/
def degRsqrt (d : FVec Ideal S50000 .f32) : FVec Ideal S50000 .f32 :=
  Host.rsqrt (maximumf d (broadcastInDim S50000 ![] bcast_S_S50000 (constant (F := Ideal) S_ .f32 0x3F800000#32)))

/-- The scales: `rsqrt (max d 1.0)` where `d > 0`, zero elsewhere. -/
def dinvArr (d : FVec Ideal S50000 .f32) : FVec Ideal S50000 .f32 :=
  select (degPos d) (degRsqrt d)
    (broadcastInDim S50000 ![] bcast_S_S50000 (constant (F := Ideal) S_ .f32 0x00000000#32))

/-- The scales as a column. -/
def dinvCol (d : FVec Ideal S50000 .f32) : FVec Ideal S50000x1 .f32 :=
  shapeCast S50000x1 (dinvArr d) shapeCasts_S50000_S50000x1

/-- The padding value: the integer zero as a float. -/
def padZero : FVec Ideal S_ .f32 := sitofp .f32 (constantI S_ 32 0#32)

/-- The first weight matrix `[128, 96]` padded with zero columns to `[128, 128]`. -/
def padW1 (x : FVec Ideal S128x96 .f32) : FVec Ideal S128x128 .f32 :=
  pad S128x128 ![0, 0] ![0, 32] ![0, 0] x padZero pads_S128x96_S128x128_000_0320 h_S_

/-- A bias `[96]` padded with zeros to `[128]`, as a row `[1, 128]`. -/
def padB (x : FVec Ideal S96 .f32) : FVec Ideal S1x128 .f32 :=
  shapeCast S1x128 (pad S128 ![0] ![32] ![0] x padZero pads_S96_S128_0320 h_S_) shapeCasts_S128_S1x128

/-- The second weight matrix `[96, 96]`: zero columns to `[96, 128]`, then zero rows to `[128, 128]`. -/
def padW2 (x : FVec Ideal S96x96 .f32) : FVec Ideal S128x128 .f32 :=
  pad S128x128 ![0, 0] ![32, 0] ![0, 0]
    (pad S96x128 ![0, 0] ![0, 32] ![0, 0] x padZero pads_S96x96_S96x128_000_0320 h_S_)
    padZero pads_S96x128_S128x128_0320_000 h_S_

/-- The third weight matrix `[96, 32]` padded with zero rows to `[128, 32]`. -/
def padW3 (x : FVec Ideal S96x32 .f32) : FVec Ideal S128x32 .f32 :=
  pad S128x32 ![0, 0] ![32, 0] ![0, 0] x padZero pads_S96x32_S128x32_0320_000 h_S_

/-- The last bias `[32]` as a row `[1, 32]`. -/
def rowB3 (x : FVec Ideal S32 .f32) : FVec Ideal S1x32 .f32 :=
  shapeCast S1x32 x shapeCasts_S32_S1x32

end Cert.KernelIdeal.PrefixValue
-- ==== Proof.PrefixWalk.lean ====
/-
  The host operations before the first region, walked stretch by stretch: what each buffer the regions read holds
  when the first region is entered, as a whole-array function of the argument arrays.
-/
import proofs.«123766_j46617575031251_2_alg».proof.Proof.PrefixSkip
import proofs.«123766_j46617575031251_2_alg».proof.Proof.PrefixDefs

noncomputable section

namespace Cert.KernelIdeal.PrefixValue

open Idealize.ShloMosaic Idealize.ShloMosaic.TcCoe Idealize.ShloMosaic.Tactic
open Cert.KernelIdeal Cert.KernelIdeal.Gen

/-! ## Each stretch's results, from any contents `V` at its entry -/

theorem s0_v3 (V : Valuation τ sig (Elt Ideal)) :
    StableHlo.after (hostOps0 (F := Ideal)) V (Proc.devRef .tc main_v3) = srcK (V (Proc.devRef .tc main_arg1)) := by
  simp only [hostOps0]
  after_results
  all_goals rfl

theorem s0_v6 (V : Valuation τ sig (Elt Ideal)) :
    StableHlo.after (hostOps0 (F := Ideal)) V (Proc.devRef .tc main_v6) = dstK (V (Proc.devRef .tc main_arg1)) := by
  simp only [hostOps0]
  after_results
  all_goals rfl

theorem s1_v7 (V : Valuation τ sig (Elt Ideal)) :
    StableHlo.after (hostOps0_1 (F := Ideal)) V (Proc.devRef .tc main_v7) = orderOf (V (Proc.devRef .tc main_v6)) := by
  simp only [hostOps0_1]
  after_results
  all_goals rfl

theorem s2_v14 (V : Valuation τ sig (Elt Ideal)) :
    StableHlo.after (hostOps0_2 (F := Ideal)) V (Proc.devRef .tc main_v14) = gatherBy (V (Proc.devRef .tc main_v3)) (V (Proc.devRef .tc main_v7)) := by
  simp only [hostOps0_2]
  after_results_simp
  all_goals rfl

theorem s2_v21 (V : Valuation τ sig (Elt Ideal)) :
    StableHlo.after (hostOps0_2 (F := Ideal)) V (Proc.devRef .tc main_v21) = gatherBy (V (Proc.devRef .tc main_v6)) (V (Proc.devRef .tc main_v7)) := by
  simp only [hostOps0_2]
  after_results_simp
  all_goals rfl

theorem s2_v27 (V : Valuation τ sig (Elt Ideal)) :
    StableHlo.after (hostOps0_2 (F := Ideal)) V (Proc.devRef .tc main_v27) = degPos (degOf (gatherBy (V (Proc.devRef .tc main_v6)) (V (Proc.devRef .tc main_v7)))) := by
  simp only [hostOps0_2]
  after_results_simp
  all_goals rfl

theorem s2_v30 (V : Valuation τ sig (Elt Ideal)) :
    StableHlo.after (hostOps0_2 (F := Ideal)) V (Proc.devRef .tc main_v30) = degRsqrt (degOf (gatherBy (V (Proc.devRef .tc main_v6)) (V (Proc.devRef .tc main_v7)))) := by
  simp only [hostOps0_2]
  after_results_simp
  all_goals rfl

theorem s2_cst6 (V : Valuation τ sig (Elt Ideal)) :
    StableHlo.after (hostOps0_2 (F := Ideal)) V (Proc.devRef .tc main_cst_6) = constant (F := Ideal) S_ .f32 0x00000000#32 := by
  simp only [hostOps0_2]
  after_results_simp
  all_goals rfl

theorem s3_v31 (V : Valuation τ sig (Elt Ideal)) :
    StableHlo.after (hostOps0_3 (F := Ideal)) V (Proc.devRef .tc main_v31) = select (V (Proc.devRef .tc main_v27)) (V (Proc.devRef .tc main_v30)) (broadcastInDim S50000 ![] Facts₀.bcast_S_S50000 (V (Proc.devRef .tc main_cst_6))) := by
  simp only [hostOps0_3]
  after_results
  all_goals rfl

theorem s4_v32 (V : Valuation τ sig (Elt Ideal)) :
    StableHlo.after (hostOps0_4 (F := Ideal)) V (Proc.devRef .tc main_v32) = shapeCast S50000x1 (V (Proc.devRef .tc main_v31)) Facts₀.shapeCasts_S50000_S50000x1 := by
  simp only [hostOps0_4]
  after_results
  all_goals rfl

theorem s4_c7 (V : Valuation τ sig (Elt Ideal)) :
    StableHlo.after (hostOps0_4 (F := Ideal)) V (Proc.devRef .tc main_c_7) = constantI S_ 32 0#32 := by
  simp only [hostOps0_4]
  after_results
  all_goals rfl

theorem s5_v33 (V : Valuation τ sig (Elt Ideal)) :
    StableHlo.after (hostOps0_5 (F := Ideal)) V (Proc.devRef .tc main_v33) = pad S128x128 ![0, 0] ![0, 32] ![0, 0] (V (Proc.devRef .tc main_arg2)) (sitofp (F := Ideal) .f32 (V (Proc.devRef .tc main_c_7))) Facts₀.pads_S128x96_S128x128_000_0320 Facts₀.h_S_ := by
  simp only [hostOps0_5]
  after_results
  all_goals rfl

theorem s6_c8 (V : Valuation τ sig (Elt Ideal)) :
    StableHlo.after (hostOps0_6 (F := Ideal)) V (Proc.devRef .tc main_c_8) = constantI S_ 32 0#32 := by
  simp only [hostOps0_6]
  after_results
  all_goals rfl

theorem s7_v34 (V : Valuation τ sig (Elt Ideal)) :
    StableHlo.after (hostOps0_7 (F := Ideal)) V (Proc.devRef .tc main_v34) = pad S128 ![0] ![32] ![0] (V (Proc.devRef .tc main_arg3)) (sitofp (F := Ideal) .f32 (V (Proc.devRef .tc main_c_8))) Facts₀.pads_S96_S128_0320 Facts₀.h_S_ := by
  simp only [hostOps0_7]
  after_results
  all_goals rfl

theorem s8_v35 (V : Valuation τ sig (Elt Ideal)) :
    StableHlo.after (hostOps0_8 (F := Ideal)) V (Proc.devRef .tc main_v35) = shapeCast S1x128 (V (Proc.devRef .tc main_v34)) Facts₀.shapeCasts_S128_S1x128 := by
  simp only [hostOps0_8]
  after_results
  all_goals rfl

theorem s8_c9 (V : Valuation τ sig (Elt Ideal)) :
    StableHlo.after (hostOps0_8 (F := Ideal)) V (Proc.devRef .tc main_c_9) = constantI S_ 32 0#32 := by
  simp only [hostOps0_8]
  after_results
  all_goals rfl

theorem s9_v36 (V : Valuation τ sig (Elt Ideal)) :
    StableHlo.after (hostOps0_9 (F := Ideal)) V (Proc.devRef .tc main_v36) = pad S96x128 ![0, 0] ![0, 32] ![0, 0] (V (Proc.devRef .tc main_arg4)) (sitofp (F := Ideal) .f32 (V (Proc.devRef .tc main_c_9))) Facts₀.pads_S96x96_S96x128_000_0320 Facts₀.h_S_ := by
  simp only [hostOps0_9]
  after_results
  all_goals rfl

theorem s10_c10 (V : Valuation τ sig (Elt Ideal)) :
    StableHlo.after (hostOps0_10 (F := Ideal)) V (Proc.devRef .tc main_c_10) = constantI S_ 32 0#32 := by
  simp only [hostOps0_10]
  after_results
  all_goals rfl

theorem s11_v37 (V : Valuation τ sig (Elt Ideal)) :
    StableHlo.after (hostOps0_11 (F := Ideal)) V (Proc.devRef .tc main_v37) = pad S128x128 ![0, 0] ![32, 0] ![0, 0] (V (Proc.devRef .tc main_v36)) (sitofp (F := Ideal) .f32 (V (Proc.devRef .tc main_c_10))) Facts₀.pads_S96x128_S128x128_0320_000 Facts₀.h_S_ := by
  simp only [hostOps0_11]
  after_results
  all_goals rfl

theorem s12_c11 (V : Valuation τ sig (Elt Ideal)) :
    StableHlo.after (hostOps0_12 (F := Ideal)) V (Proc.devRef .tc main_c_11) = constantI S_ 32 0#32 := by
  simp only [hostOps0_12]
  after_results
  all_goals rfl

theorem s13_v38 (V : Valuation τ sig (Elt Ideal)) :
    StableHlo.after (hostOps0_13 (F := Ideal)) V (Proc.devRef .tc main_v38) = pad S128 ![0] ![32] ![0] (V (Proc.devRef .tc main_arg5)) (sitofp (F := Ideal) .f32 (V (Proc.devRef .tc main_c_11))) Facts₀.pads_S96_S128_0320 Facts₀.h_S_ := by
  simp only [hostOps0_13]
  after_results
  all_goals rfl

theorem s14_v39 (V : Valuation τ sig (Elt Ideal)) :
    StableHlo.after (hostOps0_14 (F := Ideal)) V (Proc.devRef .tc main_v39) = shapeCast S1x128 (V (Proc.devRef .tc main_v38)) Facts₀.shapeCasts_S128_S1x128 := by
  simp only [hostOps0_14]
  after_results
  all_goals rfl

theorem s14_c12 (V : Valuation τ sig (Elt Ideal)) :
    StableHlo.after (hostOps0_14 (F := Ideal)) V (Proc.devRef .tc main_c_12) = constantI S_ 32 0#32 := by
  simp only [hostOps0_14]
  after_results
  all_goals rfl

theorem s15_v40 (V : Valuation τ sig (Elt Ideal)) :
    StableHlo.after (hostOps0_15 (F := Ideal)) V (Proc.devRef .tc main_v40) = pad S128x32 ![0, 0] ![32, 0] ![0, 0] (V (Proc.devRef .tc main_arg6)) (sitofp (F := Ideal) .f32 (V (Proc.devRef .tc main_c_12))) Facts₀.pads_S96x32_S128x32_0320_000 Facts₀.h_S_ := by
  simp only [hostOps0_15]
  after_results
  all_goals rfl

theorem s16_v41 (V : Valuation τ sig (Elt Ideal)) :
    StableHlo.after (hostOps0_16 (F := Ideal)) V (Proc.devRef .tc main_v41) = rowB3 (V (Proc.devRef .tc main_arg7)) := by
  simp only [hostOps0_16]
  after_results
  all_goals rfl

/-! ## The walk -/

variable (m : (ℓ : Loc nD τ sig) → Buf (Elt Ideal) ℓ) (ρ : Dev nD → PrngReg) (c : Dev nD)

/-- The source words with the self-loops, after the first stretch. -/
theorem W1_v3 : W1 m ρ c (Proc.devRef .tc main_v3) = srcK (m ((c : Thread nD τ).loc main_arg1)) := s0_v3 (W0 m ρ c)
/-- The target words with the self-loops, after the first stretch. -/
theorem W1_v6 : W1 m ρ c (Proc.devRef .tc main_v6) = dstK (m ((c : Thread nD τ).loc main_arg1)) := s0_v6 (W0 m ρ c)
theorem W2_v3 : W2 m ρ c (Proc.devRef .tc main_v3) = srcK (m ((c : Thread nD τ).loc main_arg1)) :=
  (W2_of m ρ c main_v3 (by decide)).trans (W1_v3 m ρ c)
theorem W2_v6 : W2 m ρ c (Proc.devRef .tc main_v6) = dstK (m ((c : Thread nD τ).loc main_arg1)) :=
  (W2_of m ρ c main_v6 (by decide)).trans (W1_v6 m ρ c)
/-- The argsort of the target words. -/
theorem W2_v7 : W2 m ρ c (Proc.devRef .tc main_v7) = orderOf (dstK (m ((c : Thread nD τ).loc main_arg1))) :=
  (s1_v7 (W1 m ρ c)).trans (congrArg orderOf (W1_v6 m ρ c))

/-- The source words in sorted order, at the first region's entry. -/
theorem W17_v14 : W17 m ρ c (Proc.devRef .tc main_v14)
    = gatherBy (srcK (m ((c : Thread nD τ).loc main_arg1))) (orderOf (dstK (m ((c : Thread nD τ).loc main_arg1)))) :=
  (W17_eq_W3 m ρ c main_v14 (by decide)).trans ((s2_v14 (W2 m ρ c)).trans (by rw [W2_v3, W2_v7]))
/-- The target words in sorted order, at the first region's entry. -/
theorem W17_v21 : W17 m ρ c (Proc.devRef .tc main_v21)
    = gatherBy (dstK (m ((c : Thread nD τ).loc main_arg1))) (orderOf (dstK (m ((c : Thread nD τ).loc main_arg1)))) :=
  (W17_eq_W3 m ρ c main_v21 (by decide)).trans ((s2_v21 (W2 m ρ c)).trans (by rw [W2_v6, W2_v7]))

/-- The scales, one per node. -/
theorem W4_v31 : W4 m ρ c (Proc.devRef .tc main_v31)
    = dinvArr (degOf (gatherBy (dstK (m ((c : Thread nD τ).loc main_arg1))) (orderOf (dstK (m ((c : Thread nD τ).loc main_arg1)))))) := by
  refine (s3_v31 (W3 m ρ c)).trans ?_
  rw [show W3 m ρ c (Proc.devRef .tc main_v27) = _ from s2_v27 (W2 m ρ c),
    show W3 m ρ c (Proc.devRef .tc main_v30) = _ from s2_v30 (W2 m ρ c),
    show W3 m ρ c (Proc.devRef .tc main_cst_6) = _ from s2_cst6 (W2 m ρ c), W2_v6, W2_v7]
  rfl
/-- The scales as a column, at the first region's entry. -/
theorem W17_v32 : W17 m ρ c (Proc.devRef .tc main_v32)
    = dinvCol (degOf (gatherBy (dstK (m ((c : Thread nD τ).loc main_arg1))) (orderOf (dstK (m ((c : Thread nD τ).loc main_arg1)))))) :=
  (W17_eq_W5 m ρ c main_v32 (by decide)).trans ((s4_v32 (W4 m ρ c)).trans (by rw [W4_v31]; rfl))

/-- The first weight matrix padded, at the first region's entry. -/
theorem W17_v33 : W17 m ρ c (Proc.devRef .tc main_v33) = padW1 (m ((c : Thread nD τ).loc main_arg2)) :=
  (W17_eq_W6 m ρ c main_v33 (by decide)).trans ((s5_v33 (W5 m ρ c)).trans (by
    rw [W5_eq_W0 m ρ c main_arg2 (by decide), show W5 m ρ c (Proc.devRef .tc main_c_7) = _ from s4_c7 (W4 m ρ c)]; rfl))
/-- The first bias padded, as a row. -/
theorem W17_v35 : W17 m ρ c (Proc.devRef .tc main_v35) = padB (m ((c : Thread nD τ).loc main_arg3)) :=
  (W17_eq_W9 m ρ c main_v35 (by decide)).trans ((s8_v35 (W8 m ρ c)).trans (by
    rw [show W8 m ρ c (Proc.devRef .tc main_v34) = _ from s7_v34 (W7 m ρ c),
      W7_eq_W0 m ρ c main_arg3 (by decide), show W7 m ρ c (Proc.devRef .tc main_c_8) = _ from s6_c8 (W6 m ρ c)]; rfl))
/-- The second weight matrix padded. -/
theorem W17_v37 : W17 m ρ c (Proc.devRef .tc main_v37) = padW2 (m ((c : Thread nD τ).loc main_arg4)) :=
  (W17_eq_W12 m ρ c main_v37 (by decide)).trans ((s11_v37 (W11 m ρ c)).trans (by
    rw [W11_of m ρ c main_v36 (by decide), show W10 m ρ c (Proc.devRef .tc main_v36) = _ from s9_v36 (W9 m ρ c),
      W9_eq_W0 m ρ c main_arg4 (by decide), show W9 m ρ c (Proc.devRef .tc main_c_9) = _ from s8_c9 (W8 m ρ c),
      show W11 m ρ c (Proc.devRef .tc main_c_10) = _ from s10_c10 (W10 m ρ c)]; rfl))
/-- The second bias padded, as a row. -/
theorem W17_v39 : W17 m ρ c (Proc.devRef .tc main_v39) = padB (m ((c : Thread nD τ).loc main_arg5)) :=
  (W17_eq_W15 m ρ c main_v39 (by decide)).trans ((s14_v39 (W14 m ρ c)).trans (by
    rw [show W14 m ρ c (Proc.devRef .tc main_v38) = _ from s13_v38 (W13 m ρ c),
      W13_eq_W0 m ρ c main_arg5 (by decide), show W13 m ρ c (Proc.devRef .tc main_c_11) = _ from s12_c11 (W12 m ρ c)]; rfl))
/-- The third weight matrix padded. -/
theorem W17_v40 : W17 m ρ c (Proc.devRef .tc main_v40) = padW3 (m ((c : Thread nD τ).loc main_arg6)) :=
  (W17_eq_W16 m ρ c main_v40 (by decide)).trans ((s15_v40 (W15 m ρ c)).trans (by
    rw [W15_eq_W0 m ρ c main_arg6 (by decide), show W15 m ρ c (Proc.devRef .tc main_c_12) = _ from s14_c12 (W14 m ρ c)]; rfl))
/-- The last bias as a row. -/
theorem W17_v41 : W17 m ρ c (Proc.devRef .tc main_v41) = rowB3 (m ((c : Thread nD τ).loc main_arg7)) :=
  (s16_v41 (W16 m ρ c)).trans (by rw [W16_eq_W0 m ρ c main_arg7 (by decide)])
/-- The node features are as launched. -/
theorem W17_arg0 : W17 m ρ c (Proc.devRef .tc main_arg0) = m ((c : Thread nD τ).loc main_arg0) :=
  W17_eq_W0 m ρ c main_arg0 (by decide)

end Cert.KernelIdeal.PrefixValue
-- ==== Proof.PrefixArgsort.lean ====
/-
  An argsort read at a position, and the row its words address.

  A sort of keys `x` carrying the positions `0, 1, …, n - 1` (an iota) returns, at position `e`, the word of the
  position `σ e` the stable sort takes its `e`-th element from. That word is non-negative as a signed word while
  `n < 2^31`, so the wrap of negative words leaves it alone and, being below `n`, the clamp into `[0, n - 1]`
  is the identity: as a row index the word addresses row `σ e` itself.
-/
import Idealize.ShloMosaic.Lib.SortFacts
import Idealize.ShloMosaic.Lib.ValueIdx
import proofs.«123766_j46617575031251_2_alg».proof.Proof.Spec

namespace Cert.KernelIdeal.PrefixValue

open Idealize.ShloMosaic ValueIdx

/-- The rank-1 index at a coordinate, in its two spellings. -/
theorem ofFin_eq_ix1 {n : Nat} (k : Fin n) : (Shape.Idx.ofFin k : (⟨1, ![n]⟩ : Shape).Idx) = ix1 k := by
  funext d
  match d with
  | ⟨0, _⟩ => exact Fin.ext rfl

/-- The carried iota of a two-operand sort along the one axis of a vector: position `e` holds the word of the
    position the stable sort takes its `e`-th element from. -/
theorem sort2_iota_apply {n : Nat} {α : Type} (cmp : α × BitVec 32 → α × BitVec 32 → BitVec 1)
    (x : (⟨1, ![n]⟩ : Shape).Idx → α) (e : Fin n) :
    (Host.sort2 ⟨1, ![n]⟩ 0 cmp x (iotaInDim ⟨1, ![n]⟩ 32 0)).2 (ix1 e)
      = BitVec.ofNat 32 (sortedFrom (fun k k' : Fin n =>
          cmp (x (Shape.Idx.ofFin k), iotaInDim ⟨1, ![n]⟩ 32 0 (Shape.Idx.ofFin k))
            (x (Shape.Idx.ofFin k'), iotaInDim ⟨1, ![n]⟩ 32 0 (Shape.Idx.ofFin k')) == 1#1) e).val := by
  unfold Host.sort2
  simp [iotaInDim]

/-- The first operand of the same sort: position `e` holds the key of the position the sort takes it from. -/
theorem sort2_keys_apply {n : Nat} {α β : Type} (cmp : α × β → α × β → BitVec 1)
    (x : (⟨1, ![n]⟩ : Shape).Idx → α) (y : (⟨1, ![n]⟩ : Shape).Idx → β) (e : Fin n) :
    (Host.sort2 ⟨1, ![n]⟩ 0 cmp x y).1 (ix1 e)
      = x (Shape.Idx.ofFin (sortedFrom (fun k k' : Fin n =>
          cmp (x (Shape.Idx.ofFin k), y (Shape.Idx.ofFin k)) (x (Shape.Idx.ofFin k'), y (Shape.Idx.ofFin k')) == 1#1) e)) := by
  unfold Host.sort2
  simp

/-- The word of a position below `2^31` reads back, signed, as the position. -/
theorem toInt_ofNat_of_lt {k : Nat} (hk : k < 2 ^ 31) : (BitVec.ofNat 32 k).toInt = (k : Int) := by
  have h : (BitVec.ofNat 32 k).toNat = k := by
    rw [BitVec.toNat_ofNat]; exact Nat.mod_eq_of_lt (by omega)
  rw [BitVec.toInt_eq_toNat_of_lt (by rw [h]; omega), h]

/-- The word of a position is not negative, so the wrap of negative words leaves it. -/
theorem wrap_ofNat {k : Nat} (hk : k < 2 ^ 31) (nW : BitVec 32) : Gcn.wrap nW (BitVec.ofNat 32 k) = BitVec.ofNat 32 k := by
  unfold Gcn.wrap IntOp.cmpi
  have h : (BitVec.ofNat 32 k).slt 0#32 = false := by
    rw [BitVec.slt, toInt_ofNat_of_lt hk]
    simp
  simp only [h]
  exact ValueIdx.select_zero _ _

/-- As a row index into `n` rows (`n < 2^31`), the word of position `k < n` — wrapped, read signed, clamped — is
    row `k`. -/
theorem nodeOf_wrap_ofNat {n : Nat} (hn : 0 < n) (hn' : n < 2 ^ 31) (nW : BitVec 32) (k : Fin n) :
    RowIndexed.nodeOf n hn (Gcn.wrap nW (BitVec.ofNat 32 k.val)) = k := by
  have hk : k.val < 2 ^ 31 := lt_trans k.isLt hn'
  rw [wrap_ofNat hk]
  unfold RowIndexed.nodeOf
  refine Fin.ext ?_
  show min (BitVec.ofNat 32 k.val).toInt.toNat (n - 1) = k.val
  rw [toInt_ofNat_of_lt hk]
  have := k.isLt
  simp only [Int.toNat_natCast]
  omega

/-- The stable sort's source map is a permutation of the positions. -/
theorem sortedFrom_bijective {n : Nat} (before : Fin n → Fin n → Bool) : Function.Bijective (sortedFrom before) :=
  ⟨sortedFrom_injective before, sortedFrom_surjective before⟩

end Cert.KernelIdeal.PrefixValue
-- ==== Proof.PrefixRead.lean ====
/-
  The host's whole-array values before the first region, read at an index.

  * A vector gathered by the argsort of keys reads, at sorted position `e`, the vector at the position the sort takes
    `e` from: the order's word at `e` is that position's word, which as a row index addresses the position itself.
  * The scatter of `1.0` by the target words is, at node `i`, the number of target words landing on `i`.
  * The scale at a node is `rsqrt (max d 1.0)` where the degree `d` is positive and zero elsewhere.
  * A pad with zeros at the high end reads the operand inside its extents and zero outside.
-/
import proofs.«123766_j46617575031251_2_alg».proof.Proof.PrefixDefs
import proofs.«123766_j46617575031251_2_alg».proof.Proof.PrefixArgsort
import proofs.«123766_j46617575031251_2_alg».proof.Proof.LibRowIndexed
import proofs.«123766_j46617575031251_2_alg».proof.Proof.LibKeepdimsColumn
import proofs.«123766_j46617575031251_2_alg».proof.Proof.Spec
import Idealize.ShloMosaic.Lib.KernelVsHost
import Idealize.ShloMosaic.Lib.ValueLayout

noncomputable section

namespace Cert.KernelIdeal.PrefixValue

open Idealize.ShloMosaic
open Idealize.ShloMosaic.ValueIdx
open Cert.KernelIdeal Cert.KernelIdeal.Facts₀

variable [Facts₀]

/-! ## The argsort and the gathers -/

/-- The argsort's word at sorted position `e` is the word of the position the stable sort takes `e` from. -/
theorem orderOf_apply (keys : IVec S850000 32) (e : Fin 850000) :
    orderOf keys (ix1 e)
      = BitVec.ofNat 32 (sortedFrom (fun k k' : Fin 850000 =>
          comparator_i32_i32_d0 (keys (Shape.Idx.ofFin k), iotaInDim S850000 32 0 (Shape.Idx.ofFin k))
            (keys (Shape.Idx.ofFin k'), iotaInDim S850000 32 0 (Shape.Idx.ofFin k')) == 1#1) e).val :=
  sort2_iota_apply comparator_i32_i32_d0 keys e

/-- The index column at row `e` is the order's word at `e`, wrapped. -/
theorem wrapCol_apply (o : IVec S850000 32) (e : Fin 850000) :
    wrapCol o (ix2 e (0 : Fin 1)) = Gcn.wrap 850000#32 (o (ix1 e)) := by
  unfold wrapCol
  rw [RowIndexed.col_apply]
  show Scalar.select (IntOp.cmpi .slt (o (ix1 e)) (broadcastInDim S850000 ![] bcast_S_S850000 (constantI S_ 32 0#32) (ix1 e)))
      (IntOp.addi (o (ix1 e)) (broadcastInDim S850000 ![] bcast_S_S850000 (constantI S_ 32 850000#32) (ix1 e))) (o (ix1 e)) = _
  rw [RowIndexed.bcast_scalar_apply, RowIndexed.bcast_scalar_apply]
  rfl

/-- A gathered vector at row `e` is the vector at the row the order's wrapped word addresses. -/
theorem gatherBy_apply (x o : IVec S850000 32) (e : Fin 850000) :
    gatherBy x o (ix1 e) = x (ix1 (RowIndexed.nodeOf 850000 (by norm_num) (Gcn.wrap 850000#32 (o (ix1 e))))) := by
  unfold gatherBy
  refine (RowIndexed.vecGather_apply (N := 850000) (E := 850000) (by norm_num)
    gather_S850000_S850000x1_S850000_n_0_n_n_0_1_1_wf x (wrapCol o) e).trans ?_
  rw [wrapCol_apply]

/-- A vector gathered by the argsort of keys reads, at sorted position `e`, the vector at the position the stable
    sort of the keys takes `e` from. -/
theorem gatherBy_orderOf_apply (x keys : IVec S850000 32) (e : Fin 850000) :
    gatherBy x (orderOf keys) (ix1 e)
      = x (ix1 (sortedFrom (fun k k' : Fin 850000 =>
          comparator_i32_i32_d0 (keys (Shape.Idx.ofFin k), iotaInDim S850000 32 0 (Shape.Idx.ofFin k))
            (keys (Shape.Idx.ofFin k'), iotaInDim S850000 32 0 (Shape.Idx.ofFin k')) == 1#1) e)) := by
  rw [gatherBy_apply, orderOf_apply]
  generalize sortedFrom _ e = k
  rw [nodeOf_wrap_ofNat (by norm_num) (by norm_num)]

/-! ## The degrees and the scales -/

/-- The degree of node `i`: the word `1.0` summed over the target words landing on `i`. -/
theorem degOf_apply (t : IVec S850000 32) (i : Fin 50000) :
    degOf t (ix1 i) = Gcn.deg (fun e : Fin 850000 => t (ix1 e)) i := by
  unfold degOf
  rw [RowIndexed.scatterAdd_ideal]
  refine (RowIndexed.vecScatter_add_apply (N := 50000) (E := 850000)
    scatter_S50000_S850000x1_S850000_n_0_0_1_wf _ _ _ i).trans ?_
  rw [RowIndexed.bcast_scalar_apply, ValueIdx.constant_apply, Ideal.ofBits_zero_f32, zero_add]
  unfold Gcn.deg
  refine Finset.sum_congr (Finset.filter_congr fun e _ => by rw [RowIndexed.col_apply]) fun e _ => ?_
  rw [RowIndexed.bcast_scalar_apply, ValueIdx.constant_apply]

/-- The scale of a node from its degree. -/
theorem dinvArr_apply (d : FVec Ideal S50000 .f32) (i : Fin 50000) :
    dinvArr d (ix1 i) = Gcn.dinvOf (d (ix1 i)) := by
  unfold dinvArr degPos degRsqrt
  show Scalar.select (Ideal.cmp .ogt (d (ix1 i)) (broadcastInDim S50000 ![] bcast_S_S50000 (constant (F := Ideal) S_ .f32 0x00000000#32) (ix1 i)))
      (Ideal.rsqrt (max (d (ix1 i)) (broadcastInDim S50000 ![] bcast_S_S50000 (constant (F := Ideal) S_ .f32 0x3F800000#32) (ix1 i))))
      (broadcastInDim S50000 ![] bcast_S_S50000 (constant (F := Ideal) S_ .f32 0x00000000#32) (ix1 i)) = _
  rw [RowIndexed.bcast_scalar_apply, RowIndexed.bcast_scalar_apply, ValueIdx.constant_apply, ValueIdx.constant_apply,
    Ideal.ofBits_zero_f32]
  rfl

/-- The scales kept as a column read the scale of node `i` at `(i, 0)`. -/
theorem dinvCol_apply (d : FVec Ideal S50000 .f32) (i : Fin 50000) :
    dinvCol d (ix2 i (0 : Fin 1)) = Gcn.dinvOf (d (ix1 i)) := by
  unfold dinvCol
  rw [KeepdimsColumn.shapeCast_a_a1_apply, dinvArr_apply]

/-! ## Pads with zeros at the high end -/

/-- The padding value is zero. -/
theorem padZero_apply (j : S_.Idx) : padZero j = 0 := by
  show (((0#32 : BitVec 32).toInt : ℝ) : EReal) = 0
  simp

/-- A matrix padded at the high end of both axes reads the operand inside its extents and the padding value outside. -/
theorem pad_hi2_apply {α : Type} {a b a' b' : Nat} (hi : Fin 2 → Nat) (x : (⟨2, ![a, b]⟩ : Shape).Idx → α) {u : Shape}
    (v : u.Idx → α) (h : (⟨2, ![a, b]⟩ : Shape).Pads ![0, 0] hi ![0, 0] ⟨2, ![a', b']⟩) (hu : 0 < u.numel)
    (k : Fin a') (q : Fin b') :
    pad ⟨2, ![a', b']⟩ ![0, 0] hi ![0, 0] x v h hu (ix2 k q)
      = if hh : k.val < a ∧ q.val < b then x (ix2 ⟨k.val, hh.1⟩ ⟨q.val, hh.2⟩) else v (Shape.Idx.first hu) := by
  by_cases hh : k.val < a ∧ q.val < b
  · rw [dif_pos hh]
    refine pad_apply_of_inside _ _ _ x v h hu (ix2 k q) (ix2 ⟨k.val, hh.1⟩ ⟨q.val, hh.2⟩) fun ax => ?_
    match ax with
    | ⟨0, _⟩ => show k.val = 0 + k.val * (0 + 1); omega
    | ⟨1, _⟩ => show q.val = 0 + q.val * (0 + 1); omega
  · rw [dif_neg hh]
    rcases not_and_or.mp hh with h0 | h1
    · refine pad_apply_of_not_inside _ _ _ x v h hu (ix2 k q) (0 : Fin 2) fun hin => h0 ?_
      have := hin.2.2
      have e : (k.val - 0) / (0 + 1) < a := this
      simpa using e
    · refine pad_apply_of_not_inside _ _ _ x v h hu (ix2 k q) (1 : Fin 2) fun hin => h1 ?_
      have := hin.2.2
      have e : (q.val - 0) / (0 + 1) < b := this
      simpa using e

/-- A vector padded at the high end reads the operand inside its extent and the padding value outside. -/
theorem pad_hi1_apply {α : Type} {a a' : Nat} (hi : Fin 1 → Nat) (x : (⟨1, ![a]⟩ : Shape).Idx → α) {u : Shape}
    (v : u.Idx → α) (h : (⟨1, ![a]⟩ : Shape).Pads ![0] hi ![0] ⟨1, ![a']⟩) (hu : 0 < u.numel) (q : Fin a') :
    pad ⟨1, ![a']⟩ ![0] hi ![0] x v h hu (ix1 q)
      = if hh : q.val < a then x (ix1 ⟨q.val, hh⟩) else v (Shape.Idx.first hu) := by
  by_cases hh : q.val < a
  · rw [dif_pos hh]
    refine pad_apply_of_inside _ _ _ x v h hu (ix1 q) (ix1 ⟨q.val, hh⟩) fun ax => ?_
    match ax with
    | ⟨0, _⟩ => show q.val = 0 + q.val * (0 + 1); omega
  · rw [dif_neg hh]
    refine pad_apply_of_not_inside _ _ _ x v h hu (ix1 q) (0 : Fin 1) fun hin => hh ?_
    have := hin.2.2
    have e : (q.val - 0) / (0 + 1) < a := this
    simpa using e

/-- The first weight matrix padded. -/
theorem padW1_apply (x : FVec Ideal S128x96 .f32) (k q : Fin 128) :
    padW1 x (ix2 k q) = Gcn.padMat (fun (k : Fin 128) (q : Fin 96) => x (ix2 k q)) k q := by
  unfold padW1 Gcn.padMat
  rw [pad_hi2_apply]
  simp only [padZero_apply]

/-- The second weight matrix padded, columns then rows. -/
theorem padW2_apply (x : FVec Ideal S96x96 .f32) (k q : Fin 128) :
    padW2 x (ix2 k q) = Gcn.padMat (fun (k : Fin 96) (q : Fin 96) => x (ix2 k q)) k q := by
  unfold padW2 Gcn.padMat
  rw [pad_hi2_apply]
  by_cases hk : k.val < 96
  · have hq : q.val < 128 := q.isLt
    rw [dif_pos ⟨hk, hq⟩, pad_hi2_apply]
    simp only [padZero_apply, hk, true_and]
  · rw [dif_neg (fun hh => hk hh.1), dif_neg (fun hh => hk hh.1)]
    exact padZero_apply _

/-- The third weight matrix padded. -/
theorem padW3_apply (x : FVec Ideal S96x32 .f32) (k : Fin 128) (q : Fin 32) :
    padW3 x (ix2 k q) = Gcn.padMat (fun (k : Fin 96) (q : Fin 32) => x (ix2 k q)) k q := by
  unfold padW3 Gcn.padMat
  rw [pad_hi2_apply]
  simp only [padZero_apply]

/-- A bias padded, as a row. -/
theorem padB_apply (x : FVec Ideal S96 .f32) (q : Fin 128) :
    padB x (ix2 (0 : Fin 1) q) = Gcn.padVec (fun q : Fin 96 => x (ix1 q)) q := by
  unfold padB Gcn.padVec
  rw [ValueIdx.shapeCast_a_1a_apply, pad_hi1_apply]
  simp only [padZero_apply]

/-- The last bias as a row. -/
theorem rowB3_apply (x : FVec Ideal S32 .f32) (q : Fin 32) : rowB3 x (ix2 (0 : Fin 1) q) = x (ix1 q) := by
  unfold rowB3
  rw [ValueIdx.shapeCast_a_1a_apply]

end Cert.KernelIdeal.PrefixValue
-- ==== Proof.PrefixValue.lean ====
/-
  What the buffers the regions read hold when the first region is entered, index by index, in terms of the argument
  arrays: the edge words in the argsort's order, the nodes' scales from the sorted target words, the weights and
  biases padded with zeros.
-/
import proofs.«123766_j46617575031251_2_alg».proof.Proof.PrefixWalk
import proofs.«123766_j46617575031251_2_alg».proof.Proof.PrefixRead

noncomputable section

namespace Cert.KernelIdeal.PrefixValue

open Idealize.ShloMosaic Idealize.ShloMosaic.TcCoe Idealize.ShloMosaic.Tactic
open Idealize.ShloMosaic.ValueIdx
open Cert.KernelIdeal Cert.KernelIdeal.Gen
open Cert.KernelIdeal.Facts₀

/-- The argsort's source map is a permutation of the edge positions. -/
theorem sigma_bijective (ei : IVec S2x800000 32) : Function.Bijective (sigma ei) := sortedFrom_bijective _

variable (m : (ℓ : Loc nD τ sig) → Buf (Elt Ideal) ℓ) (ρ : Dev nD → PrngReg) (c : Dev nD)

/-- Sorted position `e` of the source words holds the source word of position `sigma e`. -/
theorem pre_v14 (e : Fin 850000) :
    Gen.W17 (F := Ideal) m ρ c (Proc.devRef .tc main_v14) (ix1 e) = srcK (m ((c : Thread nD τ).loc main_arg1)) (ix1 (sigma (m ((c : Thread nD τ).loc main_arg1)) e)) := by
  rw [W17_v14]
  exact gatherBy_orderOf_apply _ _ e

/-- Sorted position `e` of the target words holds the target word of position `sigma e`. -/
theorem pre_v21 (e : Fin 850000) :
    Gen.W17 (F := Ideal) m ρ c (Proc.devRef .tc main_v21) (ix1 e) = dstK (m ((c : Thread nD τ).loc main_arg1)) (ix1 (sigma (m ((c : Thread nD τ).loc main_arg1)) e)) := by
  rw [W17_v21]
  exact gatherBy_orderOf_apply _ _ e

/-- The scale column holds, at `(i, 0)`, the scale of node `i` computed from the sorted target words. -/
theorem pre_v32 (i : Fin 50000) :
    Gen.W17 (F := Ideal) m ρ c (Proc.devRef .tc main_v32) (ix2 i (0 : Fin 1))
      = Gcn.dinv (fun e : Fin 850000 => dstK (m ((c : Thread nD τ).loc main_arg1)) (ix1 (sigma (m ((c : Thread nD τ).loc main_arg1)) e))) i := by
  rw [W17_v32, dinvCol_apply, degOf_apply]
  unfold Gcn.dinv
  exact congrArg (fun t : Fin 850000 → BitVec 32 => Gcn.dinvOf (Gcn.deg t i))
    (funext fun e => gatherBy_orderOf_apply _ _ e)

/-- The first weight matrix, `[128, 96]`, padded with zero columns to `[128, 128]`. -/
theorem pre_v33 (k q : Fin 128) :
    Gen.W17 (F := Ideal) m ρ c (Proc.devRef .tc main_v33) (ix2 k q)
      = Gcn.padMat (fun (k : Fin 128) (q : Fin 96) => (m ((c : Thread nD τ).loc main_arg2)) (ix2 k q)) k q := by
  rw [W17_v33]
  exact padW1_apply _ k q

/-- The first bias padded with zeros to a row of 128. -/
theorem pre_v35 (q : Fin 128) :
    Gen.W17 (F := Ideal) m ρ c (Proc.devRef .tc main_v35) (ix2 (0 : Fin 1) q)
      = Gcn.padVec (fun q : Fin 96 => (m ((c : Thread nD τ).loc main_arg3)) (ix1 q)) q := by
  rw [W17_v35]
  exact padB_apply _ q

/-- The second weight matrix, `[96, 96]`, padded with zero columns and zero rows to `[128, 128]`. -/
theorem pre_v37 (k q : Fin 128) :
    Gen.W17 (F := Ideal) m ρ c (Proc.devRef .tc main_v37) (ix2 k q)
      = Gcn.padMat (fun (k : Fin 96) (q : Fin 96) => (m ((c : Thread nD τ).loc main_arg4)) (ix2 k q)) k q := by
  rw [W17_v37]
  exact padW2_apply _ k q

/-- The second bias padded with zeros to a row of 128. -/
theorem pre_v39 (q : Fin 128) :
    Gen.W17 (F := Ideal) m ρ c (Proc.devRef .tc main_v39) (ix2 (0 : Fin 1) q)
      = Gcn.padVec (fun q : Fin 96 => (m ((c : Thread nD τ).loc main_arg5)) (ix1 q)) q := by
  rw [W17_v39]
  exact padB_apply _ q

/-- The third weight matrix, `[96, 32]`, padded with zero rows to `[128, 32]`. -/
theorem pre_v40 (k : Fin 128) (q : Fin 32) :
    Gen.W17 (F := Ideal) m ρ c (Proc.devRef .tc main_v40) (ix2 k q)
      = Gcn.padMat (fun (k : Fin 96) (q : Fin 32) => (m ((c : Thread nD τ).loc main_arg6)) (ix2 k q)) k q := by
  rw [W17_v40]
  exact padW3_apply _ k q

/-- The last bias as a row. -/
theorem pre_v41 (q : Fin 32) :
    Gen.W17 (F := Ideal) m ρ c (Proc.devRef .tc main_v41) (ix2 (0 : Fin 1) q) = (m ((c : Thread nD τ).loc main_arg7)) (ix1 q) := by
  rw [W17_v41]
  exact rowB3_apply _ q

/-- The node features are as launched. -/
theorem pre_arg0 : Gen.W17 (F := Ideal) m ρ c (Proc.devRef .tc main_arg0) = (m ((c : Thread nD τ).loc main_arg0)) :=
  W17_arg0 m ρ c

end Cert.KernelIdeal.PrefixValue
-- ==== Proof.KernelValue.lean ====
/-
  The idealized kernel's result is the kernel's arrangement of the network, `Gcn.kerNet`, of the argument arrays: the
  chain through the run gives the result as an expression of what the first region finds, and before the first region
  the host has put there the sorted edge words, the dinv column of the sorted target words, and the weights and biases
  padded with zeros.
-/
import proofs.«123766_j46617575031251_2_alg».proof.Proof.KernelChain
import proofs.«123766_j46617575031251_2_alg».proof.Proof.PrefixValue

set_option maxRecDepth 16384

noncomputable section

namespace Cert.KernelIdeal.NetValue

open Cert.KernelIdeal Cert.KernelIdeal.Gen Cert.KernelIdeal.PrefixValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The result array after the run, entry by entry, as the kernel's arrangement of the network on the arguments, with the
    edge words taken in the order the argsort of the target words gives. -/
theorem kernel_value (i : Fin 50000) (k : Fin 32) :
    W26 m ρ c (Proc.devRef .tc main_v80) (ix2 i k)
      = Gcn.kerNet (N := 50000) (E := 850000) (K := 128) (H := 96) (Hp := 128) (C := 32) (by decide) 50000#32
          (fun (i : Fin 50000) (q : Fin 128) => m ((c : Thread nD τ).loc main_arg0) (ix2 i q))
          (fun (k : Fin 128) (q : Fin 96) => m ((c : Thread nD τ).loc main_arg2) (ix2 k q)) (fun q : Fin 96 => m ((c : Thread nD τ).loc main_arg3) (ix1 q))
          (fun (k : Fin 96) (q : Fin 96) => m ((c : Thread nD τ).loc main_arg4) (ix2 k q)) (fun q : Fin 96 => m ((c : Thread nD τ).loc main_arg5) (ix1 q))
          (fun (k : Fin 96) (q : Fin 32) => m ((c : Thread nD τ).loc main_arg6) (ix2 k q)) (fun q : Fin 32 => m ((c : Thread nD τ).loc main_arg7) (ix1 q))
          (fun e : Fin 850000 => srcK (m ((c : Thread nD τ).loc main_arg1)) (ix1 (sigma (m ((c : Thread nD τ).loc main_arg1)) e)))
          (fun e : Fin 850000 => dstK (m ((c : Thread nD τ).loc main_arg1)) (ix1 (sigma (m ((c : Thread nD τ).loc main_arg1)) e))) i k := by
  rw [Chain.a26]
  unfold Chain.outK Chain.ag3 Chain.xs3 Chain.hd2 Chain.ag2 Chain.xs2 Chain.hd1 Chain.ag1 Chain.xs1 Chain.dvec Chain.sW Chain.tW
  rw [show (fun e : Fin 850000 => W17 m ρ c (Proc.devRef .tc main_v14) (ix1 e)) = (fun e : Fin 850000 => srcK (m ((c : Thread nD τ).loc main_arg1)) (ix1 (sigma (m ((c : Thread nD τ).loc main_arg1)) e))) from funext fun e => pre_v14 m ρ c e,
    show (fun e : Fin 850000 => W17 m ρ c (Proc.devRef .tc main_v21) (ix1 e)) = (fun e : Fin 850000 => dstK (m ((c : Thread nD τ).loc main_arg1)) (ix1 (sigma (m ((c : Thread nD τ).loc main_arg1)) e))) from funext fun e => pre_v21 m ρ c e,
    show (fun i : Fin 50000 => W17 m ρ c (Proc.devRef .tc main_v32) (ix2 i 0)) = Gcn.dinv (fun e : Fin 850000 => dstK (m ((c : Thread nD τ).loc main_arg1)) (ix1 (sigma (m ((c : Thread nD τ).loc main_arg1)) e))) from funext fun i => pre_v32 m ρ c i,
    show (fun (k : Fin 128) (q : Fin 128) => W17 m ρ c (Proc.devRef .tc main_v33) (ix2 k q)) = Gcn.padMat (fun (k : Fin 128) (q : Fin 96) => m ((c : Thread nD τ).loc main_arg2) (ix2 k q)) from funext fun k => funext fun q => pre_v33 m ρ c k q,
    show (fun q : Fin 128 => W17 m ρ c (Proc.devRef .tc main_v35) (ix2 0 q)) = Gcn.padVec (fun q : Fin 96 => m ((c : Thread nD τ).loc main_arg3) (ix1 q)) from funext fun q => pre_v35 m ρ c q,
    show (fun (k : Fin 128) (q : Fin 128) => W17 m ρ c (Proc.devRef .tc main_v37) (ix2 k q)) = Gcn.padMat (fun (k : Fin 96) (q : Fin 96) => m ((c : Thread nD τ).loc main_arg4) (ix2 k q)) from funext fun k => funext fun q => pre_v37 m ρ c k q,
    show (fun q : Fin 128 => W17 m ρ c (Proc.devRef .tc main_v39) (ix2 0 q)) = Gcn.padVec (fun q : Fin 96 => m ((c : Thread nD τ).loc main_arg5) (ix1 q)) from funext fun q => pre_v39 m ρ c q,
    show (fun (k : Fin 128) (q : Fin 32) => W17 m ρ c (Proc.devRef .tc main_v40) (ix2 k q)) = Gcn.padMat (fun (k : Fin 96) (q : Fin 32) => m ((c : Thread nD τ).loc main_arg6) (ix2 k q)) from funext fun k => funext fun q => pre_v40 m ρ c k q,
    show (fun q : Fin 32 => W17 m ρ c (Proc.devRef .tc main_v41) (ix2 0 q)) = (fun q : Fin 32 => m ((c : Thread nD τ).loc main_arg7) (ix1 q)) from funext fun q => pre_v41 m ρ c q,
    pre_arg0 m ρ c]
  rfl

end Cert.KernelIdeal.NetValue

end
-- ==== Proof.LibJoinTwo.lean ====
/-
  Two arrays joined along an axis, as a function of the two arrays.

  `concatenate` takes its operands as a LIST of arrays with their shapes, and its side condition
  speaks of that list, so a rewriting pass may not touch the list without touching the side
  condition. For exactly two operands the same array is `joined t s₁ s₂ a h x y`, whose side
  condition `h` speaks of the two SHAPES only and whose operands `x`, `y` are ordinary arguments: a
  rewriting pass goes on into them. `joined_def` folds the one spelling into the other, by
  definition.
-/
import Idealize.ShloMosaic.PureOps.ShapeOps

noncomputable section

namespace Idealize.ShloMosaic

/-- Arrays `x` (shape `s₁`) and `y` (shape `s₂`) joined along axis `a` into shape `t`. -/
def joined {α : Type} (t s₁ s₂ : Shape) (a : Fin t.rank) (h : Shape.Concatenates [s₁, s₂] t a)
    (x : s₁.Idx → α) (y : s₂.Idx → α) : t.Idx → α :=
  concatenate t a [⟨s₁, x⟩, ⟨s₂, y⟩] h

/-- A `concatenate` of two operands is their join. -/
theorem joined_def {α : Type} (t s₁ s₂ : Shape) (a : Fin t.rank) (h : Shape.Concatenates [s₁, s₂] t a)
    (x : s₁.Idx → α) (y : s₂.Idx → α) :
    concatenate t a [⟨s₁, x⟩, ⟨s₂, y⟩] h = joined t s₁ s₂ a h x y := rfl

end Idealize.ShloMosaic

end
-- ==== Proof.LibFoldAppend.lean ====
/-
  A fold of host operations over a concatenation of two lists is the fold over the first list followed by the fold
  over the second: the contents after a line are the contents after its stretches, composed.
-/
import Idealize.ShloMosaic.Lib.StableHlo.Run

namespace LibFoldAppend

open Idealize.ShloMosaic Idealize.ShloMosaic.StableHlo

variable {nD : Nat} {τ : Topo} {sig : RefSig} {Val : EltTy → Type}

/-- Folding over `l₁ ++ l₂` from `V` is folding over `l₂` from the fold over `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end LibFoldAppend
-- ==== Proof.RefRunValueA.lean ====
/-
  The reference's host operations 0 to 6 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 0 to 6. -/
def LA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

set_option maxRecDepth 8192 in
set_option maxHeartbeats 2000000 in
/-- The contents after operations 0 to 6. -/
theorem stretch_A (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7) :
    (after (LA (F := F)) V (Proc.devRef .tc main_arg0) = x0)
      ∧ (after (LA (F := F)) V (Proc.devRef .tc main_arg2) = x2)
      ∧ (after (LA (F := F)) V (Proc.devRef .tc main_arg3) = x3)
      ∧ (after (LA (F := F)) V (Proc.devRef .tc main_arg4) = x4)
      ∧ (after (LA (F := F)) V (Proc.devRef .tc main_arg5) = x5)
      ∧ (after (LA (F := F)) V (Proc.devRef .tc main_arg6) = x6)
      ∧ (after (LA (F := F)) V (Proc.devRef .tc main_arg7) = x7)
      ∧ (after (LA (F := F)) V (Proc.devRef .tc main_v3) = ReadP.val_main_v3 (F := F) x1)
      ∧ (after (LA (F := F)) V (Proc.devRef .tc main_v6) = ReadP.val_main_v6 (F := F) x1) := by
  unfold LA
  refine ⟨?_, ?_, ?_, ?_, ?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg0, h_arg1, h_arg2, h_arg3, h_arg4, h_arg5, h_arg6, h_arg7]
   try rfl)

end Cert.ReferenceIdeal.RunValue

end
-- ==== Proof.RefRunValueB1.lean ====
/-
  The reference's host operations 7 to 24 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 7 to 24. -/
def LB1 : List (HloOp τ sig (Elt F)) :=
  [ binary main_arg0 main_arg2 main_v7 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select ]

set_option maxRecDepth 8192 in
set_option maxHeartbeats 2000000 in
/-- The contents after operations 7 to 24. -/
theorem stretch_B1 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg0 : V (Proc.devRef .tc main_arg0) = x0)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_v3 : V (Proc.devRef .tc main_v3) = ReadP.val_main_v3 (F := F) x1)
    (h_v6 : V (Proc.devRef .tc main_v6) = ReadP.val_main_v6 (F := F) x1) :
    (after (LB1 (F := F)) V (Proc.devRef .tc main_arg3) = x3)
      ∧ (after (LB1 (F := F)) V (Proc.devRef .tc main_arg4) = x4)
      ∧ (after (LB1 (F := F)) V (Proc.devRef .tc main_arg5) = x5)
      ∧ (after (LB1 (F := F)) V (Proc.devRef .tc main_arg6) = x6)
      ∧ (after (LB1 (F := F)) V (Proc.devRef .tc main_arg7) = x7)
      ∧ (after (LB1 (F := F)) V (Proc.devRef .tc main_v17) = ReadP.val_main_v17 (F := F) x1)
      ∧ (after (LB1 (F := F)) V (Proc.devRef .tc main_v3) = ReadP.val_main_v3 (F := F) x1)
      ∧ (after (LB1 (F := F)) V (Proc.devRef .tc main_v6) = ReadP.val_main_v6 (F := F) x1)
      ∧ (after (LB1 (F := F)) V (Proc.devRef .tc main_v7) = ReadP.val_main_v7 (F := F) x0 x2) := by
  unfold LB1
  refine ⟨?_, ?_, ?_, ?_, ?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg0, h_arg2, h_arg3, h_arg4, h_arg5, h_arg6, h_arg7, h_v3, h_v6]
   try rfl)

end Cert.ReferenceIdeal.RunValue

end
-- ==== Proof.RefRunValueB2.lean ====
/-
  The reference's host operations 25 to 44 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 25 to 44. -/
def LB2 : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)),
    unary main_v32 main_v33 (broadcastInDim S850000x1 ![0] bcast_S850000_S850000x1_0 : (⟨S850000, .f32⟩ : BufTy).Contents (Elt F) → (⟨S850000x1, .f32⟩ : BufTy).Contents (Elt F)) ]

set_option maxRecDepth 8192 in
set_option maxHeartbeats 2000000 in
/-- The contents after operations 25 to 44. -/
theorem stretch_B2 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_v17 : V (Proc.devRef .tc main_v17) = ReadP.val_main_v17 (F := F) x1)
    (h_v3 : V (Proc.devRef .tc main_v3) = ReadP.val_main_v3 (F := F) x1)
    (h_v6 : V (Proc.devRef .tc main_v6) = ReadP.val_main_v6 (F := F) x1)
    (h_v7 : V (Proc.devRef .tc main_v7) = ReadP.val_main_v7 (F := F) x0 x2) :
    (after (LB2 (F := F)) V (Proc.devRef .tc main_arg3) = x3)
      ∧ (after (LB2 (F := F)) V (Proc.devRef .tc main_arg4) = x4)
      ∧ (after (LB2 (F := F)) V (Proc.devRef .tc main_arg5) = x5)
      ∧ (after (LB2 (F := F)) V (Proc.devRef .tc main_arg6) = x6)
      ∧ (after (LB2 (F := F)) V (Proc.devRef .tc main_arg7) = x7)
      ∧ (after (LB2 (F := F)) V (Proc.devRef .tc main_v3) = ReadP.val_main_v3 (F := F) x1)
      ∧ (after (LB2 (F := F)) V (Proc.devRef .tc main_v33) = ReadP.val_main_v33 (F := F) x1)
      ∧ (after (LB2 (F := F)) V (Proc.devRef .tc main_v6) = ReadP.val_main_v6 (F := F) x1)
      ∧ (after (LB2 (F := F)) V (Proc.devRef .tc main_v7) = ReadP.val_main_v7 (F := F) x0 x2) := by
  unfold LB2
  refine ⟨?_, ?_, ?_, ?_, ?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg3, h_arg4, h_arg5, h_arg6, h_arg7, h_v17, h_v3, h_v6, h_v7]
   try rfl)

end Cert.ReferenceIdeal.RunValue

end
-- ==== Proof.RefRunValueB3.lean ====
/-
  The reference's host operations 45 to 65 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 45 to 65. -/
def LB3 : List (HloOp τ sig (Elt F)) :=
  [ nullary main_c_7 (constantI S_ 32 0#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v36 (broadcastInDim S850000 ![] bcast_S_S850000 : (⟨S_, .i32⟩ : BufTy).Contents (Elt F) → (⟨S850000, .i32⟩ : BufTy).Contents (Elt F)),
    binary main_v3 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v3 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v7 main_v39 main_v40 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v33 main_v41 (broadcastInDim S850000x96 ![0, 1] bcast_S850000x1_S850000x96_0_1 : (⟨S850000x1, .f32⟩ : BufTy).Contents (Elt F) → (⟨S850000x96, .f32⟩ : BufTy).Contents (Elt F)),
    binary main_v41 main_v40 main_v42 (mulf : (⟨S850000x96, .f32⟩ : BufTy).Contents (Elt F) → (⟨S850000x96, .f32⟩ : BufTy).Contents (Elt F) → (⟨S850000x96, .f32⟩ : BufTy).Contents (Elt F)),
    nullary main_cst_9 (constant S_ .f32 0x00000000#32),
    unary main_cst_9 main_v43 (broadcastInDim S50000x96 ![] bcast_S_S50000x96 : (⟨S_, .f32⟩ : BufTy).Contents (Elt F) → (⟨S50000x96, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg3 main_v46 (broadcastInDim S1x96 ![1] bcast_S96_S1x96_1 : (⟨S96, .f32⟩ : BufTy).Contents (Elt F) → (⟨S1x96, .f32⟩ : BufTy).Contents (Elt F)),
    unary main_v46 main_v47 (broadcastInDim S50000x96 ![0, 1] bcast_S1x96_S50000x96_0_1 : (⟨S1x96, .f32⟩ : BufTy).Contents (Elt F) → (⟨S50000x96, .f32⟩ : BufTy).Contents (Elt F)),
    binary main_v45 main_v47 main_v48 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v48) (TRef.of (T := ⟨S50000x96, .f32⟩) main_call1_v0) (TRef.of (T := ⟨S50000x96, .f32⟩) main_v49) maximumf ]

set_option maxRecDepth 8192 in
set_option maxHeartbeats 2000000 in
/-- The contents after operations 45 to 65. -/
theorem stretch_B3 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_v3 : V (Proc.devRef .tc main_v3) = ReadP.val_main_v3 (F := F) x1)
    (h_v33 : V (Proc.devRef .tc main_v33) = ReadP.val_main_v33 (F := F) x1)
    (h_v6 : V (Proc.devRef .tc main_v6) = ReadP.val_main_v6 (F := F) x1)
    (h_v7 : V (Proc.devRef .tc main_v7) = ReadP.val_main_v7 (F := F) x0 x2) :
    (after (LB3 (F := F)) V (Proc.devRef .tc main_arg4) = x4)
      ∧ (after (LB3 (F := F)) V (Proc.devRef .tc main_arg5) = x5)
      ∧ (after (LB3 (F := F)) V (Proc.devRef .tc main_arg6) = x6)
      ∧ (after (LB3 (F := F)) V (Proc.devRef .tc main_arg7) = x7)
      ∧ (after (LB3 (F := F)) V (Proc.devRef .tc main_v3) = ReadP.val_main_v3 (F := F) x1)
      ∧ (after (LB3 (F := F)) V (Proc.devRef .tc main_v49) = ReadP.val_main_v49 (F := F) x0 x1 x2 x3)
      ∧ (after (LB3 (F := F)) V (Proc.devRef .tc main_v6) = ReadP.val_main_v6 (F := F) x1) := by
  unfold LB3
  refine ⟨?_, ?_, ?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg3, h_arg4, h_arg5, h_arg6, h_arg7, h_v3, h_v33, h_v6, h_v7]
   try rfl)

end Cert.ReferenceIdeal.RunValue

end
-- ==== Proof.RefRunValueC1.lean ====
/-
  The reference's host operations 66 to 83 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 66 to 83. -/
def LC1 : List (HloOp τ sig (Elt F)) :=
  [ binary main_v49 main_arg4 main_v50 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst_10 (constant S_ .f32 0x3F800000#32),
    unary main_cst_10 main_v51 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v52 (broadcastInDim S50000 ![] bcast_S_S50000 : (⟨S_, .f32⟩ : BufTy).Contents (Elt F) → (⟨S50000, .f32⟩ : BufTy).Contents (Elt F)),
    unary main_v6 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x3F800000#32),
    unary main_cst_13 main_v57 (broadcastInDim S50000 ![] bcast_S_S50000 : (⟨S_, .f32⟩ : BufTy).Contents (Elt F) → (⟨S50000, .f32⟩ : BufTy).Contents (Elt F)),
    binary main_v54 main_v57 main_v58 (maximumf : (⟨S50000, .f32⟩ : BufTy).Contents (Elt F) → (⟨S50000, .f32⟩ : BufTy).Contents (Elt F) → (⟨S50000, .f32⟩ : BufTy).Contents (Elt F)),
    unary main_v58 main_v59 (Host.rsqrt : (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v59) (TRef.of (T := ⟨S50000, .f32⟩) main_call2_v1) (TRef.of (T := ⟨S50000, .f32⟩) main_v60) select ]

set_option maxRecDepth 8192 in
set_option maxHeartbeats 2000000 in
/-- The contents after operations 66 to 83. -/
theorem stretch_C1 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_v3 : V (Proc.devRef .tc main_v3) = ReadP.val_main_v3 (F := F) x1)
    (h_v49 : V (Proc.devRef .tc main_v49) = ReadP.val_main_v49 (F := F) x0 x1 x2 x3)
    (h_v6 : V (Proc.devRef .tc main_v6) = ReadP.val_main_v6 (F := F) x1) :
    (after (LC1 (F := F)) V (Proc.devRef .tc main_arg5) = x5)
      ∧ (after (LC1 (F := F)) V (Proc.devRef .tc main_arg6) = x6)
      ∧ (after (LC1 (F := F)) V (Proc.devRef .tc main_arg7) = x7)
      ∧ (after (LC1 (F := F)) V (Proc.devRef .tc main_v3) = ReadP.val_main_v3 (F := F) x1)
      ∧ (after (LC1 (F := F)) V (Proc.devRef .tc main_v50) = ReadP.val_main_v50 (F := F) x0 x1 x2 x3 x4)
      ∧ (after (LC1 (F := F)) V (Proc.devRef .tc main_v6) = ReadP.val_main_v6 (F := F) x1)
      ∧ (after (LC1 (F := F)) V (Proc.devRef .tc main_v60) = ReadP.val_main_v60 (F := F) x1) := by
  unfold LC1
  refine ⟨?_, ?_, ?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg4, h_arg5, h_arg6, h_arg7, h_v3, h_v49, h_v6]
   try rfl)

end Cert.ReferenceIdeal.RunValue

end
-- ==== Proof.RefRunValueC2.lean ====
/-
  The reference's host operations 84 to 103 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 84 to 103. -/
def LC2 : List (HloOp τ sig (Elt F)) :=
  [ nullary main_c_15 (constantI S_ 32 0#32),
    unary main_c_15 main_v61 (broadcastInDim S850000 ![] bcast_S_S850000 : (⟨S_, .i32⟩ : BufTy).Contents (Elt F) → (⟨S850000, .i32⟩ : BufTy).Contents (Elt F)),
    binary main_v3 main_v61 main_v62 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v63 (broadcastInDim S850000 ![] bcast_S_S850000 : (⟨S_, .i32⟩ : BufTy).Contents (Elt F) → (⟨S850000, .i32⟩ : BufTy).Contents (Elt F)),
    binary main_v3 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v3 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v60 main_v66 main_v67 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v68 (broadcastInDim S850000 ![] bcast_S_S850000 : (⟨S_, .i32⟩ : BufTy).Contents (Elt F) → (⟨S850000, .i32⟩ : BufTy).Contents (Elt F)),
    binary main_v6 main_v68 main_v69 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v70 (broadcastInDim S850000 ![] bcast_S_S850000 : (⟨S_, .i32⟩ : BufTy).Contents (Elt F) → (⟨S850000, .i32⟩ : BufTy).Contents (Elt F)),
    binary main_v6 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v6 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v60 main_v73 main_v74 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v67 main_v74 main_v75 (mulf : (⟨S850000, .f32⟩ : BufTy).Contents (Elt F) → (⟨S850000, .f32⟩ : BufTy).Contents (Elt F) → (⟨S850000, .f32⟩ : BufTy).Contents (Elt F)),
    unary main_v75 main_v76 (broadcastInDim S850000x1 ![0] bcast_S850000_S850000x1_0 : (⟨S850000, .f32⟩ : BufTy).Contents (Elt F) → (⟨S850000x1, .f32⟩ : BufTy).Contents (Elt F)) ]

set_option maxRecDepth 8192 in
set_option maxHeartbeats 2000000 in
/-- The contents after operations 84 to 103. -/
theorem stretch_C2 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg5 : V (Proc.devRef .tc main_arg5) = x5)
    (h_arg6 : V (Proc.devRef .tc main_arg6) = x6)
    (h_arg7 : V (Proc.devRef .tc main_arg7) = x7)
    (h_v3 : V (Proc.devRef .tc main_v3) = ReadP.val_main_v3 (F := F) x1)
    (h_v50 : V (Proc.devRef .tc main_v50) = ReadP.val_main_v50 (F := F) x0 x1 x2 x3 x4)
    (h_v6 : V (Proc.devRef .tc main_v6) = ReadP.val_main_v6 (F := F) x1)
    (h_v60 : V (Proc.devRef .tc main_v60) = ReadP.val_main_v60 (F := F) x1) :
    (after (LC2 (F := F)) V (Proc.devRef .tc main_arg5) = x5)
      ∧ (after (LC2 (F := F)) V (Proc.devRef .tc main_arg6) = x6)
      ∧ (after (LC2 (F := F)) V (Proc.devRef .tc main_arg7) = x7)
      ∧ (after (LC2 (F := F)) V (Proc.devRef .tc main_v3) = ReadP.val_main_v3 (F := F) x1)
      ∧ (after (LC2 (F := F)) V (Proc.devRef .tc main_v50) = ReadP.val_main_v50 (F := F) x0 x1 x2 x3 x4)
      ∧ (after (LC2 (F := F)) V (Proc.devRef .tc main_v6) = ReadP.val_main_v6 (F := F) x1)
      ∧ (after (LC2 (F := F)) V (Proc.devRef .tc main_v76) = ReadP.val_main_v76 (F := F) x1) := by
  unfold LC2
  refine ⟨?_, ?_, ?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg5, h_arg6, h_arg7, h_v3, h_v50, h_v6, h_v60]
   try rfl)

end Cert.ReferenceIdeal.RunValue

end
-- ==== Proof.RefRunValueC3.lean ====
/-
  The reference's host operations 104 to 124 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 104 to 124. -/
def LC3 : List (HloOp τ sig (Elt F)) :=
  [ nullary main_c_19 (constantI S_ 32 0#32),
    unary main_c_19 main_v77 (broadcastInDim S850000 ![] bcast_S_S850000 : (⟨S_, .i32⟩ : BufTy).Contents (Elt F) → (⟨S850000, .i32⟩ : BufTy).Contents (Elt F)),
    binary main_v3 main_v77 main_v78 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v79 (broadcastInDim S850000 ![] bcast_S_S850000 : (⟨S_, .i32⟩ : BufTy).Contents (Elt F) → (⟨S850000, .i32⟩ : BufTy).Contents (Elt F)),
    binary main_v3 main_v79 main_v80 (addi : (⟨S850000, .i32⟩ : BufTy).Contents (Elt F) → (⟨S850000, .i32⟩ : BufTy).Contents (Elt F) → (⟨S850000, .i32⟩ : BufTy).Contents (Elt F)),
    ternary main_v78 main_v80 main_v3 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v81 main_v82 (broadcastInDim S850000x1 ![0] bcast_S850000_S850000x1_0 : (⟨S850000, .i32⟩ : BufTy).Contents (Elt F) → (⟨S850000x1, .i32⟩ : BufTy).Contents (Elt F)),
    binary main_v50 main_v82 main_v83 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v76 main_v84 (broadcastInDim S850000x96 ![0, 1] bcast_S850000x1_S850000x96_0_1 : (⟨S850000x1, .f32⟩ : BufTy).Contents (Elt F) → (⟨S850000x96, .f32⟩ : BufTy).Contents (Elt F)),
    binary main_v84 main_v83 main_v85 (mulf : (⟨S850000x96, .f32⟩ : BufTy).Contents (Elt F) → (⟨S850000x96, .f32⟩ : BufTy).Contents (Elt F) → (⟨S850000x96, .f32⟩ : BufTy).Contents (Elt F)),
    nullary main_cst_21 (constant S_ .f32 0x00000000#32),
    unary main_cst_21 main_v86 (broadcastInDim S50000x96 ![] bcast_S_S50000x96 : (⟨S_, .f32⟩ : BufTy).Contents (Elt F) → (⟨S50000x96, .f32⟩ : BufTy).Contents (Elt F)),
    unary main_v6 main_v87 (broadcastInDim S850000x1 ![0] bcast_S850000_S850000x1_0 : (⟨S850000, .i32⟩ : BufTy).Contents (Elt F) → (⟨S850000x1, .i32⟩ : BufTy).Contents (Elt F)),
    ternary main_v86 main_v87 main_v85 main_v88 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg5 main_v89 (broadcastInDim S1x96 ![1] bcast_S96_S1x96_1 : (⟨S96, .f32⟩ : BufTy).Contents (Elt F) → (⟨S1x96, .f32⟩ : BufTy).Contents (Elt F)),
    unary main_v89 main_v90 (broadcastInDim S50000x96 ![0, 1] bcast_S1x96_S50000x96_0_1 : (⟨S1x96, .f32⟩ : BufTy).Contents (Elt F) → (⟨S50000x96, .f32⟩ : BufTy).Contents (Elt F)),
    binary main_v88 main_v90 main_v91 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x96, .f32⟩) main_call3_v0) (broadcastInDim S50000x96 ![] bcast_S_S50000x96),
    TRef.binary (TRef.of (T := ⟨S50000x96, .f32⟩) main_v91) (TRef.of (T := ⟨S50000x96, .f32⟩) main_call3_v0) (TRef.of (T := ⟨S50000x96, .f32⟩) main_v92) maximumf ]

set_option maxRecDepth 8192 in
set_option maxHeartbeats 2000000 in
/-- The contents after operations 104 to 124. -/
theorem stretch_C3 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg5 : V (Proc.devRef .tc main_arg5) = x5)
    (h_arg6 : V (Proc.devRef .tc main_arg6) = x6)
    (h_arg7 : V (Proc.devRef .tc main_arg7) = x7)
    (h_v3 : V (Proc.devRef .tc main_v3) = ReadP.val_main_v3 (F := F) x1)
    (h_v50 : V (Proc.devRef .tc main_v50) = ReadP.val_main_v50 (F := F) x0 x1 x2 x3 x4)
    (h_v6 : V (Proc.devRef .tc main_v6) = ReadP.val_main_v6 (F := F) x1)
    (h_v76 : V (Proc.devRef .tc main_v76) = ReadP.val_main_v76 (F := F) x1) :
    (after (LC3 (F := F)) V (Proc.devRef .tc main_arg6) = x6)
      ∧ (after (LC3 (F := F)) V (Proc.devRef .tc main_arg7) = x7)
      ∧ (after (LC3 (F := F)) V (Proc.devRef .tc main_v3) = ReadP.val_main_v3 (F := F) x1)
      ∧ (after (LC3 (F := F)) V (Proc.devRef .tc main_v6) = ReadP.val_main_v6 (F := F) x1)
      ∧ (after (LC3 (F := F)) V (Proc.devRef .tc main_v92) = ReadP.val_main_v92 (F := F) x0 x1 x2 x3 x4 x5) := by
  unfold LC3
  refine ⟨?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg5, h_arg6, h_arg7, h_v3, h_v50, h_v6, h_v76]
   try rfl)

end Cert.ReferenceIdeal.RunValue

end
-- ==== Proof.RefRunValueD1.lean ====
/-
  The reference's host operations 125 to 142 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 125 to 142. -/
def LD1 : List (HloOp τ sig (Elt F)) :=
  [ binary main_v92 main_arg6 main_v93 ((fun l r => Host.dotGeneral dot_S50000x96_S96x32_S50000x32_1_0_0_1_n_n none l r) : (⟨S50000x96, .f32⟩ : BufTy).Contents (Elt F) → (⟨S96x32, .f32⟩ : BufTy).Contents (Elt F) → (⟨S50000x32, .f32⟩ : BufTy).Contents (Elt F)),
    nullary main_cst_22 (constant S_ .f32 0x3F800000#32),
    unary main_cst_22 main_v94 (broadcastInDim S850000 ![] bcast_S_S850000 : (⟨S_, .f32⟩ : BufTy).Contents (Elt F) → (⟨S850000, .f32⟩ : BufTy).Contents (Elt F)),
    nullary main_cst_23 (constant S_ .f32 0x00000000#32),
    unary main_cst_23 main_v95 (broadcastInDim S50000 ![] bcast_S_S50000 : (⟨S_, .f32⟩ : BufTy).Contents (Elt F) → (⟨S50000, .f32⟩ : BufTy).Contents (Elt F)),
    unary main_v6 main_v96 (broadcastInDim S850000x1 ![0] bcast_S850000_S850000x1_0 : (⟨S850000, .i32⟩ : BufTy).Contents (Elt F) → (⟨S850000x1, .i32⟩ : BufTy).Contents (Elt F)),
    ternary main_v95 main_v96 main_v94 main_v97 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_24 (constant S_ .f32 0x00000000#32),
    unary main_cst_24 main_v98 (broadcastInDim S50000 ![] bcast_S_S50000 : (⟨S_, .f32⟩ : BufTy).Contents (Elt F) → (⟨S50000, .f32⟩ : BufTy).Contents (Elt F)),
    binary main_v97 main_v98 main_v99 (cmpf .ogt : (⟨S50000, .f32⟩ : BufTy).Contents (Elt F) → (⟨S50000, .f32⟩ : BufTy).Contents (Elt F) → (⟨S50000, .i1⟩ : BufTy).Contents (Elt F)),
    nullary main_cst_25 (constant S_ .f32 0x3F800000#32),
    unary main_cst_25 main_v100 (broadcastInDim S50000 ![] bcast_S_S50000 : (⟨S_, .f32⟩ : BufTy).Contents (Elt F) → (⟨S50000, .f32⟩ : BufTy).Contents (Elt F)),
    binary main_v97 main_v100 main_v101 (maximumf : (⟨S50000, .f32⟩ : BufTy).Contents (Elt F) → (⟨S50000, .f32⟩ : BufTy).Contents (Elt F) → (⟨S50000, .f32⟩ : BufTy).Contents (Elt F)),
    unary main_v101 main_v102 (Host.rsqrt : (⟨S50000, .f32⟩ : BufTy).Contents (Elt F) → (⟨S50000, .f32⟩ : BufTy).Contents (Elt F)),
    nullary main_cst_26 (constant S_ .f32 0x00000000#32),
    TRef.unary (TRef.of (T := ⟨S_, .f32⟩) main_cst_26) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v99) (TRef.of (T := ⟨S50000, .f32⟩) main_v102) (TRef.of (T := ⟨S50000, .f32⟩) main_call4_v1) (TRef.of (T := ⟨S50000, .f32⟩) main_v103) select ]

set_option maxRecDepth 8192 in
set_option maxHeartbeats 2000000 in
/-- The contents after operations 125 to 142. -/
theorem stretch_D1 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg6 : V (Proc.devRef .tc main_arg6) = x6)
    (h_arg7 : V (Proc.devRef .tc main_arg7) = x7)
    (h_v3 : V (Proc.devRef .tc main_v3) = ReadP.val_main_v3 (F := F) x1)
    (h_v6 : V (Proc.devRef .tc main_v6) = ReadP.val_main_v6 (F := F) x1)
    (h_v92 : V (Proc.devRef .tc main_v92) = ReadP.val_main_v92 (F := F) x0 x1 x2 x3 x4 x5) :
    (after (LD1 (F := F)) V (Proc.devRef .tc main_arg7) = x7)
      ∧ (after (LD1 (F := F)) V (Proc.devRef .tc main_v103) = ReadP.val_main_v103 (F := F) x1)
      ∧ (after (LD1 (F := F)) V (Proc.devRef .tc main_v3) = ReadP.val_main_v3 (F := F) x1)
      ∧ (after (LD1 (F := F)) V (Proc.devRef .tc main_v6) = ReadP.val_main_v6 (F := F) x1)
      ∧ (after (LD1 (F := F)) V (Proc.devRef .tc main_v93) = ReadP.val_main_v93 (F := F) x0 x1 x2 x3 x4 x5 x6) := by
  unfold LD1
  refine ⟨?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg6, h_arg7, h_v3, h_v6, h_v92]
   try rfl)

end Cert.ReferenceIdeal.RunValue

end
-- ==== Proof.RefRunValueD2.lean ====
/-
  The reference's host operations 143 to 162 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 143 to 162. -/
def LD2 : List (HloOp τ sig (Elt F)) :=
  [ nullary main_c_27 (constantI S_ 32 0#32),
    unary main_c_27 main_v104 (broadcastInDim S850000 ![] bcast_S_S850000 : (⟨S_, .i32⟩ : BufTy).Contents (Elt F) → (⟨S850000, .i32⟩ : BufTy).Contents (Elt F)),
    binary main_v3 main_v104 main_v105 (cmpi .slt : (⟨S850000, .i32⟩ : BufTy).Contents (Elt F) → (⟨S850000, .i32⟩ : BufTy).Contents (Elt F) → (⟨S850000, .i1⟩ : BufTy).Contents (Elt F)),
    nullary main_c_28 (constantI S_ 32 50000#32),
    unary main_c_28 main_v106 (broadcastInDim S850000 ![] bcast_S_S850000 : (⟨S_, .i32⟩ : BufTy).Contents (Elt F) → (⟨S850000, .i32⟩ : BufTy).Contents (Elt F)),
    binary main_v3 main_v106 main_v107 (addi : (⟨S850000, .i32⟩ : BufTy).Contents (Elt F) → (⟨S850000, .i32⟩ : BufTy).Contents (Elt F) → (⟨S850000, .i32⟩ : BufTy).Contents (Elt F)),
    ternary main_v105 main_v107 main_v3 main_v108 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v108 main_v109 (broadcastInDim S850000x1 ![0] bcast_S850000_S850000x1_0 : (⟨S850000, .i32⟩ : BufTy).Contents (Elt F) → (⟨S850000x1, .i32⟩ : BufTy).Contents (Elt F)),
    binary main_v103 main_v109 main_v110 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_29 (constantI S_ 32 0#32),
    unary main_c_29 main_v111 (broadcastInDim S850000 ![] bcast_S_S850000 : (⟨S_, .i32⟩ : BufTy).Contents (Elt F) → (⟨S850000, .i32⟩ : BufTy).Contents (Elt F)),
    binary main_v6 main_v111 main_v112 (cmpi .slt : (⟨S850000, .i32⟩ : BufTy).Contents (Elt F) → (⟨S850000, .i32⟩ : BufTy).Contents (Elt F) → (⟨S850000, .i1⟩ : BufTy).Contents (Elt F)),
    nullary main_c_30 (constantI S_ 32 50000#32),
    unary main_c_30 main_v113 (broadcastInDim S850000 ![] bcast_S_S850000 : (⟨S_, .i32⟩ : BufTy).Contents (Elt F) → (⟨S850000, .i32⟩ : BufTy).Contents (Elt F)),
    binary main_v6 main_v113 main_v114 (addi : (⟨S850000, .i32⟩ : BufTy).Contents (Elt F) → (⟨S850000, .i32⟩ : BufTy).Contents (Elt F) → (⟨S850000, .i32⟩ : BufTy).Contents (Elt F)),
    ternary main_v112 main_v114 main_v6 main_v115 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v115 main_v116 (broadcastInDim S850000x1 ![0] bcast_S850000_S850000x1_0 : (⟨S850000, .i32⟩ : BufTy).Contents (Elt F) → (⟨S850000x1, .i32⟩ : BufTy).Contents (Elt F)),
    binary main_v103 main_v116 main_v117 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v110 main_v117 main_v118 (mulf : (⟨S850000, .f32⟩ : BufTy).Contents (Elt F) → (⟨S850000, .f32⟩ : BufTy).Contents (Elt F) → (⟨S850000, .f32⟩ : BufTy).Contents (Elt F)),
    unary main_v118 main_v119 (broadcastInDim S850000x1 ![0] bcast_S850000_S850000x1_0 : (⟨S850000, .f32⟩ : BufTy).Contents (Elt F) → (⟨S850000x1, .f32⟩ : BufTy).Contents (Elt F)) ]

set_option maxRecDepth 8192 in
set_option maxHeartbeats 2000000 in
/-- The contents after operations 143 to 162. -/
theorem stretch_D2 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg7 : V (Proc.devRef .tc main_arg7) = x7)
    (h_v103 : V (Proc.devRef .tc main_v103) = ReadP.val_main_v103 (F := F) x1)
    (h_v3 : V (Proc.devRef .tc main_v3) = ReadP.val_main_v3 (F := F) x1)
    (h_v6 : V (Proc.devRef .tc main_v6) = ReadP.val_main_v6 (F := F) x1)
    (h_v93 : V (Proc.devRef .tc main_v93) = ReadP.val_main_v93 (F := F) x0 x1 x2 x3 x4 x5 x6) :
    (after (LD2 (F := F)) V (Proc.devRef .tc main_arg7) = x7)
      ∧ (after (LD2 (F := F)) V (Proc.devRef .tc main_v119) = ReadP.val_main_v119 (F := F) x1)
      ∧ (after (LD2 (F := F)) V (Proc.devRef .tc main_v3) = ReadP.val_main_v3 (F := F) x1)
      ∧ (after (LD2 (F := F)) V (Proc.devRef .tc main_v6) = ReadP.val_main_v6 (F := F) x1)
      ∧ (after (LD2 (F := F)) V (Proc.devRef .tc main_v93) = ReadP.val_main_v93 (F := F) x0 x1 x2 x3 x4 x5 x6) := by
  unfold LD2
  refine ⟨?_, ?_, ?_, ?_, ?_⟩ <;>
  (simp (disch := decide) only [after_cons, after_nil,
      nullary_result', unary_result', binary_result', ternary_result', reshape_result',
      nullary_result_ne', unary_result_ne', binary_result_ne', ternary_result_ne', reshape_result_ne', joined_def,
      h_arg7, h_v103, h_v3, h_v6, h_v93]
   try rfl)

end Cert.ReferenceIdeal.RunValue

end
-- ==== Proof.RefRunValueD3.lean ====
/-
  The reference's host operations 163 to 180 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 163 to 180. -/
def LD3 : List (HloOp τ sig (Elt F)) :=
  [ nullary main_c_31 (constantI S_ 32 0#32),
    unary main_c_31 main_v120 (broadcastInDim S850000 ![] bcast_S_S850000 : (⟨S_, .i32⟩ : BufTy).Contents (Elt F) → (⟨S850000, .i32⟩ : BufTy).Contents (Elt F)),
    binary main_v3 main_v120 main_v121 (cmpi .slt : (⟨S850000, .i32⟩ : BufTy).Contents (Elt F) → (⟨S850000, .i32⟩ : BufTy).Contents (Elt F) → (⟨S850000, .i1⟩ : BufTy).Contents (Elt F)),
    nullary main_c_32 (constantI S_ 32 50000#32),
    unary main_c_32 main_v122 (broadcastInDim S850000 ![] bcast_S_S850000 : (⟨S_, .i32⟩ : BufTy).Contents (Elt F) → (⟨S850000, .i32⟩ : BufTy).Contents (Elt F)),
    binary main_v3 main_v122 main_v123 (addi : (⟨S850000, .i32⟩ : BufTy).Contents (Elt F) → (⟨S850000, .i32⟩ : BufTy).Contents (Elt F) → (⟨S850000, .i32⟩ : BufTy).Contents (Elt F)),
    ternary main_v121 main_v123 main_v3 main_v124 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v124 main_v125 (broadcastInDim S850000x1 ![0] bcast_S850000_S850000x1_0 : (⟨S850000, .i32⟩ : BufTy).Contents (Elt F) → (⟨S850000x1, .i32⟩ : BufTy).Contents (Elt F)),
    binary main_v93 main_v125 main_v126 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    unary main_v119 main_v127 (broadcastInDim S850000x32 ![0, 1] bcast_S850000x1_S850000x32_0_1 : (⟨S850000x1, .f32⟩ : BufTy).Contents (Elt F) → (⟨S850000x32, .f32⟩ : BufTy).Contents (Elt F)),
    binary main_v127 main_v126 main_v128 (mulf : (⟨S850000x32, .f32⟩ : BufTy).Contents (Elt F) → (⟨S850000x32, .f32⟩ : BufTy).Contents (Elt F) → (⟨S850000x32, .f32⟩ : BufTy).Contents (Elt F)),
    nullary main_cst_33 (constant S_ .f32 0x00000000#32),
    unary main_cst_33 main_v129 (broadcastInDim S50000x32 ![] bcast_S_S50000x32 : (⟨S_, .f32⟩ : BufTy).Contents (Elt F) → (⟨S50000x32, .f32⟩ : BufTy).Contents (Elt F)),
    unary main_v6 main_v130 (broadcastInDim S850000x1 ![0] bcast_S850000_S850000x1_0 : (⟨S850000, .i32⟩ : BufTy).Contents (Elt F) → (⟨S850000x1, .i32⟩ : BufTy).Contents (Elt F)),
    ternary main_v129 main_v130 main_v128 main_v131 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_arg7 main_v132 (broadcastInDim S1x32 ![1] bcast_S32_S1x32_1 : (⟨S32, .f32⟩ : BufTy).Contents (Elt F) → (⟨S1x32, .f32⟩ : BufTy).Contents (Elt F)),
    unary main_v132 main_v133 (broadcastInDim S50000x32 ![0, 1] bcast_S1x32_S50000x32_0_1 : (⟨S1x32, .f32⟩ : BufTy).Contents (Elt F) → (⟨S50000x32, .f32⟩ : BufTy).Contents (Elt F)),
    binary main_v131 main_v133 main_v134 (addf : (⟨S50000x32, .f32⟩ : BufTy).Contents (Elt F) → (⟨S50000x32, .f32⟩ : BufTy).Contents (Elt F) → (⟨S50000x32, .f32⟩ : BufTy).Contents (Elt F)) ]

set_option maxRecDepth 8192 in
set_option maxHeartbeats 2000000 in
/-- The contents after operations 163 to 180. -/
theorem stretch_D3 (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg7 : V (Proc.devRef .tc main_arg7) = x7)
    (h_v119 : V (Proc.devRef .tc main_v119) = ReadP.val_main_v119 (F := F) x1)
    (h_v3 : V (Proc.devRef .tc main_v3) = ReadP.val_main_v3 (F := F) x1)
    (h_v6 : V (Proc.devRef .tc main_v6) = ReadP.val_main_v6 (F := F) x1)
    (h_v93 : V (Proc.devRef .tc main_v93) = ReadP.val_main_v93 (F := F) x0 x1 x2 x3 x4 x5 x6) :
    (after (LD3 (F := F)) V (Proc.devRef .tc main_v134) = ReadP.val_main_v134 (F := F) x0 x1 x2 x3 x4 x5 x6 x7) := by
  unfold LD3
  (simp (disch := decide) only [after_cons, after_nil,
      nullary_result', unary_result', binary_result', ternary_result', reshape_result',
      nullary_result_ne', unary_result_ne', binary_result_ne', ternary_result_ne', reshape_result_ne', joined_def,
      h_arg7, h_v119, h_v3, h_v6, h_v93]
   try rfl)

end Cert.ReferenceIdeal.RunValue

end
-- ==== Proof.RefRunValueE.lean ====
/-
  The reference's host operations 181 to 195 of its 196 (in program order), as one stretch: from buffer contents `V` that
  hold the values of the buffers read here or later, the contents after the stretch hold the values of the buffers read
  later — each buffer the stretch writes at its operation's function of the operands' values, every other buffer as it was.
-/
import proofs.«123766_j46617575031251_2_alg».proof.Proof.RefRead
import proofs.«123766_j46617575031251_2_alg».proof.Proof.LibJoinTwo

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Operations 181 to 195. -/
def LE : List (HloOp τ sig (Elt F)) :=
  [ TRef.nullary (TRef.of (T := ⟨S_, .f32⟩) main_call5_cst) (constant S_ .f32 0xFF800000#32),
    TRef.binary (TRef.of (T := ⟨S50000x32, .f32⟩) main_v134) (TRef.of (T := ⟨S_, .f32⟩) main_call5_cst) (TRef.of (T := ⟨S50000, .f32⟩) main_call5_v0) (fun x v => Host.reduce FloatOps.maximumf x v reducesTo_S50000x32_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x32, .f32⟩) main_call5_v4) (broadcastInDim S50000x32 ![0, 1] bcast_S50000x1_S50000x32_0_1),
    TRef.binary (TRef.of (T := ⟨S50000x32, .f32⟩) main_v134) (TRef.of (T := ⟨S50000x32, .f32⟩) main_call5_v4) (TRef.of (T := ⟨S50000x32, .f32⟩) main_call5_v5) subf,
    TRef.unary (TRef.of (T := ⟨S50000x32, .f32⟩) main_call5_v5) (TRef.of (T := ⟨S50000x32, .f32⟩) main_call5_v6) Host.exp,
    TRef.nullary (TRef.of (T := ⟨S_, .f32⟩) main_call5_cst_1) (constant S_ .f32 0x00000000#32),
    TRef.binary (TRef.of (T := ⟨S50000x32, .f32⟩) main_call5_v6) (TRef.of (T := ⟨S_, .f32⟩) main_call5_cst_1) (TRef.of (T := ⟨S50000, .f32⟩) main_call5_v7) (fun x v => Host.reduceAdd x v reducesTo_S50000x32_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x32, .f32⟩) main_call5_v10) (broadcastInDim S50000x32 ![0, 1] bcast_S50000x1_S50000x32_0_1),
    TRef.binary (TRef.of (T := ⟨S50000x32, .f32⟩) main_call5_v5) (TRef.of (T := ⟨S50000x32, .f32⟩) main_call5_v10) (TRef.of (T := ⟨S50000x32, .f32⟩) main_v135) subf ]

set_option maxRecDepth 8192 in
set_option maxHeartbeats 2000000 in
/-- The contents after operations 181 to 195. -/
theorem stretch_E (V : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_v134 : V (Proc.devRef .tc main_v134) = ReadP.val_main_v134 (F := F) x0 x1 x2 x3 x4 x5 x6 x7) :
    (after (LE (F := F)) V (Proc.devRef .tc main_v135) = ReadP.val_main_v135 (F := F) x0 x1 x2 x3 x4 x5 x6 x7) := by
  unfold LE
  (simp (disch := decide) only [after_cons, after_nil,
      nullary_result', unary_result', binary_result', ternary_result', reshape_result',
      nullary_result_ne', unary_result_ne', binary_result_ne', ternary_result_ne', reshape_result_ne', joined_def,
      TRef.toBuf, TRef.ofBuf, cast_cast, cast_eq,
      h_v134]
   try rfl)

end Cert.ReferenceIdeal.RunValue

end
-- ==== Proof.RefRunValue.lean ====
/-
  The reference's run, with its result read as the value `ReadP.val_main_v135` of the arguments' launch contents.

  The 196 host operations are the eleven stretches of Proof/RefRunValueA … E in order; the contents after a line of
  operations are the contents after its stretches, composed, and each stretch hands the values of the buffers read later
  to the next. So from any contents `W` the buffer of the result holds `val_main_v135` of the arguments' contents; the run
  of @main (every weakly fair execution terminates, the buffers at the fold of the operations over the launch contents)
  then ends with the result at that value and the arguments unchanged.
-/
import proofs.«123766_j46617575031251_2_alg».proof.Proof.RefRun
import proofs.«123766_j46617575031251_2_alg».proof.Proof.LibFoldAppend
import proofs.«123766_j46617575031251_2_alg».proof.Proof.RefRunValueA
import proofs.«123766_j46617575031251_2_alg».proof.Proof.RefRunValueB1
import proofs.«123766_j46617575031251_2_alg».proof.Proof.RefRunValueB2
import proofs.«123766_j46617575031251_2_alg».proof.Proof.RefRunValueB3
import proofs.«123766_j46617575031251_2_alg».proof.Proof.RefRunValueC1
import proofs.«123766_j46617575031251_2_alg».proof.Proof.RefRunValueC2
import proofs.«123766_j46617575031251_2_alg».proof.Proof.RefRunValueC3
import proofs.«123766_j46617575031251_2_alg».proof.Proof.RefRunValueD1
import proofs.«123766_j46617575031251_2_alg».proof.Proof.RefRunValueD2
import proofs.«123766_j46617575031251_2_alg».proof.Proof.RefRunValueD3
import proofs.«123766_j46617575031251_2_alg».proof.Proof.RefRunValueE

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The operation list is the stretches in order. -/
theorem ops_eq : (ValueP.ops (F := F)) = LA (F := F) ++ (LB1 (F := F) ++ (LB2 (F := F) ++ (LB3 (F := F) ++ (LC1 (F := F) ++ (LC2 (F := F) ++ (LC3 (F := F) ++ (LD1 (F := F) ++ (LD2 (F := F) ++ (LD3 (F := F) ++ (LE (F := F))))))))))) := rfl

/-- From any contents, the result's buffer after the 196 operations holds `val_main_v135` of the arguments' contents. -/
theorem value (W : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x96, .f32⟩ : BufTy).Contents (Elt F)) (x5 : (⟨S96, .f32⟩ : BufTy).Contents (Elt F)) (x6 : (⟨S96x32, .f32⟩ : BufTy).Contents (Elt F)) (x7 : (⟨S32, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7) :
    after (ValueP.ops (F := F)) W (Proc.devRef .tc main_v135) = ReadP.val_main_v135 (F := F) x0 x1 x2 x3 x4 x5 x6 x7 := by
  rw [ops_eq]
  simp only [LibFoldAppend.after_append]
  obtain ⟨a_arg0, a_arg2, a_arg3, a_arg4, a_arg5, a_arg6, a_arg7, a_v3, a_v6⟩ := stretch_A (W) x0 x1 x2 x3 x4 x5 x6 x7 h_arg0 h_arg1 h_arg2 h_arg3 h_arg4 h_arg5 h_arg6 h_arg7
  obtain ⟨b1_arg3, b1_arg4, b1_arg5, b1_arg6, b1_arg7, b1_v17, b1_v3, b1_v6, b1_v7⟩ := stretch_B1 (after (LA (F := F)) (W)) x0 x1 x2 x3 x4 x5 x6 x7 a_arg0 a_arg2 a_arg3 a_arg4 a_arg5 a_arg6 a_arg7 a_v3 a_v6
  obtain ⟨b2_arg3, b2_arg4, b2_arg5, b2_arg6, b2_arg7, b2_v3, b2_v33, b2_v6, b2_v7⟩ := stretch_B2 (after (LB1 (F := F)) (after (LA (F := F)) (W))) x0 x1 x2 x3 x4 x5 x6 x7 b1_arg3 b1_arg4 b1_arg5 b1_arg6 b1_arg7 b1_v17 b1_v3 b1_v6 b1_v7
  obtain ⟨b3_arg4, b3_arg5, b3_arg6, b3_arg7, b3_v3, b3_v49, b3_v6⟩ := stretch_B3 (after (LB2 (F := F)) (after (LB1 (F := F)) (after (LA (F := F)) (W)))) x0 x1 x2 x3 x4 x5 x6 x7 b2_arg3 b2_arg4 b2_arg5 b2_arg6 b2_arg7 b2_v3 b2_v33 b2_v6 b2_v7
  obtain ⟨c1_arg5, c1_arg6, c1_arg7, c1_v3, c1_v50, c1_v6, c1_v60⟩ := stretch_C1 (after (LB3 (F := F)) (after (LB2 (F := F)) (after (LB1 (F := F)) (after (LA (F := F)) (W))))) x0 x1 x2 x3 x4 x5 x6 x7 b3_arg4 b3_arg5 b3_arg6 b3_arg7 b3_v3 b3_v49 b3_v6
  obtain ⟨c2_arg5, c2_arg6, c2_arg7, c2_v3, c2_v50, c2_v6, c2_v76⟩ := stretch_C2 (after (LC1 (F := F)) (after (LB3 (F := F)) (after (LB2 (F := F)) (after (LB1 (F := F)) (after (LA (F := F)) (W)))))) x0 x1 x2 x3 x4 x5 x6 x7 c1_arg5 c1_arg6 c1_arg7 c1_v3 c1_v50 c1_v6 c1_v60
  obtain ⟨c3_arg6, c3_arg7, c3_v3, c3_v6, c3_v92⟩ := stretch_C3 (after (LC2 (F := F)) (after (LC1 (F := F)) (after (LB3 (F := F)) (after (LB2 (F := F)) (after (LB1 (F := F)) (after (LA (F := F)) (W))))))) x0 x1 x2 x3 x4 x5 x6 x7 c2_arg5 c2_arg6 c2_arg7 c2_v3 c2_v50 c2_v6 c2_v76
  obtain ⟨d1_arg7, d1_v103, d1_v3, d1_v6, d1_v93⟩ := stretch_D1 (after (LC3 (F := F)) (after (LC2 (F := F)) (after (LC1 (F := F)) (after (LB3 (F := F)) (after (LB2 (F := F)) (after (LB1 (F := F)) (after (LA (F := F)) (W)))))))) x0 x1 x2 x3 x4 x5 x6 x7 c3_arg6 c3_arg7 c3_v3 c3_v6 c3_v92
  obtain ⟨d2_arg7, d2_v119, d2_v3, d2_v6, d2_v93⟩ := stretch_D2 (after (LD1 (F := F)) (after (LC3 (F := F)) (after (LC2 (F := F)) (after (LC1 (F := F)) (after (LB3 (F := F)) (after (LB2 (F := F)) (after (LB1 (F := F)) (after (LA (F := F)) (W))))))))) x0 x1 x2 x3 x4 x5 x6 x7 d1_arg7 d1_v103 d1_v3 d1_v6 d1_v93
  have d3_v134 := stretch_D3 (after (LD2 (F := F)) (after (LD1 (F := F)) (after (LC3 (F := F)) (after (LC2 (F := F)) (after (LC1 (F := F)) (after (LB3 (F := F)) (after (LB2 (F := F)) (after (LB1 (F := F)) (after (LA (F := F)) (W)))))))))) x0 x1 x2 x3 x4 x5 x6 x7 d2_arg7 d2_v119 d2_v3 d2_v6 d2_v93
  exact stretch_E (after (LD3 (F := F)) (after (LD2 (F := F)) (after (LD1 (F := F)) (after (LC3 (F := F)) (after (LC2 (F := F)) (after (LC1 (F := F)) (after (LB3 (F := F)) (after (LB2 (F := F)) (after (LB1 (F := F)) (after (LA (F := F)) (W))))))))))) x0 x1 x2 x3 x4 x5 x6 x7 d3_v134

set_option maxRecDepth 16384 in
set_option maxHeartbeats 8000000 in
/-- On every device, from any memory with zero counters: every weakly fair execution of @main terminates with the result
    at `val_main_v135` of the arguments' launch contents and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v135) = ReadP.val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v135).trans (value (launchContents m c) _ _ _ _ _ _ _ _ rfl rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq ValueP.scopedRefs_eq ValueP.scopedSems_eq defs main (fun _ => ValueP.ops) ValueP.main_eq (fun _ => ValueP.ops_sub) m ρ)

end Cert.ReferenceIdeal.RunValue

end
-- ==== Proof.RefLayerACore.lean ====
/-
  The reference's layer, read at coordinates, over variables.

  One layer of the reference is: a scatter-add of the word 1.0 by the target words (the degree), the scale
  where(deg > 0, rsqrt(max(deg, 1)), 0), two gathers of the scale by the wrapped source and target words, their
  product kept as a column and spread along the row, a row gather of the product X·W by the wrapped source words,
  the scatter-add of the scaled rows by the raw target words into zeros, and the bias spread along the rows.
  Each of these composed vector terms is read here at an index, with the words, the scale and the product as variables.
-/
import proofs.«123766_j46617575031251_2_alg».proof.Proof.Gen.ReferenceIdeal
import proofs.«123766_j46617575031251_2_alg».proof.Proof.Spec
import proofs.«123766_j46617575031251_2_alg».proof.Proof.LibRowIndexed
import Idealize.ShloMosaic.PureOps.Ideal.Laws

noncomputable section

namespace Cert.ReferenceIdeal.LayerA

open Cert.ReferenceIdeal Cert.ReferenceIdeal.Gen Idealize.ShloMosaic Idealize.ShloMosaic.ValueIdx Idealize.ShloMosaic.RowIndexed

/-- The row of the 50000-row tables an index word reads. -/
abbrev rowOf (v : BitVec 32) : Fin 50000 := Gcn.row (N := 50000) (by decide) 50000#32 v

/-- The comparison of two extended reals as the reference's float comparison. -/
theorem cmpf_ideal (p : CmpFPredicate) (x y : EReal) : FloatOps.cmpf (F := Ideal) (φ := .f32) p x y = Ideal.cmp p x y := rfl

/-! ## The four index-dependent operations at the reference's sizes -/

theorem vecScatter_read (x : S50000.Idx → EReal) (idx : IVec S850000x1 32) (upd : S850000.Idx → EReal) (i : Fin 50000) :
    Host.scatterAdd (F := Ideal) (φ := .f32) scatter_S50000_S850000x1_S850000_n_0_0_1 x idx upd (ix1 i)
      = x (ix1 i) + ∑ e ∈ Finset.univ.filter (fun e : Fin 850000 => (idx (ix2 e 0)).toInt = (i.val : Int)), upd (ix1 e) :=
  vecScatter_add_apply scatter_S50000_S850000x1_S850000_n_0_0_1.wf x idx upd i

theorem rowScatter_read (x : S50000x96.Idx → EReal) (idx : IVec S850000x1 32) (upd : S850000x96.Idx → EReal)
    (i : Fin 50000) (k : Fin 96) :
    Host.scatterAdd (F := Ideal) (φ := .f32) scatter_S50000x96_S850000x1_S850000x96_1_0_0_1 x idx upd (ix2 i k)
      = x (ix2 i k) + ∑ e ∈ Finset.univ.filter (fun e : Fin 850000 => (idx (ix2 e 0)).toInt = (i.val : Int)), upd (ix2 e k) :=
  rowScatter_add_apply scatter_S50000x96_S850000x1_S850000x96_1_0_0_1.wf x idx upd i k

theorem vecGather_read (x : S50000.Idx → EReal) (idx : IVec S850000x1 32) (e : Fin 850000) :
    Host.gather gather_S50000_S850000x1_S850000_n_0_n_n_0_1_1 x idx (ix1 e)
      = x (ix1 (nodeOf 50000 (by decide) (idx (ix2 e 0)))) :=
  vecGather_apply (by decide) gather_S50000_S850000x1_S850000_n_0_n_n_0_1_1.wf x idx e

theorem rowGather_read (x : S50000x96.Idx → EReal) (idx : IVec S850000x1 32) (e : Fin 850000) (k : Fin 96) :
    Host.gather gather_S50000x96_S850000x1_S850000x96_1_0_n_n_0_1_196 x idx (ix2 e k)
      = x (ix2 (nodeOf 50000 (by decide) (idx (ix2 e 0))) k) :=
  rowGather_apply (by decide) gather_S50000x96_S850000x1_S850000x96_1_0_n_n_0_1_196.wf x idx e k

/-! ## The composed vector terms of one layer -/

/-- The degree vector: the word 1.0 scatter-added by the target words into zeros. -/
def degVec (tw : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 tw)
    (broadcastInDim S850000 ![] bcast_S_S850000 (constant (F := Ideal) S_ .f32 0x3F800000#32))

/-- The scale vector: where(deg > 0, rsqrt(max(deg, 1)), 0). -/
def dinvVec (tw : IVec S850000 32) : FVec Ideal S50000 .f32 :=
  select (cmpf (F := Ideal) .ogt (degVec tw) (broadcastInDim S50000 ![] bcast_S_S50000 (constant (F := Ideal) S_ .f32 0x00000000#32)))
    (Host.rsqrt (maximumf (degVec tw) (broadcastInDim S50000 ![] bcast_S_S50000 (constant (F := Ideal) S_ .f32 0x3F800000#32))))
    (broadcastInDim S50000 ![] bcast_S_S50000 (id (constant (F := Ideal) S_ .f32 0x00000000#32)))

/-- The wrapped index words, kept as a column. -/
def wrapCol (w : IVec S850000 32) : IVec S850000x1 32 :=
  broadcastInDim S850000x1 ![0] bcast_S850000_S850000x1_0
    (select (cmpi .slt w (broadcastInDim S850000 ![] bcast_S_S850000 (constantI S_ 32 0#32)))
      (addi w (broadcastInDim S850000 ![] bcast_S_S850000 (constantI S_ 32 50000#32))) w)

/-- The messages scaled and summed onto their target nodes. -/
def msgVec (xw : FVec Ideal S50000x96 .f32) (dv : FVec Ideal S50000 .f32) (sw tw : IVec S850000 32) : FVec Ideal S50000x96 .f32 :=
  Host.scatterAdd scatter_S50000x96_S850000x1_S850000x96_1_0_0_1
    (broadcastInDim S50000x96 ![] bcast_S_S50000x96 (constant (F := Ideal) S_ .f32 0x00000000#32))
    (broadcastInDim S850000x1 ![0] bcast_S850000_S850000x1_0 tw)
    (mulf
      (broadcastInDim S850000x96 ![0, 1] bcast_S850000x1_S850000x96_0_1
        (broadcastInDim S850000x1 ![0] bcast_S850000_S850000x1_0
          (mulf (Host.gather gather_S50000_S850000x1_S850000_n_0_n_n_0_1_1 dv (wrapCol sw))
            (Host.gather gather_S50000_S850000x1_S850000_n_0_n_n_0_1_1 dv (wrapCol tw)))))
      (Host.gather gather_S50000x96_S850000x1_S850000x96_1_0_n_n_0_1_196 xw (wrapCol sw)))

/-- The layer before its activation: the summed messages plus the bias along the rows. -/
def layerVec (xw : FVec Ideal S50000x96 .f32) (dv : FVec Ideal S50000 .f32) (sw tw : IVec S850000 32)
    (b : FVec Ideal S96 .f32) : FVec Ideal S50000x96 .f32 :=
  addf (msgVec xw dv sw tw)
    (broadcastInDim S50000x96 ![0, 1] bcast_S1x96_S50000x96_0_1 (broadcastInDim S1x96 ![1] bcast_S96_S1x96_1 b))

/-- relu. -/
def reluVec (y : FVec Ideal S50000x96 .f32) : FVec Ideal S50000x96 .f32 :=
  maximumf y (broadcastInDim S50000x96 ![] bcast_S_S50000x96 (constant (F := Ideal) S_ .f32 0x00000000#32))

theorem degVec_apply (tw : IVec S850000 32) (i : Fin 50000) :
    degVec tw (ix1 i) = Gcn.deg (fun e : Fin 850000 => tw (ix1 e)) i := by
  unfold degVec
  rw [vecScatter_read, bcast_scalar_apply, constant_apply, Ideal.ofBits_zero_f32, zero_add]
  unfold Gcn.deg
  refine Finset.sum_congr (Finset.filter_congr fun e _ => ?_) fun e _ => ?_
  · rw [col_apply]
  · rw [bcast_scalar_apply, constant_apply]

theorem rsqrtVec_apply {s : Shape} (v : FVec Ideal s .f32) (j : s.Idx) : Host.rsqrt v j = Ideal.rsqrt (v j) := rfl

theorem dinvVec_apply (tw : IVec S850000 32) (i : Fin 50000) :
    dinvVec tw (ix1 i) = Gcn.dinv (fun e : Fin 850000 => tw (ix1 e)) i := by
  unfold dinvVec
  rw [select_apply, cmpf_apply, cmpf_ideal, rsqrtVec_apply, maximumf_apply, bcast_scalar_apply, bcast_scalar_apply, bcast_scalar_apply,
    degVec_apply]
  unfold Gcn.dinv Gcn.dinvOf
  rw [id_eq, constant_apply, constant_apply, Ideal.ofBits_zero_f32]

theorem cmpiVec_apply {s : Shape} {w : Nat} (p : CmpIPredicate) (a b : IVec s w) (j : s.Idx) :
    cmpi p a b j = IntOp.cmpi p (a j) (b j) := rfl

theorem addiVec_apply {s : Shape} {w : Nat} (a b : IVec s w) (j : s.Idx) : addi a b j = IntOp.addi (a j) (b j) := rfl

theorem constantI_apply {s : Shape} {w : Nat} (b : BitVec w) (j : s.Idx) : constantI s w b j = b := rfl

theorem wrapCol_apply (w : IVec S850000 32) (e : Fin 850000) :
    wrapCol w (ix2 e 0) = Gcn.wrap 50000#32 (w (ix1 e)) := by
  unfold wrapCol
  rw [col_apply, select_apply, cmpiVec_apply, addiVec_apply, bcast_scalar_apply, bcast_scalar_apply, constantI_apply, constantI_apply]
  unfold Gcn.wrap
  rfl

/-- The norm column spread along the row reads the vector's entry. -/
theorem spreadCol_apply (y : FVec Ideal S850000 .f32) (e : Fin 850000) (k : Fin 96) :
    broadcastInDim S850000x96 ![0, 1] bcast_S850000x1_S850000x96_0_1
      (broadcastInDim S850000x1 ![0] bcast_S850000_S850000x1_0 y) (ix2 e k) = y (ix1 e) := by
  rw [broadcastInDim_apply _ bcast_S850000x1_S850000x96_0_1 _ (ix2 e k) (ix2 e (0 : Fin 1)) (fun a => match a with
      | ⟨0, _⟩ => by show e.val = if (850000 : Nat) = 1 then 0 else e.val; rw [if_neg (by decide)]
      | ⟨1, _⟩ => by show 0 = if (1 : Nat) = 1 then 0 else k.val; rw [if_pos rfl])]
  exact col_apply _ y e

theorem msgVec_apply (xw : FVec Ideal S50000x96 .f32) (dv : FVec Ideal S50000 .f32) (sw tw : IVec S850000 32)
    (i : Fin 50000) (k : Fin 96) :
    msgVec xw dv sw tw (ix2 i k)
      = ∑ e ∈ Finset.univ.filter (fun e : Fin 850000 => (tw (ix1 e)).toInt = (i.val : Int)),
          (dv (ix1 (rowOf (sw (ix1 e)))) * dv (ix1 (rowOf (tw (ix1 e))))) * xw (ix2 (rowOf (sw (ix1 e))) k) := by
  unfold msgVec
  rw [rowScatter_read, bcast_scalar_apply, constant_apply, Ideal.ofBits_zero_f32, zero_add]
  refine Finset.sum_congr (Finset.filter_congr fun e _ => ?_) fun e _ => ?_
  · rw [col_apply]
  · rw [mulf_apply, spreadCol_apply, mulf_apply, vecGather_read, vecGather_read, rowGather_read,
      wrapCol_apply, wrapCol_apply]
    rfl

theorem layerVec_apply (xw : FVec Ideal S50000x96 .f32) (dv : FVec Ideal S50000 .f32) (sw tw : IVec S850000 32)
    (b : FVec Ideal S96 .f32) (i : Fin 50000) (k : Fin 96) :
    layerVec xw dv sw tw b (ix2 i k)
      = (∑ e ∈ Finset.univ.filter (fun e : Fin 850000 => (tw (ix1 e)).toInt = (i.val : Int)),
          (dv (ix1 (rowOf (sw (ix1 e)))) * dv (ix1 (rowOf (tw (ix1 e))))) * xw (ix2 (rowOf (sw (ix1 e))) k)) + b (ix1 k) := by
  unfold layerVec
  rw [addf_apply, msgVec_apply]
  congr 1
  rw [broadcastInDim_apply _ bcast_S1x96_S50000x96_0_1 _ (ix2 i k) (ix2 (0 : Fin 1) k) (fun a => match a with
      | ⟨0, _⟩ => by show 0 = if (1 : Nat) = 1 then 0 else i.val; rw [if_pos rfl]
      | ⟨1, _⟩ => by show k.val = if (96 : Nat) = 1 then 0 else k.val; rw [if_neg (by decide)]),
    broadcastInDim_apply _ bcast_S96_S1x96_1 _ (ix2 (0 : Fin 1) k) (ix1 k) (fun a => match a with
      | ⟨0, _⟩ => by show k.val = if (96 : Nat) = 1 then 0 else k.val; rw [if_neg (by decide)])]

theorem reluVec_apply (y : FVec Ideal S50000x96 .f32) (j : S50000x96.Idx) : reluVec y j = max (y j) 0 := by
  unfold reluVec
  rw [maximumf_apply, bcast_scalar_apply, constant_apply, Ideal.ofBits_zero_f32]

end Cert.ReferenceIdeal.LayerA

end
-- ==== Proof.RefLayerA1.lean ====
/-
  The reference's first layer at an index.

  The scale vector the reference computes is the specification's dinv of the target words; the first layer before
  its activation is the specification's refLayer of the input, the first weight matrix and the first bias, over the
  source and target words; the hidden activation is its maximum with zero.
-/
import proofs.«123766_j46617575031251_2_alg».proof.Proof.RefRead
import proofs.«123766_j46617575031251_2_alg».proof.Proof.RefLayerACore

noncomputable section

namespace Cert.ReferenceIdeal.LayerA

open Cert.ReferenceIdeal Cert.ReferenceIdeal.Gen Cert.ReferenceIdeal.ReadP Idealize.ShloMosaic Idealize.ShloMosaic.ValueIdx Idealize.ShloMosaic.RowIndexed

/-- The reference's scale vector is the composed scale term of the target words. -/
theorem v17_eq (x1 : (⟨S2x800000, .i32⟩ : BufTy).Contents (Elt Ideal)) :
    val_main_v17 (F := Ideal) x1 = dinvVec (val_main_v6 (F := Ideal) x1) := by
  unfold val_main_v17 val_main_v13 val_main_v16 val_main_v15 val_main_v11 val_main_v12 val_main_v14 val_main_v8 val_main_v9 val_main_v10 val_main_call0_v1 val_main_call0_v0 val_main_cst val_main_cst_0 val_main_cst_1 val_main_cst_2 val_main_cst_3 dinvVec degVec
  rfl

theorem ref_dinv (x1 : (⟨S2x800000, .i32⟩ : BufTy).Contents (Elt Ideal)) (i : Fin 50000) :
    val_main_v17 (F := Ideal) x1 (ix1 i) = Gcn.dinv (fun e : Fin 850000 => val_main_v6 (F := Ideal) x1 (ix1 e)) i := by
  rw [v17_eq, dinvVec_apply]

/-- The first product X·W at an index. -/
theorem xw1_apply (x0 : (⟨S50000x128, .f32⟩ : BufTy).Contents (Elt Ideal)) (x2 : (⟨S128x96, .f32⟩ : BufTy).Contents (Elt Ideal)) (r : Fin 50000) (k : Fin 96) :
    val_main_v7 (F := Ideal) x0 x2 (ix2 r k)
      = Gcn.matProd (fun (i : Fin 50000) (q : Fin 128) => x0 (ix2 i q)) (fun (q : Fin 128) (c : Fin 96) => x2 (ix2 q c)) r k := by
  rw [val_main_v7_apply]
  unfold Gcn.matProd
  refine Finset.sum_congr rfl fun q _ => ?_
  have hl : lidx_main_v7 (ix2 r k) q = ix2 r q := funext fun a => Fin.ext (by match a with | ⟨0, _⟩ => rfl | ⟨1, _⟩ => rfl)
  have hr : ridx_main_v7 (ix2 r k) q = ix2 q k := funext fun a => Fin.ext (by match a with | ⟨0, _⟩ => rfl | ⟨1, _⟩ => rfl)
  rw [hl, hr]

/-- The first layer before its activation is the composed layer term. -/
theorem v48_eq (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) :
    val_main_v48 (F := Ideal) x0 x1 x2 x3
      = layerVec (val_main_v7 (F := Ideal) x0 x2) (val_main_v17 (F := Ideal) x1) (val_main_v3 (F := Ideal) x1)
          (val_main_v6 (F := Ideal) x1) x3 := by
  unfold val_main_v48 val_main_v47 val_main_v46 val_main_v45 val_main_v44 val_main_v43 val_main_cst_9 val_main_v42 val_main_v41 val_main_v40 val_main_v39 val_main_v38 val_main_v37 val_main_v36 val_main_c_8 val_main_v35 val_main_v34 val_main_c_7 val_main_v33 val_main_v32 val_main_v31 val_main_v30 val_main_v29 val_main_v28 val_main_v27 val_main_c_6 val_main_v26 val_main_v25 val_main_c_5 val_main_v24 val_main_v23 val_main_v22 val_main_v21 val_main_v20 val_main_c_4 val_main_v19 val_main_v18 val_main_c layerVec msgVec wrapCol
  rfl

theorem ref_layer1 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (i : Fin 50000) (k : Fin 96) :
    val_main_v48 (F := Ideal) x0 x1 x2 x3 (ix2 i k)
      = Gcn.refLayer (N := 50000) (E := 850000) (by decide) 50000#32
          (fun (i : Fin 50000) (q : Fin 128) => x0 (ix2 i q)) (fun (q : Fin 128) (c : Fin 96) => x2 (ix2 q c))
          (fun c : Fin 96 => x3 (ix1 c))
          (fun e : Fin 850000 => val_main_v3 (F := Ideal) x1 (ix1 e))
          (fun e : Fin 850000 => val_main_v6 (F := Ideal) x1 (ix1 e)) i k := by
  rw [v48_eq, layerVec_apply]
  unfold Gcn.refLayer
  refine congrArg₂ (· + ·) (Finset.sum_congr rfl fun e _ => ?_) rfl
  rw [ref_dinv, ref_dinv, xw1_apply]

/-- The first hidden activation is the maximum with zero. -/
theorem v49_eq (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) :
    val_main_v49 (F := Ideal) x0 x1 x2 x3 = reluVec (val_main_v48 (F := Ideal) x0 x1 x2 x3) := by
  unfold val_main_v49 val_main_call1_v0 val_main_call1_cst reluVec
  rfl

theorem ref_h1 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (i : Fin 50000) (k : Fin 96) :
    val_main_v49 (F := Ideal) x0 x1 x2 x3 (ix2 i k)
      = max (Gcn.refLayer (N := 50000) (E := 850000) (by decide) 50000#32
          (fun (i : Fin 50000) (q : Fin 128) => x0 (ix2 i q)) (fun (q : Fin 128) (c : Fin 96) => x2 (ix2 q c))
          (fun c : Fin 96 => x3 (ix1 c))
          (fun e : Fin 850000 => val_main_v3 (F := Ideal) x1 (ix1 e))
          (fun e : Fin 850000 => val_main_v6 (F := Ideal) x1 (ix1 e)) i k) 0 := by
  rw [v49_eq, reluVec_apply, ref_layer1]

end Cert.ReferenceIdeal.LayerA

end
-- ==== Proof.RefLayerA2.lean ====
/-
  The reference's second layer at an index.

  The second layer recomputes the scale vector from the same target words and applies the same composed layer term
  to the first hidden activation (kept as an opaque matrix), the second weight matrix and the second bias.
-/
import proofs.«123766_j46617575031251_2_alg».proof.Proof.RefRead
import proofs.«123766_j46617575031251_2_alg».proof.Proof.RefLayerACore

noncomputable section

namespace Cert.ReferenceIdeal.LayerA

open Cert.ReferenceIdeal Cert.ReferenceIdeal.Gen Cert.ReferenceIdeal.ReadP Idealize.ShloMosaic Idealize.ShloMosaic.ValueIdx Idealize.ShloMosaic.RowIndexed

/-- The scale vector recomputed for the second layer is the same composed scale term. -/
theorem v60_eq (x1 : (⟨S2x800000, .i32⟩ : BufTy).Contents (Elt Ideal)) :
    val_main_v60 (F := Ideal) x1 = dinvVec (val_main_v6 (F := Ideal) x1) := by
  unfold val_main_v60 val_main_v56 val_main_v59 val_main_v58 val_main_v54 val_main_v55 val_main_v57 val_main_v51 val_main_v52 val_main_v53 val_main_call2_v1 val_main_call2_v0 val_main_cst_10 val_main_cst_11 val_main_cst_12 val_main_cst_13 val_main_cst_14 dinvVec degVec
  rfl

theorem ref_dinv2 (x1 : (⟨S2x800000, .i32⟩ : BufTy).Contents (Elt Ideal)) (i : Fin 50000) :
    val_main_v60 (F := Ideal) x1 (ix1 i) = Gcn.dinv (fun e : Fin 850000 => val_main_v6 (F := Ideal) x1 (ix1 e)) i := by
  rw [v60_eq, dinvVec_apply]

/-- The second product H·W at an index, the hidden activation kept opaque. -/
theorem xw2_apply (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (r : Fin 50000) (k : Fin 96) :
    val_main_v50 (F := Ideal) x0 x1 x2 x3 x4 (ix2 r k)
      = Gcn.matProd (fun (i : Fin 50000) (q : Fin 96) => val_main_v49 (F := Ideal) x0 x1 x2 x3 (ix2 i q))
          (fun (q : Fin 96) (c : Fin 96) => x4 (ix2 q c)) r k := by
  rw [val_main_v50_apply]
  generalize val_main_v49 (F := Ideal) x0 x1 x2 x3 = h
  unfold Gcn.matProd
  refine Finset.sum_congr rfl fun q _ => ?_
  have hl : lidx_main_v50 (ix2 r k) q = ix2 r q := funext fun a => Fin.ext (by match a with | ⟨0, _⟩ => rfl | ⟨1, _⟩ => rfl)
  have hr : ridx_main_v50 (ix2 r k) q = ix2 q k := funext fun a => Fin.ext (by match a with | ⟨0, _⟩ => rfl | ⟨1, _⟩ => rfl)
  rw [hl, hr]

/-- The second layer before its activation is the composed layer term. -/
theorem v91_eq (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) :
    val_main_v91 (F := Ideal) x0 x1 x2 x3 x4 x5
      = layerVec (val_main_v50 (F := Ideal) x0 x1 x2 x3 x4) (val_main_v60 (F := Ideal) x1) (val_main_v3 (F := Ideal) x1)
          (val_main_v6 (F := Ideal) x1) x5 := by
  unfold val_main_v91 val_main_v90 val_main_v89 val_main_v88 val_main_v87 val_main_v86 val_main_cst_21 val_main_v85 val_main_v84 val_main_v83 val_main_v82 val_main_v81 val_main_v80 val_main_v79 val_main_c_20 val_main_v78 val_main_v77 val_main_c_19 val_main_v76 val_main_v75 val_main_v74 val_main_v73 val_main_v72 val_main_v71 val_main_v70 val_main_c_18 val_main_v69 val_main_v68 val_main_c_17 val_main_v67 val_main_v66 val_main_v65 val_main_v64 val_main_v63 val_main_c_16 val_main_v62 val_main_v61 val_main_c_15 layerVec msgVec wrapCol
  rfl

theorem ref_layer2 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (i : Fin 50000) (k : Fin 96) :
    val_main_v91 (F := Ideal) x0 x1 x2 x3 x4 x5 (ix2 i k)
      = Gcn.refLayer (N := 50000) (E := 850000) (by decide) 50000#32
          (fun (i : Fin 50000) (q : Fin 96) => val_main_v49 (F := Ideal) x0 x1 x2 x3 (ix2 i q))
          (fun (q : Fin 96) (c : Fin 96) => x4 (ix2 q c)) (fun c : Fin 96 => x5 (ix1 c))
          (fun e : Fin 850000 => val_main_v3 (F := Ideal) x1 (ix1 e))
          (fun e : Fin 850000 => val_main_v6 (F := Ideal) x1 (ix1 e)) i k := by
  rw [v91_eq, layerVec_apply]
  unfold Gcn.refLayer
  refine congrArg₂ (· + ·) (Finset.sum_congr rfl fun e _ => ?_) rfl
  rw [ref_dinv2, ref_dinv2, xw2_apply]

/-- The second hidden activation is the maximum with zero. -/
theorem v92_eq (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) :
    val_main_v92 (F := Ideal) x0 x1 x2 x3 x4 x5 = reluVec (val_main_v91 (F := Ideal) x0 x1 x2 x3 x4 x5) := by
  unfold val_main_v92 val_main_call3_v0 val_main_call3_cst reluVec
  rfl

theorem ref_h2 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (i : Fin 50000) (k : Fin 96) :
    val_main_v92 (F := Ideal) x0 x1 x2 x3 x4 x5 (ix2 i k)
      = max (Gcn.refLayer (N := 50000) (E := 850000) (by decide) 50000#32
          (fun (i : Fin 50000) (q : Fin 96) => val_main_v49 (F := Ideal) x0 x1 x2 x3 (ix2 i q))
          (fun (q : Fin 96) (c : Fin 96) => x4 (ix2 q c)) (fun c : Fin 96 => x5 (ix1 c))
          (fun e : Fin 850000 => val_main_v3 (F := Ideal) x1 (ix1 e))
          (fun e : Fin 850000 => val_main_v6 (F := Ideal) x1 (ix1 e)) i k) 0 := by
  rw [v92_eq, reluVec_apply, ref_layer2]

end Cert.ReferenceIdeal.LayerA

end
-- ==== Proof.RefLayerBOps.lean ====
/-
  The reference's gathers and scatter-adds of the third layer, read at coordinates.

  The dimension records the reference prints for `x.at[idx].add(u)` and `x[idx]` on a vector of 50000 entries or a table of
  50000 rows of 32 entries, addressed by a column of 850000 index words, are the row-indexed forms: an accumulating scatter
  at node `i` is the operand there plus the updates of the edges whose word, read signed, is `i`; a gather at edge `e` reads
  the entry (or row) the word of `e` addresses, read signed and clamped.
-/
import proofs.«123766_j46617575031251_2_alg».proof.Proof.Gen.ReferenceIdeal
import proofs.«123766_j46617575031251_2_alg».proof.Proof.LibRowIndexed

noncomputable section

namespace Cert.ReferenceIdeal.LayerB

open Cert.ReferenceIdeal Cert.ReferenceIdeal.Gen Idealize.ShloMosaic Idealize.ShloMosaic.ValueIdx Idealize.ShloMosaic.RowIndexed

/-- The accumulating scatter into a vector of 50000 entries, at entry `i`. -/
theorem vecScatter_read (x : S50000.Idx → EReal) (idx : IVec S850000x1 32) (upd : S850000.Idx → EReal) (i : Fin 50000) :
    Host.scatterAdd (F := Ideal) (φ := .f32) scatter_S50000_S850000x1_S850000_n_0_0_1 x idx upd (ix1 i)
      = x (ix1 i) + ∑ e ∈ Finset.univ.filter (fun e : Fin 850000 => (idx (ix2 e 0)).toInt = (i.val : Int)), upd (ix1 e) :=
  vecScatter_add_apply scatter_S50000_S850000x1_S850000_n_0_0_1.wf x idx upd i

/-- The accumulating scatter into a table of 50000 rows of 32 entries, at entry `(i, c)`. -/
theorem rowScatter_read (x : S50000x32.Idx → EReal) (idx : IVec S850000x1 32) (upd : S850000x32.Idx → EReal)
    (i : Fin 50000) (c : Fin 32) :
    Host.scatterAdd (F := Ideal) (φ := .f32) scatter_S50000x32_S850000x1_S850000x32_1_0_0_1 x idx upd (ix2 i c)
      = x (ix2 i c) + ∑ e ∈ Finset.univ.filter (fun e : Fin 850000 => (idx (ix2 e 0)).toInt = (i.val : Int)), upd (ix2 e c) :=
  rowScatter_add_apply scatter_S50000x32_S850000x1_S850000x32_1_0_0_1.wf x idx upd i c

/-- The gather of entries of a vector of 50000 entries, at edge `e`. -/
theorem vecGather_read {α : Type} (x : S50000.Idx → α) (idx : IVec S850000x1 32) (e : Fin 850000) :
    Host.gather gather_S50000_S850000x1_S850000_n_0_n_n_0_1_1 x idx (ix1 e)
      = x (ix1 (nodeOf 50000 (by decide) (idx (ix2 e 0)))) :=
  vecGather_apply (by decide) gather_S50000_S850000x1_S850000_n_0_n_n_0_1_1.wf x idx e

/-- The gather of rows of a table of 50000 rows of 32 entries, at `(e, c)`. -/
theorem rowGather_read {α : Type} (x : S50000x32.Idx → α) (idx : IVec S850000x1 32) (e : Fin 850000) (c : Fin 32) :
    Host.gather gather_S50000x32_S850000x1_S850000x32_1_0_n_n_0_1_132 x idx (ix2 e c)
      = x (ix2 (nodeOf 50000 (by decide) (idx (ix2 e 0))) c) :=
  rowGather_apply (by decide) gather_S50000x32_S850000x1_S850000x32_1_0_n_n_0_1_132.wf x idx e c

end Cert.ReferenceIdeal.LayerB

end
-- ==== Proof.RefLayerBMath.lean ====
/-
  The stages of one graph-convolution layer of the reference, each read at coordinates from its operands read at
  coordinates.

  * The degree: a scatter-add of the word `1.0` into zeros by the target words is, at node `i`, the number of edges
    whose target word lands on `i`.
  * The scale: `where(deg > 0, rsqrt(max(deg, 1)), 0)` is `dinvOf deg`.
  * A gather addressed by wrapped words reads the row `row` of the raw word.
  * The aggregate: a scatter-add of messages into zeros by the target words is, at node `i`, the sum of the messages of
    the edges whose target word lands on `i`.
  * `log_softmax` of a row: with `m` the maximum of `-inf` and the row's maximum folded from `-inf`, and `s` the sum
    from `0.0` of `exp (z - m)`, the value `(z k - m) - log s`.
-/
import proofs.«123766_j46617575031251_2_alg».proof.Proof.RefLayerBOps
import proofs.«123766_j46617575031251_2_alg».proof.Proof.Spec
import proofs.«123766_j46617575031251_2_alg».proof.Proof.LibRowReduce
import Idealize.ShloMosaic.Lib.IdealHost

noncomputable section

namespace Cert.ReferenceIdeal.LayerB

open Cert.ReferenceIdeal Cert.ReferenceIdeal.Gen Idealize.ShloMosaic Idealize.ShloMosaic.ValueIdx Idealize.ShloMosaic.RowIndexed

/-- The degree of node `i`: ones scattered into zeros by the target words. -/
theorem deg_read (zero : S50000.Idx → EReal) (col : IVec S850000x1 32) (ones : S850000.Idx → EReal)
    (tw : Fin 850000 → BitVec 32) (hz : ∀ j, zero j = 0) (hc : ∀ e : Fin 850000, col (ix2 e 0) = tw e)
    (ho : ∀ j, ones j = Gcn.oneW) (i : Fin 50000) :
    Host.scatterAdd (F := Ideal) (φ := .f32) scatter_S50000_S850000x1_S850000_n_0_0_1 zero col ones (ix1 i)
      = Gcn.deg tw i := by
  rw [vecScatter_read, hz, zero_add]
  unfold Gcn.deg
  simp only [hc, ho]

/-- The scale from the degree. -/
theorem dinvOf_read (d : EReal) :
    Scalar.select (FloatOps.cmpf (F := Ideal) (φ := .f32) .ogt d (Ideal.ofBits .f32 0x00000000#32))
        (FloatOps.hostUnary (F := Ideal) (φ := .f32) .rsqrt
          (FloatOps.maximumf (F := Ideal) (φ := .f32) d (Ideal.ofBits .f32 0x3F800000#32)))
        (Ideal.ofBits .f32 0x00000000#32)
      = Gcn.dinvOf d := by
  rw [Ideal.ofBits_zero_f32]
  rfl

/-- The wrap of an index word, as the reference spells it. -/
theorem wrap_read (v : BitVec 32) :
    Scalar.select (IntOp.cmpi .slt v 0#32) (IntOp.addi v 50000#32) v = Gcn.wrap 50000#32 v := rfl

/-- A gather of vector entries addressed by wrapped words. -/
theorem vecGather_wrap_read {α : Type} (x : S50000.Idx → α) (col : IVec S850000x1 32) (w : Fin 850000 → BitVec 32)
    (hc : ∀ e : Fin 850000, col (ix2 e 0) = Gcn.wrap 50000#32 (w e)) (e : Fin 850000) :
    Host.gather gather_S50000_S850000x1_S850000_n_0_n_n_0_1_1 x col (ix1 e)
      = x (ix1 (Gcn.row (N := 50000) (by decide) 50000#32 (w e))) := by
  rw [vecGather_read, hc]
  rfl

/-- A gather of table rows addressed by wrapped words. -/
theorem rowGather_wrap_read {α : Type} (x : S50000x32.Idx → α) (col : IVec S850000x1 32) (w : Fin 850000 → BitVec 32)
    (hc : ∀ e : Fin 850000, col (ix2 e 0) = Gcn.wrap 50000#32 (w e)) (e : Fin 850000) (c : Fin 32) :
    Host.gather gather_S50000x32_S850000x1_S850000x32_1_0_n_n_0_1_132 x col (ix2 e c)
      = x (ix2 (Gcn.row (N := 50000) (by decide) 50000#32 (w e)) c) := by
  rw [rowGather_read, hc]
  rfl

/-- The aggregate at `(i, c)`: messages scattered into zeros by the target words. -/
theorem agg_read (zero : S50000x32.Idx → EReal) (col : IVec S850000x1 32) (upd : S850000x32.Idx → EReal)
    (tw : Fin 850000 → BitVec 32) (f : Fin 850000 → EReal) (c : Fin 32) (hz : ∀ j, zero j = 0)
    (hc : ∀ e : Fin 850000, col (ix2 e 0) = tw e) (hu : ∀ e : Fin 850000, upd (ix2 e c) = f e) (i : Fin 50000) :
    Host.scatterAdd (F := Ideal) (φ := .f32) scatter_S50000x32_S850000x1_S850000x32_1_0_0_1 zero col upd (ix2 i c)
      = ∑ e ∈ Finset.univ.filter (fun e : Fin 850000 => (tw e).toInt = (i.val : Int)), f e := by
  rw [rowScatter_read, hz, zero_add]
  simp only [hc, hu]

/-- `log_softmax` of a row from its parts. -/
theorem logSoftmax_read (z : Fin 32 → EReal) (m s : EReal) (k : Fin 32)
    (hm : m = max Gcn.negInfW ((Finset.univ : Finset (Fin 32)).fold max Gcn.negInfW z))
    (hs : s = Ideal.ofBits .f32 0x00000000#32 + ∑ k' : Fin 32, Ideal.exp (z k' - m)) :
    (z k - m) - Ideal.log s = Gcn.logSoftmax z k := by
  subst hs
  rw [RowReduce.max_fold_self] at hm
  subst hm
  rw [Ideal.ofBits_zero_f32, zero_add]
  rfl

end Cert.ReferenceIdeal.LayerB

end
-- ==== Proof.RefLayerBDinv.lean ====
/-
  The reference's third layer: the degree of a node and its scale, read at a node.
-/
import proofs.«123766_j46617575031251_2_alg».proof.Proof.RefRead
import proofs.«123766_j46617575031251_2_alg».proof.Proof.RefLayerBMath

noncomputable section

namespace Cert.ReferenceIdeal.LayerB

open Cert.ReferenceIdeal Cert.ReferenceIdeal.Gen Cert.ReferenceIdeal.ReadP Idealize.ShloMosaic Idealize.ShloMosaic.ValueIdx Idealize.ShloMosaic.RowIndexed

/-- The third layer's degree vector at node `i` is the number of edges whose target word lands on `i`. -/
theorem ref_deg3 (x1 : (⟨S2x800000, .i32⟩ : BufTy).Contents (Elt Ideal)) (i : Fin 50000) :
    val_main_v97 (F := Ideal) x1 (ix1 i) = Gcn.deg (fun e : Fin 850000 => val_main_v6 (F := Ideal) x1 (ix1 e)) i := by
  unfold val_main_v97
  refine deg_read _ _ _ _ (fun j => ?_) (fun e => ?_) (fun j => ?_) i
  · rw [val_main_v95_apply, val_main_cst_23_apply]
    exact Ideal.ofBits_zero_f32
  · rw [val_main_v96_apply]
    exact congrArg _ (funext fun a => by match a with | ⟨0, _⟩ => rfl)
  · rw [val_main_v94_apply, val_main_cst_22_apply]
    rfl

/-- The third layer's scale vector at node `i` is `dinv` of the target words. -/
theorem ref_dinv3 (x1 : (⟨S2x800000, .i32⟩ : BufTy).Contents (Elt Ideal)) (i : Fin 50000) :
    val_main_v103 (F := Ideal) x1 (ix1 i) = Gcn.dinv (fun e : Fin 850000 => val_main_v6 (F := Ideal) x1 (ix1 e)) i := by
  rw [val_main_v103_apply, val_main_v99_apply, val_main_v102_apply, val_main_v101_apply, val_main_v98_apply,
    val_main_cst_24_apply, val_main_v100_apply, val_main_cst_25_apply, val_main_call4_v1_apply, val_main_call4_v0_apply,
    val_main_cst_26_apply, ref_deg3]
  exact dinvOf_read _

end Cert.ReferenceIdeal.LayerB

end
-- ==== Proof.RefLayerBLayer.lean ====
/-
  The reference's third layer read at an entry: the edge norm, the product, the message of an edge, and the layer's
  output as the specification's layer of the second layer's output.
-/
import proofs.«123766_j46617575031251_2_alg».proof.Proof.RefRead
import proofs.«123766_j46617575031251_2_alg».proof.Proof.RefLayerBDinv

noncomputable section

namespace Cert.ReferenceIdeal.LayerB

open Cert.ReferenceIdeal Cert.ReferenceIdeal.Gen Cert.ReferenceIdeal.ReadP Idealize.ShloMosaic Idealize.ShloMosaic.ValueIdx Idealize.ShloMosaic.RowIndexed

/-- The column of wrapped source words the first scale gather is addressed by. -/
theorem col109 (x1 : (⟨S2x800000, .i32⟩ : BufTy).Contents (Elt Ideal)) (e : Fin 850000) :
    val_main_v109 (F := Ideal) x1 (ix2 e (0 : Fin 1)) = Gcn.wrap 50000#32 (val_main_v3 (F := Ideal) x1 (ix1 e)) := by
  rw [val_main_v109_apply]
  have he : idx_main_v109 (ix2 e (0 : Fin 1)) = ix1 e := funext fun a => Fin.ext (by match a with | ⟨0, _⟩ => rfl)
  rw [he, val_main_v108_apply, val_main_v105_apply, val_main_v107_apply, val_main_v104_apply, val_main_c_27_apply,
    val_main_v106_apply, val_main_c_28_apply]
  rfl

/-- The column of wrapped target words the second scale gather is addressed by. -/
theorem col116 (x1 : (⟨S2x800000, .i32⟩ : BufTy).Contents (Elt Ideal)) (e : Fin 850000) :
    val_main_v116 (F := Ideal) x1 (ix2 e (0 : Fin 1)) = Gcn.wrap 50000#32 (val_main_v6 (F := Ideal) x1 (ix1 e)) := by
  rw [val_main_v116_apply]
  have he : idx_main_v116 (ix2 e (0 : Fin 1)) = ix1 e := funext fun a => Fin.ext (by match a with | ⟨0, _⟩ => rfl)
  rw [he, val_main_v115_apply, val_main_v112_apply, val_main_v114_apply, val_main_v111_apply, val_main_c_29_apply,
    val_main_v113_apply, val_main_c_30_apply]
  rfl

/-- The column of wrapped source words the row gather is addressed by. -/
theorem col125 (x1 : (⟨S2x800000, .i32⟩ : BufTy).Contents (Elt Ideal)) (e : Fin 850000) :
    val_main_v125 (F := Ideal) x1 (ix2 e (0 : Fin 1)) = Gcn.wrap 50000#32 (val_main_v3 (F := Ideal) x1 (ix1 e)) := by
  rw [val_main_v125_apply]
  have he : idx_main_v125 (ix2 e (0 : Fin 1)) = ix1 e := funext fun a => Fin.ext (by match a with | ⟨0, _⟩ => rfl)
  rw [he, val_main_v124_apply, val_main_v121_apply, val_main_v123_apply, val_main_v120_apply, val_main_c_31_apply,
    val_main_v122_apply, val_main_c_32_apply]
  rfl

/-- The column of raw target words the aggregate is scattered by. -/
theorem col130 (x1 : (⟨S2x800000, .i32⟩ : BufTy).Contents (Elt Ideal)) (e : Fin 850000) :
    val_main_v130 (F := Ideal) x1 (ix2 e (0 : Fin 1)) = val_main_v6 (F := Ideal) x1 (ix1 e) := by
  rw [val_main_v130_apply]
  exact congrArg _ (funext fun a => Fin.ext (by match a with | ⟨0, _⟩ => rfl))

/-- The aggregate's operand is zero everywhere. -/
theorem zero129 (j : S50000x32.Idx) : val_main_v129 (F := Ideal) j = 0 := by
  rw [val_main_v129_apply, val_main_cst_33_apply]
  exact Ideal.ofBits_zero_f32

/-- The edge norm: the scale of the source's row times the scale of the target's row. -/
theorem ref_norm3 (x1 : (⟨S2x800000, .i32⟩ : BufTy).Contents (Elt Ideal)) (e : Fin 850000) :
    val_main_v118 (F := Ideal) x1 (ix1 e)
      = Gcn.dinv (fun e : Fin 850000 => val_main_v6 (F := Ideal) x1 (ix1 e)) (Gcn.row (N := 50000) (by decide) 50000#32 (val_main_v3 (F := Ideal) x1 (ix1 e))) * Gcn.dinv (fun e : Fin 850000 => val_main_v6 (F := Ideal) x1 (ix1 e)) (Gcn.row (N := 50000) (by decide) 50000#32 (val_main_v6 (F := Ideal) x1 (ix1 e))) := by
  rw [val_main_v118_apply, Ideal.mulf_def]
  unfold val_main_v110 val_main_v117
  rw [vecGather_wrap_read _ _ (fun e : Fin 850000 => val_main_v3 (F := Ideal) x1 (ix1 e)) (col109 x1) e, vecGather_wrap_read _ _ (fun e : Fin 850000 => val_main_v6 (F := Ideal) x1 (ix1 e)) (col116 x1) e, ref_dinv3, ref_dinv3]

/-- The third layer's product `X·W` at `(r, k)`. -/
theorem ref_xw3 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (r : Fin 50000) (k : Fin 32) :
    val_main_v93 (F := Ideal) x0 x1 x2 x3 x4 x5 x6 (ix2 r k) = Gcn.matProd (fun (i : Fin 50000) (q : Fin 96) => val_main_v92 (F := Ideal) x0 x1 x2 x3 x4 x5 (ix2 i q)) (fun (q : Fin 96) (c : Fin 32) => x6 (ix2 q c)) r k := by
  rw [val_main_v93_apply]
  unfold Gcn.matProd
  refine Finset.sum_congr rfl fun q _ => ?_
  have hl : lidx_main_v93 (ix2 r k) q = ix2 r q := funext fun a => Fin.ext (by match a with | ⟨0, _⟩ => rfl | ⟨1, _⟩ => rfl)
  have hr : ridx_main_v93 (ix2 r k) q = ix2 q k := funext fun a => Fin.ext (by match a with | ⟨0, _⟩ => rfl | ⟨1, _⟩ => rfl)
  rw [hl, hr]

/-- The message of edge `e` at column `k`. -/
theorem ref_msg3 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (e : Fin 850000) (k : Fin 32) :
    val_main_v128 (F := Ideal) x0 x1 x2 x3 x4 x5 x6 (ix2 e k)
      = (Gcn.dinv (fun e : Fin 850000 => val_main_v6 (F := Ideal) x1 (ix1 e)) (Gcn.row (N := 50000) (by decide) 50000#32 (val_main_v3 (F := Ideal) x1 (ix1 e))) * Gcn.dinv (fun e : Fin 850000 => val_main_v6 (F := Ideal) x1 (ix1 e)) (Gcn.row (N := 50000) (by decide) 50000#32 (val_main_v6 (F := Ideal) x1 (ix1 e)))) * Gcn.matProd (fun (i : Fin 50000) (q : Fin 96) => val_main_v92 (F := Ideal) x0 x1 x2 x3 x4 x5 (ix2 i q)) (fun (q : Fin 96) (c : Fin 32) => x6 (ix2 q c)) (Gcn.row (N := 50000) (by decide) 50000#32 (val_main_v3 (F := Ideal) x1 (ix1 e))) k := by
  rw [val_main_v128_apply, Ideal.mulf_def, val_main_v127_apply]
  have h1 : idx_main_v127 (ix2 e k) = ix2 e (0 : Fin 1) := funext fun a => Fin.ext (by match a with | ⟨0, _⟩ => rfl | ⟨1, _⟩ => rfl)
  rw [h1, val_main_v119_apply]
  have h2 : idx_main_v119 (ix2 e (0 : Fin 1)) = ix1 e := funext fun a => Fin.ext (by match a with | ⟨0, _⟩ => rfl)
  rw [h2, ref_norm3]
  unfold val_main_v126
  rw [rowGather_wrap_read _ _ (fun e : Fin 850000 => val_main_v3 (F := Ideal) x1 (ix1 e)) (col125 x1) e k, ref_xw3]

/-- The third layer's output at `(i, k)` is the reference's layer of the second layer's output. -/
theorem ref_layer3 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal)) (i : Fin 50000) (k : Fin 32) :
    val_main_v134 (F := Ideal) x0 x1 x2 x3 x4 x5 x6 x7 (ix2 i k)
      = Gcn.refLayer (N := 50000) (E := 850000) (by decide) 50000#32 (fun (i : Fin 50000) (q : Fin 96) => val_main_v92 (F := Ideal) x0 x1 x2 x3 x4 x5 (ix2 i q)) (fun (q : Fin 96) (c : Fin 32) => x6 (ix2 q c)) (fun q : Fin 32 => x7 (ix1 q))
          (fun e : Fin 850000 => val_main_v3 (F := Ideal) x1 (ix1 e)) (fun e : Fin 850000 => val_main_v6 (F := Ideal) x1 (ix1 e)) i k := by
  rw [val_main_v134_apply, Ideal.addf_def, val_main_v133_apply]
  have h1 : idx_main_v133 (ix2 i k) = ix2 (0 : Fin 1) k := funext fun a => Fin.ext (by match a with | ⟨0, _⟩ => rfl | ⟨1, _⟩ => rfl)
  rw [h1, val_main_v132_apply]
  have h2 : idx_main_v132 (ix2 (0 : Fin 1) k) = ix1 k := funext fun a => Fin.ext (by match a with | ⟨0, _⟩ => rfl)
  rw [h2]
  unfold val_main_v131 Gcn.refLayer
  rw [agg_read (val_main_v129 (F := Ideal)) (val_main_v130 (F := Ideal) x1) (val_main_v128 (F := Ideal) x0 x1 x2 x3 x4 x5 x6)
    (fun e : Fin 850000 => val_main_v6 (F := Ideal) x1 (ix1 e)) _ k zero129 (col130 x1) (fun e => ref_msg3 x0 x1 x2 x3 x4 x5 x6 e k) i]

end Cert.ReferenceIdeal.LayerB

end
-- ==== Proof.RefLayerBOut.lean ====
/-
  The reference's `log_softmax` read at an entry: the row maximum, the shifted row, and the output as the
  specification's `logSoftmax` of the third layer's row.
-/
import proofs.«123766_j46617575031251_2_alg».proof.Proof.RefRead
import proofs.«123766_j46617575031251_2_alg».proof.Proof.RefLayerBMath

noncomputable section

namespace Cert.ReferenceIdeal.LayerB

open Cert.ReferenceIdeal Cert.ReferenceIdeal.Gen Cert.ReferenceIdeal.ReadP Idealize.ShloMosaic Idealize.ShloMosaic.ValueIdx Idealize.ShloMosaic.RowIndexed

/-- The row maximum `log_softmax` subtracts: the maximum of `-inf` and the row's maximum folded from `-inf`. -/
theorem ref_rowmax (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal)) (i : Fin 50000) :
    val_main_call5_v2 (F := Ideal) x0 x1 x2 x3 x4 x5 x6 x7 (ix1 i)
      = max Gcn.negInfW ((Finset.univ : Finset (Fin 32)).fold max Gcn.negInfW (fun k' : Fin 32 => val_main_v134 (F := Ideal) x0 x1 x2 x3 x4 x5 x6 x7 (ix2 i k'))) := by
  rw [val_main_call5_v2_apply, Ideal.maximumf_def, val_main_call5_v1_apply, val_main_call5_cst_0_apply]
  unfold val_main_call5_v0
  rw [RowReduce.hostMax_at (val_main_v134 (F := Ideal) x0 x1 x2 x3 x4 x5 x6 x7) (val_main_call5_cst (F := Ideal))
    reducesTo_S50000x32_S50000_d1 (by decide) h_S_ i, val_main_call5_cst_apply]
  rfl

/-- The shifted row: an entry minus the row maximum. -/
theorem ref_shift (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal)) (i : Fin 50000) (k : Fin 32) :
    val_main_call5_v5 (F := Ideal) x0 x1 x2 x3 x4 x5 x6 x7 (ix2 i k)
      = val_main_v134 (F := Ideal) x0 x1 x2 x3 x4 x5 x6 x7 (ix2 i k) - val_main_call5_v2 (F := Ideal) x0 x1 x2 x3 x4 x5 x6 x7 (ix1 i) := by
  rw [val_main_call5_v5_apply, Ideal.subf_def, val_main_call5_v4_apply, val_main_call5_v3_apply]
  have h : idx_main_call5_v3 (idx_main_call5_v4 (ix2 i k)) = ix1 i := funext fun a => Fin.ext (by match a with | ⟨0, _⟩ => rfl)
  rw [h]

/-- The reference's output at `(i, k)` is `log_softmax` of the third layer's row `i`, at `k`. -/
theorem ref_out (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal)) (i : Fin 50000) (k : Fin 32) :
    val_main_v135 (F := Ideal) x0 x1 x2 x3 x4 x5 x6 x7 (ix2 i k) = Gcn.logSoftmax (fun k' : Fin 32 => val_main_v134 (F := Ideal) x0 x1 x2 x3 x4 x5 x6 x7 (ix2 i k')) k := by
  rw [val_main_v135_apply, Ideal.subf_def, ref_shift, val_main_call5_v10_apply, val_main_call5_v9_apply,
    Ideal.hostUnary_log_def, val_main_call5_v8_apply]
  have h8 : idx_main_call5_v8 (idx_main_call5_v10 (ix2 i k)) = ix1 i := funext fun a => Fin.ext (by match a with | ⟨0, _⟩ => rfl)
  rw [h8, val_main_call5_v7_apply, val_main_call5_cst_1_apply]
  refine logSoftmax_read (fun k' : Fin 32 => val_main_v134 (F := Ideal) x0 x1 x2 x3 x4 x5 x6 x7 (ix2 i k')) (val_main_call5_v2 (F := Ideal) x0 x1 x2 x3 x4 x5 x6 x7 (ix1 i)) _ k (ref_rowmax x0 x1 x2 x3 x4 x5 x6 x7 i) ?_
  refine congrArg (_ + ·) (Finset.sum_congr rfl fun k' _ => ?_)
  have h7 : idx_main_call5_v7 (ix1 i) k' = ix2 i k' := funext fun a => Fin.ext (by match a with | ⟨0, _⟩ => rfl | ⟨1, _⟩ => rfl)
  rw [h7, val_main_call5_v6_apply, Ideal.hostUnary_exp_def, ref_shift]

end Cert.ReferenceIdeal.LayerB

end
-- ==== Proof.RefValue.lean ====
/-
  The reference's result is the reference's arrangement of the network, `Gcn.refNet`, of the argument arrays: the third
  layer's log_softmax over the second hidden layer, which is the relu of the second layer over the first hidden layer,
  which is the relu of the first layer over the input features; the source and target words are the same two vectors
  throughout.
-/
import proofs.«123766_j46617575031251_2_alg».proof.Proof.RefLayerA1
import proofs.«123766_j46617575031251_2_alg».proof.Proof.RefLayerA2
import proofs.«123766_j46617575031251_2_alg».proof.Proof.RefLayerBLayer
import proofs.«123766_j46617575031251_2_alg».proof.Proof.RefLayerBOut

noncomputable section

namespace Cert.ReferenceIdeal.NetValue

open Cert.ReferenceIdeal Cert.ReferenceIdeal.Gen Cert.ReferenceIdeal.ReadP Idealize.ShloMosaic Idealize.ShloMosaic.ValueIdx

/-- The reference's result, entry by entry, as the reference's arrangement of the network on the arguments. -/
theorem ref_value (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal)) (i : Fin 50000) (k : Fin 32) :
    val_main_v135 (F := Ideal) x0 x1 x2 x3 x4 x5 x6 x7 (ix2 i k)
      = Gcn.refNet (N := 50000) (E := 850000) (K := 128) (H := 96) (C := 32) (by decide) 50000#32
          (fun (i : Fin 50000) (q : Fin 128) => x0 (ix2 i q)) (fun (q : Fin 128) (c : Fin 96) => x2 (ix2 q c)) (fun c : Fin 96 => x3 (ix1 c))
          (fun (q : Fin 96) (c : Fin 96) => x4 (ix2 q c)) (fun c : Fin 96 => x5 (ix1 c))
          (fun (q : Fin 96) (c : Fin 32) => x6 (ix2 q c)) (fun q : Fin 32 => x7 (ix1 q))
          (fun e : Fin 850000 => val_main_v3 (F := Ideal) x1 (ix1 e))
          (fun e : Fin 850000 => val_main_v6 (F := Ideal) x1 (ix1 e)) i k := by
  rw [LayerB.ref_out,
    show (fun k' : Fin 32 => val_main_v134 (F := Ideal) x0 x1 x2 x3 x4 x5 x6 x7 (ix2 i k'))
        = fun k' : Fin 32 => Gcn.refLayer (N := 50000) (E := 850000) (by decide) 50000#32 (fun (i : Fin 50000) (q : Fin 96) => val_main_v92 (F := Ideal) x0 x1 x2 x3 x4 x5 (ix2 i q)) (fun (q : Fin 96) (c : Fin 32) => x6 (ix2 q c)) (fun q : Fin 32 => x7 (ix1 q))
          (fun e : Fin 850000 => val_main_v3 (F := Ideal) x1 (ix1 e))
          (fun e : Fin 850000 => val_main_v6 (F := Ideal) x1 (ix1 e)) i k'
      from funext fun k' => LayerB.ref_layer3 x0 x1 x2 x3 x4 x5 x6 x7 i k',
    show (fun (i : Fin 50000) (q : Fin 96) => val_main_v92 (F := Ideal) x0 x1 x2 x3 x4 x5 (ix2 i q))
        = fun (i : Fin 50000) (q : Fin 96) => max (Gcn.refLayer (N := 50000) (E := 850000) (by decide) 50000#32
          (fun (i : Fin 50000) (q : Fin 96) => val_main_v49 (F := Ideal) x0 x1 x2 x3 (ix2 i q))
          (fun (q : Fin 96) (c : Fin 96) => x4 (ix2 q c)) (fun c : Fin 96 => x5 (ix1 c))
          (fun e : Fin 850000 => val_main_v3 (F := Ideal) x1 (ix1 e))
          (fun e : Fin 850000 => val_main_v6 (F := Ideal) x1 (ix1 e)) i q) 0
      from funext fun i => funext fun q => LayerA.ref_h2 x0 x1 x2 x3 x4 x5 i q,
    show (fun (i : Fin 50000) (q : Fin 96) => val_main_v49 (F := Ideal) x0 x1 x2 x3 (ix2 i q))
        = fun (i : Fin 50000) (q : Fin 96) => max (Gcn.refLayer (N := 50000) (E := 850000) (by decide) 50000#32
          (fun (i : Fin 50000) (q : Fin 128) => x0 (ix2 i q)) (fun (q : Fin 128) (c : Fin 96) => x2 (ix2 q c))
          (fun c : Fin 96 => x3 (ix1 c))
          (fun e : Fin 850000 => val_main_v3 (F := Ideal) x1 (ix1 e))
          (fun e : Fin 850000 => val_main_v6 (F := Ideal) x1 (ix1 e)) i q) 0
      from funext fun i => funext fun q => LayerA.ref_h1 x0 x1 x2 x3 i q]
  rfl

end Cert.ReferenceIdeal.NetValue

end
-- ==== Proof.GcnMathBase.lean ====
/-
  The algebra behind the equality of the two arrangements of a graph convolution (part one): reals inside the
  extended reals, sums reindexed by a bijection of the edges, the scale of a node is a real, a word that lands on
  a node reads that node's row, and sums over a width padded by zero terms.
-/
import Idealize.ShloMosaic.Lib.IdealHost
import proofs.«123766_j46617575031251_2_alg».proof.Proof.Spec

noncomputable section

namespace Gcn

open Idealize.ShloMosaic

variable {N E : Nat}

/-! ## Reals inside the extended reals -/

/-- The extended real is a real. -/
def IsReal (a : EReal) : Prop := ∃ r : ℝ, a = (r : EReal)

theorem IsReal.mul {a b : EReal} (ha : IsReal a) (hb : IsReal b) : IsReal (a * b) := by
  obtain ⟨r, rfl⟩ := ha
  obtain ⟨q, rfl⟩ := hb
  exact ⟨r * q, (EReal.coe_mul r q).symm⟩

theorem IsReal.add {a b : EReal} (ha : IsReal a) (hb : IsReal b) : IsReal (a + b) := by
  obtain ⟨r, rfl⟩ := ha
  obtain ⟨q, rfl⟩ := hb
  exact ⟨r + q, (EReal.coe_add r q).symm⟩

theorem isReal_zero : IsReal 0 := ⟨0, rfl⟩

theorem IsReal.max_zero {a : EReal} (ha : IsReal a) : IsReal (max a 0) := by
  rcases le_total a 0 with h | h
  · rw [max_eq_right h]; exact isReal_zero
  · rw [max_eq_left h]; exact ha

/-- A finite sum of reals is a real. -/
theorem isReal_sum {ι : Type} (s : Finset ι) (f : ι → EReal) : (∀ e ∈ s, IsReal (f e)) → IsReal (∑ e ∈ s, f e) := by
  classical
  refine Finset.induction_on s ?_ ?_
  · intro _
    rw [Finset.sum_empty]; exact isReal_zero
  · intro a s ha ih h
    rw [Finset.sum_insert ha]
    exact (h a (Finset.mem_insert_self a s)).add (ih fun e he => h e (Finset.mem_insert_of_mem he))

/-- A real factor goes inside a finite sum of reals (on the extended reals this needs the terms to be reals). -/
theorem sum_mul_real {ι : Type} (s : Finset ι) (a : ι → EReal) (d : EReal) (ha : ∀ e, IsReal (a e)) (hd : IsReal d) :
    (∑ e ∈ s, a e) * d = ∑ e ∈ s, a e * d := by
  classical
  obtain ⟨q, rfl⟩ := hd
  refine Finset.induction_on s ?_ ?_
  · rw [Finset.sum_empty, Finset.sum_empty, zero_mul]
  · intro x s hx ih
    rw [Finset.sum_insert hx, Finset.sum_insert hx, ← ih]
    obtain ⟨r, hr⟩ := ha x
    obtain ⟨p, hp⟩ := isReal_sum s a (fun e _ => ha e)
    rw [hr, hp, ← EReal.coe_add, ← EReal.coe_mul, ← EReal.coe_mul, ← EReal.coe_mul, ← EReal.coe_add, add_mul]

/-! ## Edges taken in another order -/

/-- A filtered sum over the edges, reindexed by a bijection of the edges. -/
theorem sum_filter_comp (σ : Fin E → Fin E) (hσ : Function.Bijective σ) (P : Fin E → Prop) [DecidablePred P]
    (g : Fin E → EReal) :
    ∑ e ∈ Finset.univ.filter (fun e => P (σ e)), g (σ e) = ∑ e ∈ Finset.univ.filter P, g e := by
  rw [Finset.sum_filter, Finset.sum_filter]
  exact hσ.sum_comp (fun e => if P e then g e else 0)

theorem deg_comp (t : Fin E → BitVec 32) (σ : Fin E → Fin E) (hσ : Function.Bijective σ) (i : Fin N) :
    deg (fun e => t (σ e)) i = deg t i := by
  unfold deg
  exact sum_filter_comp σ hσ (fun e => (t e).toInt = (i.val : Int)) (fun _ => oneW)

theorem dinv_comp (t : Fin E → BitVec 32) (σ : Fin E → Fin E) (hσ : Function.Bijective σ) :
    (dinv (fun e => t (σ e)) : Fin N → EReal) = dinv t := by
  funext i
  unfold dinv
  rw [deg_comp t σ hσ]

theorem aggregate_comp {M : Nat} (hN : 0 < N) (nW : BitVec 32) (Y : Fin N → Fin M → EReal) (s t : Fin E → BitVec 32)
    (σ : Fin E → Fin E) (hσ : Function.Bijective σ) :
    aggregate hN nW Y (fun e => s (σ e)) (fun e => t (σ e)) = aggregate hN nW Y s t := by
  funext i c
  unfold aggregate
  exact sum_filter_comp σ hσ (fun e => (t e).toInt = (i.val : Int)) (fun e => Y (row hN nW (s e)) c)

/-! ## The scale of a node is a real -/

theorem oneW_eq : oneW = ((1 : ℝ) : EReal) := by
  show Ideal.ofBits .f32 0x3F800000#32 = _
  rw [Ideal.ofBits_one_f32]
  exact EReal.coe_one.symm

/-- The maximum of any extended real with one is a real at least one, or the top. -/
theorem max_one_cases (d : EReal) : (∃ q : ℝ, 1 ≤ q ∧ max d ((1 : ℝ) : EReal) = (q : EReal)) ∨ max d ((1 : ℝ) : EReal) = ⊤ := by
  induction d using EReal.rec with
  | bot => exact Or.inl ⟨1, le_refl _, max_eq_right bot_le⟩
  | top => exact Or.inr (max_eq_left le_top)
  | coe r =>
    rcases le_total (r : EReal) ((1 : ℝ) : EReal) with h | h
    · exact Or.inl ⟨1, le_refl _, max_eq_right h⟩
    · exact Or.inl ⟨r, EReal.coe_le_coe_iff.mp h, max_eq_left h⟩

/-- The reciprocal square root of the maximum with one, and the zero elsewhere: a real in every case. -/
theorem isReal_dinvOf (d : EReal) : IsReal (dinvOf d) := by
  unfold dinvOf Scalar.select
  split
  · rw [oneW_eq]
    rcases max_one_cases d with ⟨q, hq, h⟩ | h
    · rw [h, Ideal.rsqrt_coe, if_neg (by linarith), if_neg (by linarith)]
      exact ⟨_, rfl⟩
    · rw [h, Ideal.rsqrt_top]; exact isReal_zero
  · exact isReal_zero

theorem isReal_dinv (t : Fin E → BitVec 32) (i : Fin N) : IsReal (dinv t i) := isReal_dinvOf _

/-! ## A word that lands on a node reads that node's row -/

theorem row_of_lands (hN : 0 < N) (nW v : BitVec 32) (i : Fin N) (h : v.toInt = (i.val : Int)) : row hN nW v = i := by
  have hs : v.slt 0#32 = false := by
    unfold BitVec.slt
    have : ¬ (v.toInt < (0#32).toInt) := by
      rw [h]; simp
    exact decide_eq_false this
  have hw : wrap nW v = v := by
    unfold wrap Scalar.select IntOp.cmpi
    simp [hs]
  unfold row RowIndexed.nodeOf
  rw [hw]
  apply Fin.ext
  have hi := i.isLt
  simp only [h, Int.toNat_natCast]
  omega

/-! ## A width padded by zero terms -/

/-- A sum over a wider index set whose terms vanish beyond the narrow width is the sum over the narrow width. -/
theorem sum_pad {K K' : Nat} (hK : K ≤ K') (f : Fin K' → EReal) (hf : ∀ k : Fin K', K ≤ k.val → f k = 0) :
    ∑ k : Fin K', f k = ∑ k : Fin K, f (Fin.castLE hK k) := by
  obtain ⟨m, rfl⟩ := Nat.exists_eq_add_of_le hK
  rw [Fin.sum_univ_add]
  have h0 : ∑ j : Fin m, f (Fin.natAdd K j) = 0 :=
    Finset.sum_eq_zero fun j _ => hf _ (by simp [Fin.natAdd])
  rw [h0, add_zero]
  rfl

/-- A product against a weight matrix padded by zero rows and zero columns: beyond the true width it vanishes, and
    inside it only the true rows contribute. -/
theorem matProd_padMat {n K M K' M' : Nat} (hK : K ≤ K') (X' : Fin n → Fin K' → EReal) (W : Fin K → Fin M → EReal)
    (j : Fin n) (c' : Fin M') :
    matProd X' (padMat W) j c'
      = if h : c'.val < M then ∑ k : Fin K, X' j (Fin.castLE hK k) * W k ⟨c'.val, h⟩ else 0 := by
  unfold matProd
  by_cases h : c'.val < M
  · rw [dif_pos h, sum_pad hK _ (fun k hk => by unfold padMat; rw [dif_neg (by omega), mul_zero])]
    refine Finset.sum_congr rfl fun k _ => ?_
    unfold padMat
    rw [dif_pos (⟨k.isLt, h⟩ : (Fin.castLE hK k).val < K ∧ c'.val < M)]
    rfl
  · rw [dif_neg h]
    refine Finset.sum_eq_zero fun k _ => ?_
    unfold padMat
    rw [dif_neg (fun hh => h hh.2), mul_zero]

theorem isReal_matProd {n K M : Nat} (X : Fin n → Fin K → EReal) (hX : ∀ j k, IsReal (X j k))
    (W : Fin K → Fin M → EReal) (hW : ∀ k c, IsReal (W k c)) (j : Fin n) (c : Fin M) : IsReal (matProd X W j c) := by
  unfold matProd
  exact isReal_sum _ _ fun k _ => (hX j k).mul (hW k c)

end Gcn

end
-- ==== Proof.GcnMath.lean ====
/-
  The equality of the two arrangements of a three-layer graph convolution (part two): one layer in the kernel's
  arrangement (rows of the product scaled before the messages are gathered, the aggregate scaled after, widths padded
  by zeros) is the layer in the reference's arrangement (every message scaled by both factors), and the three layers
  composed.

  The one step that needs finiteness is taking the node's factor inside the sum over its edges; every factor is a
  real because the scale of a node is a real whatever its degree, and the rows are reals because the inputs are.
-/
import proofs.«123766_j46617575031251_2_alg».proof.Proof.GcnMathBase

noncomputable section

namespace Gcn

open Idealize.ShloMosaic

variable {N E : Nat}

/-- The kernel's aggregate of scaled rows, scaled once more by the node's factor: the reference's sum of messages
    inside the true width, zero in the padding. -/
theorem aggregate_scaled {K K' M M' : Nat} (hN : 0 < N) (nW : BitVec 32) (hK : K ≤ K')
    (X' : Fin N → Fin K' → EReal) (X : Fin N → Fin K → EReal) (hX' : ∀ j k, X' j (Fin.castLE hK k) = X j k)
    (hX : ∀ j k, IsReal (X j k)) (W : Fin K → Fin M → EReal) (hW : ∀ k c, IsReal (W k c))
    (s t : Fin E → BitVec 32) (i : Fin N) (c' : Fin M') :
    aggregate hN nW (scaledProd X' (padMat W) (dinv t)) s t i c' * dinv t i
      = if h : c'.val < M then
          ∑ e ∈ Finset.univ.filter (fun e : Fin E => (t e).toInt = (i.val : Int)),
            (dinv t (row hN nW (s e)) * dinv t (row hN nW (t e))) * matProd X W (row hN nW (s e)) ⟨c'.val, h⟩
        else 0 := by
  have hP : ∀ j, matProd X' (padMat W : Fin K' → Fin M' → EReal) j c'
      = if h : c'.val < M then matProd X W j ⟨c'.val, h⟩ else 0 := by
    intro j
    rw [matProd_padMat hK]
    by_cases h : c'.val < M
    · rw [dif_pos h, dif_pos h]
      unfold matProd
      exact Finset.sum_congr rfl fun k _ => by rw [hX']
    · rw [dif_neg h, dif_neg h]
  unfold aggregate scaledProd
  by_cases h : c'.val < M
  · rw [dif_pos h]
    have hP' : ∀ j, matProd X' (padMat W : Fin K' → Fin M' → EReal) j c' = matProd X W j ⟨c'.val, h⟩ := by
      intro j; rw [hP j, dif_pos h]
    simp only [hP']
    rw [sum_mul_real _ _ _ (fun e => (isReal_matProd X hX W hW _ _).mul (isReal_dinv t _)) (isReal_dinv t i)]
    refine Finset.sum_congr rfl fun e he => ?_
    have hte : row hN nW (t e) = i := row_of_lands hN nW (t e) i (Finset.mem_filter.mp he).2
    rw [hte, mul_assoc, mul_comm]
  · rw [dif_neg h]
    have hP' : ∀ j, matProd X' (padMat W : Fin K' → Fin M' → EReal) j c' = 0 := by
      intro j; rw [hP j, dif_neg h]
    simp only [hP', zero_mul, Finset.sum_const_zero]

/-- A hidden layer: the kernel's arrangement on padded widths is the reference's layer followed by the maximum with
    zero inside the true width, and zero in the padding. -/
theorem layer_hidden {K K' M M' : Nat} (hN : 0 < N) (nW : BitVec 32) (hK : K ≤ K')
    (X' : Fin N → Fin K' → EReal) (X : Fin N → Fin K → EReal) (hX' : ∀ j k, X' j (Fin.castLE hK k) = X j k)
    (hX : ∀ j k, IsReal (X j k)) (W : Fin K → Fin M → EReal) (hW : ∀ k c, IsReal (W k c)) (b : Fin M → EReal)
    (s t : Fin E → BitVec 32) (i : Fin N) (c' : Fin M') :
    biasRelu (aggregate hN nW (scaledProd X' (padMat W) (dinv t)) s t) (dinv t) (padVec b) i c'
      = if h : c'.val < M then max (refLayer hN nW X W b s t i ⟨c'.val, h⟩) 0 else 0 := by
  unfold biasRelu
  rw [aggregate_scaled hN nW hK X' X hX' hX W hW s t i c']
  unfold padVec refLayer
  by_cases h : c'.val < M
  · rw [dif_pos h, dif_pos h, dif_pos h]
  · rw [dif_neg h, dif_neg h, dif_neg h, add_zero, max_self]

/-- The reference's layer of reals is a real. -/
theorem isReal_refLayer {K M : Nat} (hN : 0 < N) (nW : BitVec 32) (X : Fin N → Fin K → EReal)
    (hX : ∀ j k, IsReal (X j k)) (W : Fin K → Fin M → EReal) (hW : ∀ k c, IsReal (W k c)) (b : Fin M → EReal)
    (hb : ∀ c, IsReal (b c)) (s t : Fin E → BitVec 32) (i : Fin N) (c : Fin M) :
    IsReal (refLayer hN nW X W b s t i c) := by
  unfold refLayer
  exact (isReal_sum _ _ fun e _ =>
    ((isReal_dinv t _).mul (isReal_dinv t _)).mul (isReal_matProd X hX W hW _ _)).add (hb c)

/-- The kernel's network does not depend on the order of the edges. -/
theorem kerNet_comp {K H Hp C : Nat} (hN : 0 < N) (nW : BitVec 32) (x : Fin N → Fin K → EReal)
    (W1 : Fin K → Fin H → EReal) (b1 : Fin H → EReal) (W2 : Fin H → Fin H → EReal) (b2 : Fin H → EReal)
    (W3 : Fin H → Fin C → EReal) (b3 : Fin C → EReal) (s t : Fin E → BitVec 32) (σ : Fin E → Fin E)
    (hσ : Function.Bijective σ) :
    kerNet (Hp := Hp) hN nW x W1 b1 W2 b2 W3 b3 (fun e => s (σ e)) (fun e => t (σ e))
      = kerNet (Hp := Hp) hN nW x W1 b1 W2 b2 W3 b3 s t := by
  unfold kerNet
  simp only [dinv_comp t σ hσ, aggregate_comp hN nW _ s t σ hσ]

theorem kerNet_eq_refNet {N E K H Hp C : Nat} (hN : 0 < N) (nW : BitVec 32) (hH : H ≤ Hp)
    (x : Fin N → Fin K → EReal) (W1 : Fin K → Fin H → EReal) (b1 : Fin H → EReal)
    (W2 : Fin H → Fin H → EReal) (b2 : Fin H → EReal) (W3 : Fin H → Fin C → EReal) (b3 : Fin C → EReal)
    (hx : ∀ i k, ∃ r : ℝ, x i k = (r : EReal)) (hW1 : ∀ k c, ∃ r : ℝ, W1 k c = (r : EReal)) (hb1 : ∀ c, ∃ r : ℝ, b1 c = (r : EReal))
    (hW2 : ∀ k c, ∃ r : ℝ, W2 k c = (r : EReal)) (hb2 : ∀ c, ∃ r : ℝ, b2 c = (r : EReal)) (hW3 : ∀ k c, ∃ r : ℝ, W3 k c = (r : EReal))
    (s t : Fin E → BitVec 32) (σ : Fin E → Fin E) (hσ : Function.Bijective σ) (i : Fin N) (c : Fin C) :
    kerNet (Hp := Hp) hN nW x W1 b1 W2 b2 W3 b3 (fun e => s (σ e)) (fun e => t (σ e)) i c
      = refNet hN nW x W1 b1 W2 b2 W3 b3 s t i c := by
  rw [kerNet_comp hN nW x W1 b1 W2 b2 W3 b3 s t σ hσ]
  -- the hidden rows of the reference, and of the kernel
  have hX1 : ∀ j k, IsReal (max (refLayer hN nW x W1 b1 s t j k) 0) := fun j k =>
    (isReal_refLayer hN nW x hx W1 hW1 b1 hb1 s t j k).max_zero
  have hX2 : ∀ j k, IsReal (max (refLayer hN nW (fun i k => max (refLayer hN nW x W1 b1 s t i k) 0) W2 b2 s t j k) 0) :=
    fun j k => (isReal_refLayer hN nW _ hX1 W2 hW2 b2 hb2 s t j k).max_zero
  have L1 : ∀ j (k : Fin H),
      biasRelu (aggregate hN nW (scaledProd x (padMat (K' := K) (M' := Hp) W1) (dinv t)) s t) (dinv t) (padVec b1) j
        (Fin.castLE hH k) = max (refLayer hN nW x W1 b1 s t j k) 0 := by
    intro j k
    rw [layer_hidden hN nW (le_refl K) x x (fun _ _ => rfl) hx W1 hW1 b1 s t j (Fin.castLE hH k)]
    exact dif_pos k.isLt
  have L2 : ∀ j (k : Fin H),
      biasRelu (aggregate hN nW (scaledProd
          (biasRelu (aggregate hN nW (scaledProd x (padMat (K' := K) (M' := Hp) W1) (dinv t)) s t) (dinv t) (padVec b1))
          (padMat (K' := Hp) (M' := Hp) W2) (dinv t)) s t) (dinv t) (padVec b2) j (Fin.castLE hH k)
        = max (refLayer hN nW (fun i k => max (refLayer hN nW x W1 b1 s t i k) 0) W2 b2 s t j k) 0 := by
    intro j k
    rw [layer_hidden hN nW hH _ _ L1 hX1 W2 hW2 b2 s t j (Fin.castLE hH k)]
    exact dif_pos k.isLt
  have L3 : ∀ c' : Fin C,
      aggregate hN nW (scaledProd
          (biasRelu (aggregate hN nW (scaledProd
            (biasRelu (aggregate hN nW (scaledProd x (padMat (K' := K) (M' := Hp) W1) (dinv t)) s t) (dinv t) (padVec b1))
            (padMat (K' := Hp) (M' := Hp) W2) (dinv t)) s t) (dinv t) (padVec b2))
          (padMat (K' := Hp) (M' := C) W3) (dinv t)) s t i c' * dinv t i + b3 c'
        = refLayer hN nW (fun i k => max (refLayer hN nW (fun i k => max (refLayer hN nW x W1 b1 s t i k) 0) W2 b2 s t i k) 0)
            W3 b3 s t i c' := by
    intro c'
    rw [aggregate_scaled hN nW hH _ _ L2 hX2 W3 hW3 s t i c', dif_pos c'.isLt]
    rfl
  exact congrArg (fun z : Fin C → EReal => logSoftmax z c) (funext L3)

end Gcn

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.LibFiniteInputs.lean ====
/-
  A "finite inputs" precondition read back: an array every entry of which has |x| < +∞ is an array of real numbers.

  Such a precondition computes, for an array x, the conjunction over all entries of the comparison |x| < +∞ (the absolute
  value as max x (−x), +∞ as the f32 word 0x7F800000 broadcast to the array's shape, the conjunction as a reduce by 'and'
  over every axis from the constant 1). If that conjunction is 1 every comparison is 1; an extended real whose absolute
  value is below +∞ is neither −∞ (whose absolute value is +∞) nor +∞, so it is a real number.
-/
import proofs.«123766_j46617575031251_2_alg».proof.Proof.LibMoments
import Idealize.ShloMosaic.PureOps.Ideal
import Idealize.ShloMosaic.Lib.ReduceAll
import Idealize.ShloMosaic.Lib.ValueIdx

noncomputable section

namespace Cert.LibFiniteInputs

open Idealize.ShloMosaic

/-- The shape of a scalar. -/
abbrev S0 : Shape := ⟨0, ![]⟩

/-- The shape of a scalar has exactly one index. -/
instance subsingleton_scalar_idx : Subsingleton S0.Idx := ⟨fun a b => funext fun d => d.elim0⟩

/-- The word 0x7F800000 is +∞. -/
theorem posInf_val : Ideal.ofBits .f32 0x7F800000#32 = (⊤ : EReal) := by simp [Ideal.ofBits, Ideal.ieee]

/-- An extended real whose absolute value max x (−x) compares below +∞ is a real number: −∞ has absolute value +∞, and
    so has +∞. -/
theorem real_of_abs_lt (x : EReal) (h : Ideal.cmp .olt (max x (-x)) (Ideal.ofBits .f32 0x7F800000#32) = 1#1) :
    Moments.Fin' x := by
  rw [posInf_val] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | top => exact absurd hlt (by simp)
  | coe r => exact ⟨r, rfl⟩

/-- If the conjunction over a whole array of the comparisons |x| < +∞ is 1, every entry of the array is real. -/
theorem all_real {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ValueIdx.ix0 = 1#1) (i : s.Idx) : Moments.Fin' (x i) :=
  real_of_abs_lt (x i) (Host.reduce_andi_all _ _ hr hu ValueIdx.ix0 e i)

end Cert.LibFiniteInputs

end
-- ==== Proof.Finite.lean ====
/-
  The precondition read back: when `finite_inputs` evaluates to 1 on the argument arrays, every entry of every float
  argument is a real number. The precondition is the conjunction, over the seven float arguments, of "every entry has
  |x| < +∞"; a conjunction of bits is 1 exactly when each is.
-/
import proofs.«123766_j46617575031251_2_alg».proof.Pre_finite_inputs
import proofs.«123766_j46617575031251_2_alg».proof.Proof.LibFiniteInputs
import Idealize.ShloMosaic.Lib.Affine

noncomputable section

namespace Cert.Proof.Finite

open Idealize.ShloMosaic Cert.Pre_finite_inputs Cert.Pre_finite_inputs.Facts Cert.LibFiniteInputs

variable [hF : Cert.Pre_finite_inputs.Facts]

/-- If the precondition is 1, each float argument holds real numbers only. -/
theorem inputs_real (a0 : FVec Ideal S50000x128 .f32) (a1 : IVec S2x800000 32) (a2 : FVec Ideal S128x96 .f32)
    (a3 : FVec Ideal S96 .f32) (a4 : FVec Ideal S96x96 .f32) (a5 : FVec Ideal S96 .f32) (a6 : FVec Ideal S96x32 .f32)
    (a7 : FVec Ideal S32 .f32)
    (h : Cert.Pre_finite_inputs.fn (F := Ideal) a0 a1 a2 a3 a4 a5 a6 a7 = fun _ => 1#1) :
    (∀ i, Moments.Fin' (a0 i)) ∧ (∀ i, Moments.Fin' (a2 i)) ∧ (∀ i, Moments.Fin' (a3 i)) ∧ (∀ i, Moments.Fin' (a4 i))
      ∧ (∀ i, Moments.Fin' (a5 i)) ∧ (∀ i, Moments.Fin' (a6 i)) ∧ (∀ i, Moments.Fin' (a7 i)) := by
  have h0 := congrFun h ValueIdx.ix0
  dsimp only [fn, fn_part1] at h0
  simp only [andi, IntOp.andi_eq_one] at h0
  obtain ⟨⟨⟨⟨⟨⟨e0, e2⟩, e3⟩, e4⟩, e5⟩, e6⟩, e7⟩ := h0
  exact ⟨all_real a0 _ _ _ e0, all_real a2 _ _ _ e2, all_real a3 _ _ _ e3, all_real a4 _ _ _ e4,
    all_real a5 _ _ _ e5, all_real a6 _ _ _ e6, all_real a7 _ _ _ e7⟩

end Cert.Proof.Finite

end
-- ==== Proof.LibArgsort.lean ====
/-
  An argsort read at a position, and the row its words address.

  A sort of keys `x` carrying the positions `0, 1, …, n - 1` (an iota) returns, at position `e`, the word of the
  position `σ e` the stable sort takes its `e`-th element from, where `σ` is a permutation of the positions. That word
  is non-negative as a signed word while `n < 2^31` (so a wrap of negative words, `select (v <s 0) (v + n) v`, leaves it
  alone) and, being below `n`, its clamp into `[0, n - 1]` is the identity: as a row index the word addresses row
  `σ e` itself.
-/
import Idealize.ShloMosaic.Lib.SortFacts
import Idealize.ShloMosaic.Lib.ValueIdx
import proofs.«123766_j46617575031251_2_alg».proof.Proof.LibRowIndexed

namespace Idealize.ShloMosaic.Argsort

open Idealize.ShloMosaic ValueIdx

/-- The rank-1 index at a coordinate, in its two spellings. -/
theorem ofFin_eq_ix1 {n : Nat} (k : Fin n) : (Shape.Idx.ofFin k : (⟨1, ![n]⟩ : Shape).Idx) = ix1 k := by
  funext d
  match d with
  | ⟨0, _⟩ => exact Fin.ext rfl

/-- The carried iota of a two-operand sort along the one axis of a vector: position `e` holds the word of the
    position the stable sort takes its `e`-th element from. -/
theorem sort2_iota_apply {n : Nat} {α : Type} (cmp : α × BitVec 32 → α × BitVec 32 → BitVec 1)
    (x : (⟨1, ![n]⟩ : Shape).Idx → α) (e : Fin n) :
    (Host.sort2 ⟨1, ![n]⟩ 0 cmp x (iotaInDim ⟨1, ![n]⟩ 32 0)).2 (ix1 e)
      = BitVec.ofNat 32 (sortedFrom (fun k k' : Fin n =>
          cmp (x (Shape.Idx.ofFin k), iotaInDim ⟨1, ![n]⟩ 32 0 (Shape.Idx.ofFin k))
            (x (Shape.Idx.ofFin k'), iotaInDim ⟨1, ![n]⟩ 32 0 (Shape.Idx.ofFin k')) == 1#1) e).val := by
  unfold Host.sort2
  simp [iotaInDim]

/-- The first operand of the same sort: position `e` holds the key of the position the sort takes it from. -/
theorem sort2_keys_apply {n : Nat} {α β : Type} (cmp : α × β → α × β → BitVec 1)
    (x : (⟨1, ![n]⟩ : Shape).Idx → α) (y : (⟨1, ![n]⟩ : Shape).Idx → β) (e : Fin n) :
    (Host.sort2 ⟨1, ![n]⟩ 0 cmp x y).1 (ix1 e)
      = x (Shape.Idx.ofFin (sortedFrom (fun k k' : Fin n =>
          cmp (x (Shape.Idx.ofFin k), y (Shape.Idx.ofFin k)) (x (Shape.Idx.ofFin k'), y (Shape.Idx.ofFin k')) == 1#1) e)) := by
  unfold Host.sort2
  simp

/-- The word of a position below `2^31` reads back, signed, as the position. -/
theorem toInt_ofNat_of_lt {k : Nat} (hk : k < 2 ^ 31) : (BitVec.ofNat 32 k).toInt = (k : Int) := by
  have h : (BitVec.ofNat 32 k).toNat = k := by
    rw [BitVec.toNat_ofNat]; exact Nat.mod_eq_of_lt (by omega)
  rw [BitVec.toInt_eq_toNat_of_lt (by rw [h]; omega), h]

/-- The word of a position below `2^31` is not negative as a signed word. -/
theorem slt_zero_ofNat {k : Nat} (hk : k < 2 ^ 31) : (BitVec.ofNat 32 k).slt 0#32 = false := by
  rw [BitVec.slt, toInt_ofNat_of_lt hk]
  simp

/-- As a row index into `n` rows (`n < 2^31`), the word of position `k < n`, read signed and clamped, is row `k`. -/
theorem nodeOf_ofNat {n : Nat} (hn : 0 < n) (hn' : n < 2 ^ 31) (k : Fin n) :
    RowIndexed.nodeOf n hn (BitVec.ofNat 32 k.val) = k := by
  have hk : k.val < 2 ^ 31 := lt_trans k.isLt hn'
  unfold RowIndexed.nodeOf
  refine Fin.ext ?_
  show min (BitVec.ofNat 32 k.val).toInt.toNat (n - 1) = k.val
  rw [toInt_ofNat_of_lt hk]
  have := k.isLt
  simp only [Int.toNat_natCast]
  omega

/-- The stable sort's source map is a permutation of the positions. -/
theorem sortedFrom_bijective {n : Nat} (before : Fin n → Fin n → Bool) : Function.Bijective (sortedFrom before) :=
  ⟨sortedFrom_injective before, sortedFrom_surjective before⟩

end Idealize.ShloMosaic.Argsort
-- ==== Proof.lean ====
/-
  The certificate of a three-layer graph convolution: a Pallas kernel (three matrix products with rows pre-scaled by
  deg^(-1/2), two bias+relu epilogues and a bias+log_softmax epilogue post-scaled by deg^(-1/2), with the gathers and
  scatter-adds of the messages, over edges sorted by target, on the host between them) against the jnp reference
  (messages scaled by deg^(-1/2)[source] · deg^(-1/2)[target], summed per target node, bias, relu / log_softmax).

  The three frames: the kernel's two are the generated frame certificates; the reference's is its run with the result
  dropped. The idealization rewrote nothing, so there is nothing to preserve. On the extended reals the two programs
  compute the same array when every float input is a real number: the kernel's result is the kernel's arrangement of
  the network (Proof/KernelValue.lean, over the run's fold in Proof/KernelChain.lean, the six regions' values, the three
  host stretches between them and the host prefix), the reference's is the reference's arrangement (Proof/RefValue.lean),
  and the two arrangements agree (Proof/GcnMath.lean): a sum over edges is unchanged by the sorting permutation, a real
  factor common to every message moves across the sum, an edge's target scale is the scale of the node it lands on, and
  zero padding adds zeros.
-/
import proofs.«123766_j46617575031251_2_alg».proof.Defs
import proofs.«123766_j46617575031251_2_alg».proof.Proof.Gen.Kernel
import proofs.«123766_j46617575031251_2_alg».proof.Proof.Gen.Kernel.Skeleton
import proofs.«123766_j46617575031251_2_alg».proof.Proof.Gen.Kernel.Launch
import proofs.«123766_j46617575031251_2_alg».proof.Proof.Gen.Kernel.Points
import proofs.«123766_j46617575031251_2_alg».proof.Proof.Gen.Kernel.Frame
import proofs.«123766_j46617575031251_2_alg».proof.Proof.Gen.KernelIdeal
import proofs.«123766_j46617575031251_2_alg».proof.Proof.Gen.KernelIdeal.Skeleton
import proofs.«123766_j46617575031251_2_alg».proof.Proof.Gen.KernelIdeal.Launch
import proofs.«123766_j46617575031251_2_alg».proof.Proof.Gen.KernelIdeal.Points
import proofs.«123766_j46617575031251_2_alg».proof.Proof.Gen.KernelIdeal.Frame
import proofs.«123766_j46617575031251_2_alg».proof.Proof.Gen.ReferenceIdeal
import proofs.«123766_j46617575031251_2_alg».proof.Proof.Gen.Pre_finite_inputs
import proofs.«123766_j46617575031251_2_alg».proof.Proof.KernelRun
import proofs.«123766_j46617575031251_2_alg».proof.Proof.KernelValue
import proofs.«123766_j46617575031251_2_alg».proof.Proof.RefRunValue
import proofs.«123766_j46617575031251_2_alg».proof.Proof.RefValue
import proofs.«123766_j46617575031251_2_alg».proof.Proof.GcnMath
import proofs.«123766_j46617575031251_2_alg».proof.Proof.Finite
import proofs.«123766_j46617575031251_2_alg».proof.Proof.LibArgsort
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunValue.run_value m ρ)

/-- The edge words of the kernel's program and of the reference's are the same two vectors of the same edge array. -/
theorem src_words (ei : IVec Cert.KernelIdeal.S2x800000 32) :
    Cert.ReferenceIdeal.ReadP.val_main_v3 (F := Ideal) ei = Cert.KernelIdeal.PrefixValue.srcK ei := rfl
theorem dst_words (ei : IVec Cert.KernelIdeal.S2x800000 32) :
    Cert.ReferenceIdeal.ReadP.val_main_v6 (F := Ideal) ei = Cert.KernelIdeal.PrefixValue.dstK ei := rfl

/-- From memories agreeing on the arguments, all real, the two idealized programs end with the same result array. -/
theorem algebraic : Cert.algebraic_KernelIdeal_ReferenceIdeal := by
  intro m ρ m' ρ' hpre hagree
  refine ⟨fun c => Cert.KernelIdeal.Gen.W26 (F := Ideal) m ρ c (Proc.devRef .tc Cert.KernelIdeal.main_v80),
    Cert.KernelIdeal.ValueRun.run_value m ρ, ?_⟩
  refine (θ_run Cert.ReferenceIdeal.defs _ _).mono (fun _ h c => ⟨(h c).1.trans ?_, (h c).2⟩)
    (Cert.ReferenceIdeal.RunValue.run_value m' ρ')
  obtain ⟨h0, h1, h2, h3, h4, h5, h6, h7⟩ := hagree c
  obtain ⟨r0, r2, r3, r4, r5, r6, _⟩ := Cert.Proof.Finite.inputs_real _ _ _ _ _ _ _ _ (hpre c)
  rw [h0, h1, h2, h3, h4, h5, h6, h7]
  funext j
  obtain ⟨i, k, rfl⟩ : ∃ (i : Fin 50000) (k : Fin 32), j = ix2 i k := ⟨j 0, j 1, eq_ix2 j⟩
  rw [Cert.ReferenceIdeal.NetValue.ref_value, src_words, dst_words]
  refine Eq.trans ?_ (Cert.KernelIdeal.NetValue.kernel_value m ρ c i k).symm
  exact (Gcn.kerNet_eq_refNet (Hp := 128) (by decide) 50000#32 (by decide) _ _ _ _ _ _ _
    (fun i k => r0 _) (fun k q => r2 _) (fun q => r3 _) (fun k q => r4 _) (fun q => r5 _) (fun k q => r6 _)
    (fun e : Fin 850000 => Cert.KernelIdeal.PrefixValue.srcK _ (ix1 e)) (fun e : Fin 850000 => Cert.KernelIdeal.PrefixValue.dstK _ (ix1 e))
    (Cert.KernelIdeal.PrefixValue.sigma _) (Cert.KernelIdeal.PrefixValue.sigma_bijective _) i k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
